-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1280 : Shape := ⟨3, ![8, 1024, 1280]⟩
abbrev S1280x1280 : Shape := ⟨2, ![1280, 1280]⟩
abbrev S1280 : Shape := ⟨1, ![1280]⟩
abbrev S_ : Shape := ⟨0, ![]⟩

class Facts : Prop where
  bcast_S_S8x1024x1280 : S_.BroadcastsInDim S8x1024x1280 (![] : Fin 0 → Fin S8x1024x1280.rank)
  reducesTo_S8x1024x1280_S_d0_1_2 : S8x1024x1280.ReducesTo [0, 1, 2] S_
  h_S_ : 0 < S_.numel
  bcast_S_S1280x1280 : S_.BroadcastsInDim S1280x1280 (![] : Fin 0 → Fin S1280x1280.rank)
  reducesTo_S1280x1280_S_d0_1 : S1280x1280.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280x1280 .f32) (main_arg5 : FVec F S1280 .f32) (main_v13 : IVec S_ 1) (main_v16 : IVec S1280x1280 1) : IVec S_ 1 :=
  let main_c_5 : IVec S_ 1 := constantI S_ 1 1#1
  let main_v17 : IVec S_ 1 := (fun x v => Host.reduce IntOp.andi x v reducesTo_S1280x1280_S_d0_1 h_S_) main_v16 main_c_5
  let main_v18 : IVec S_ 1 := andi main_v13 main_v17
  let main_v19 : FVec F S1280x1280 .f32 := Host.absf main_arg4
  let main_cst_6 : FVec F S_ .f32 := constant S_ .f32 0x7F800000#32
  let main_v20 : FVec F S1280x1280 .f32 := broadcastInDim S1280x1280 ![] bcast_S_S1280x1280 main_cst_6
  let main_v21 : IVec S1280x1280 1 := cmpf .olt main_v19 main_v20
  let main_c_7 : IVec S_ 1 := constantI S_ 1 1#1
  let main_v22 : IVec S_ 1 := (fun x v => Host.reduce IntOp.andi x v reducesTo_S1280x1280_S_d0_1 h_S_) main_v21 main_c_7
  let main_v23 : IVec S_ 1 := andi main_v18 main_v22
  let main_v24 : FVec F S1280 .f32 := Host.absf main_arg5
  let main_cst_8 : FVec F S_ .f32 := constant S_ .f32 0x7F800000#32
  let main_v25 : FVec F S1280 .f32 := broadcastInDim S1280 ![] bcast_S_S1280 main_cst_8
  let main_v26 : IVec S1280 1 := cmpf .olt main_v24 main_v25
  let main_c_9 : IVec S_ 1 := constantI S_ 1 1#1
  let main_v27 : IVec S_ 1 := (fun x v => Host.reduce IntOp.andi x v reducesTo_S1280_S_d0 h_S_) main_v26 main_c_9
  let main_v28 : IVec S_ 1 := andi main_v23 main_v27
  main_v28

def fn {F : FTy → Type} [FloatOps F] (main_arg0 : FVec F S8x1024x1280 .f32) (main_arg1 : FVec F S1280x1280 .f32) (main_arg2 : FVec F S1280x1280 .f32) (main_arg3 : FVec F S1280x1280 .f32) (main_arg4 : FVec F S1280x1280 .f32) (main_arg5 : FVec F S1280 .f32) : IVec S_ 1 :=
  let main_v0 : FVec F S8x1024x1280 .f32 := Host.absf main_arg0
  let main_cst : FVec F S_ .f32 := constant S_ .f32 0x7F800000#32
  let main_v1 : FVec F S8x1024x1280 .f32 := broadcastInDim S8x1024x1280 ![] bcast_S_S8x1024x1280 main_cst
  let main_v2 : IVec S8x1024x1280 1 := cmpf .olt main_v0 main_v1
  let main_c : IVec S_ 1 := constantI S_ 1 1#1
  let main_v3 : IVec S_ 1 := (fun x v => Host.reduce IntOp.andi x v reducesTo_S8x1024x1280_S_d0_1_2 h_S_) main_v2 main_c
  let main_v4 : FVec F S1280x1280 .f32 := Host.absf main_arg1
  let main_cst_0 : FVec F S_ .f32 := constant S_ .f32 0x7F800000#32
  let main_v5 : FVec F S1280x1280 .f32 := broadcastInDim S1280x1280 ![] bcast_S_S1280x1280 main_cst_0
  let main_v6 : IVec S1280x1280 1 := cmpf .olt main_v4 main_v5
  let main_c_1 : IVec S_ 1 := constantI S_ 1 1#1
  let main_v7 : IVec S_ 1 := (fun x v => Host.reduce IntOp.andi x v reducesTo_S1280x1280_S_d0_1 h_S_) main_v6 main_c_1
  let main_v8 : IVec S_ 1 := andi main_v3 main_v7
  let main_v9 : FVec F S1280x1280 .f32 := Host.absf main_arg2
  let main_cst_2 : FVec F S_ .f32 := constant S_ .f32 0x7F800000#32
  let main_v10 : FVec F S1280x1280 .f32 := broadcastInDim S1280x1280 ![] bcast_S_S1280x1280 main_cst_2
  let main_v11 : IVec S1280x1280 1 := cmpf .olt main_v9 main_v10
  let main_c_3 : IVec S_ 1 := constantI S_ 1 1#1
  let main_v12 : IVec S_ 1 := (fun x v => Host.reduce IntOp.andi x v reducesTo_S1280x1280_S_d0_1 h_S_) main_v11 main_c_3
  let main_v13 : IVec S_ 1 := andi main_v8 main_v12
  let main_v14 : FVec F S1280x1280 .f32 := Host.absf main_arg3
  let main_cst_4 : FVec F S_ .f32 := constant S_ .f32 0x7F800000#32
  let main_v15 : FVec F S1280x1280 .f32 := broadcastInDim S1280x1280 ![] bcast_S_S1280x1280 main_cst_4
  let main_v16 : IVec S1280x1280 1 := cmpf .olt main_v14 main_v15
  fn_part1 (F := F) main_arg4 main_arg5 main_v13 main_v16
-- ==== Kernel.lean ====
abbrev S8x1024x1280 : Shape := ⟨3, ![8, 1024, 1280]⟩
abbrev S1280x1280 : Shape := ⟨2, ![1280, 1280]⟩
abbrev S1280 : Shape := ⟨1, ![1280]⟩
abbrev S8192x1280 : Shape := ⟨2, ![8192, 1280]⟩
abbrev S3840x1280 : Shape := ⟨2, ![3840, 1280]⟩
abbrev S_ : Shape := ⟨0, ![]⟩
abbrev S3840 : Shape := ⟨1, ![3840]⟩
abbrev S1x3840 : Shape := ⟨2, ![1, 3840]⟩
abbrev S8192x3840 : Shape := ⟨2, ![8192, 3840]⟩
abbrev S1024x1280 : Shape := ⟨2, ![1024, 1280]⟩
abbrev S1024x3840 : Shape := ⟨2, ![1024, 3840]⟩
abbrev S8x1024x3840 : Shape := ⟨3, ![8, 1024, 3840]⟩
abbrev S1x1280 : Shape := ⟨2, ![1, 1280]⟩
abbrev S1x128x1280 : Shape := ⟨3, ![1, 128, 1280]⟩
abbrev S1x1024x1280 : Shape := ⟨3, ![1, 1024, 1280]⟩
abbrev S20x1024x64 : Shape := ⟨3, ![20, 1024, 64]⟩
abbrev S1024x20x64 : Shape := ⟨3, ![1024, 20, 64]⟩
abbrev S128x1280 : Shape := ⟨2, ![128, 1280]⟩
abbrev S128x20x64 : Shape := ⟨3, ![128, 20, 64]⟩
abbrev S20x128x64 : Shape := ⟨3, ![20, 128, 64]⟩
abbrev S20x128x1024 : Shape := ⟨3, ![20, 128, 1024]⟩
abbrev S20x128 : Shape := ⟨2, ![20, 128]⟩
abbrev S20x128x1 : Shape := ⟨3, ![20, 128, 1]⟩

abbrev nBuf : Space → Nat
  | .hbm => 18
  | .vmem => 18
  | .smem => 0
  | _ => 0

abbrev bufTy : (tb : Table) → Fin (tcTables nBuf tb) → BufTy
  | .hbm, ⟨0, _⟩ => ⟨S8x1024x1280, .f32⟩
  | .hbm, ⟨1, _⟩ => ⟨S1280x1280, .f32⟩
  | .hbm, ⟨2, _⟩ => ⟨S1280x1280, .f32⟩
  | .hbm, ⟨3, _⟩ => ⟨S1280x1280, .f32⟩
  | .hbm, ⟨4, _⟩ => ⟨S1280x1280, .f32⟩
  | .hbm, ⟨5, _⟩ => ⟨S1280, .f32⟩
  | .hbm, ⟨6, _⟩ => ⟨S8x1024x1280, .bf16⟩
  | .hbm, ⟨7, _⟩ => ⟨S8192x1280, .bf16⟩
  | .hbm, ⟨8, _⟩ => ⟨S3840x1280, .f32⟩
  | .hbm, ⟨9, _⟩ => ⟨S3840x1280, .bf16⟩
  | .hbm, ⟨10, _⟩ => ⟨S1280x1280, .bf16⟩
  | .hbm, ⟨11, _⟩ => ⟨S_, .f32⟩
  | .hbm, ⟨12, _⟩ => ⟨S3840, .f32⟩
  | .hbm, ⟨13, _⟩ => ⟨S1x3840, .f32⟩
  | .hbm, ⟨14, _⟩ => ⟨S8192x3840, .bf16⟩
  | .hbm, ⟨15, _⟩ => ⟨S8x1024x3840, .bf16⟩
  | .hbm, ⟨16, _⟩ => ⟨S1x1280, .f32⟩
  | .hbm, ⟨17, _⟩ => ⟨S8x1024x1280, .f32⟩
  | .local _ .vmem, ⟨0, _⟩ => ⟨S1024x1280, .bf16⟩
  | .local _ .vmem, ⟨1, _⟩ => ⟨S1024x1280, .bf16⟩
  | .local _ .vmem, ⟨2, _⟩ => ⟨S3840x1280, .bf16⟩
  | .local _ .vmem, ⟨3, _⟩ => ⟨S1x3840, .f32⟩
  | .local _ .vmem, ⟨4, _⟩ => ⟨S1024x3840, .bf16⟩
  | .local _ .vmem, ⟨5, _⟩ => ⟨S1024x3840, .bf16⟩
  | .local _ .vmem, ⟨6, _⟩ => ⟨S1x128x1280, .bf16⟩
  | .local _ .vmem, ⟨7, _⟩ => ⟨S1x128x1280, .bf16⟩
  | .local _ .vmem, ⟨8, _⟩ => ⟨S1x1024x1280, .bf16⟩
  | .local _ .vmem, ⟨9, _⟩ => ⟨S1x1024x1280, .bf16⟩
  | .local _ .vmem, ⟨10, _⟩ => ⟨S1x1024x1280, .bf16⟩
  | .local _ .vmem, ⟨11, _⟩ => ⟨S1x1024x1280, .bf16⟩
  | .local _ .vmem, ⟨12, _⟩ => ⟨S1280x1280, .bf16⟩
  | .local _ .vmem, ⟨13, _⟩ => ⟨S1x1280, .f32⟩
  | .local _ .vmem, ⟨14, _⟩ => ⟨S1x128x1280, .f32⟩
  | .local _ .vmem, ⟨15, _⟩ => ⟨S1x128x1280, .f32⟩
  | .local _ .vmem, ⟨16, _⟩ => ⟨S20x1024x64, .bf16⟩
  | .local _ .vmem, ⟨17, _⟩ => ⟨S20x1024x64, .bf16⟩
  | _, _ => ⟨S8x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3840 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1280x1280 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1280 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x1280 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  shapeCasts_S8x1024x1280_S8192x1280 : S8x1024x1280.ShapeCasts S8192x1280
  concatenates_S1280x1280_S1280x1280_S1280x1280_S3840x1280_d0 : Shape.Concatenates [S1280x1280, S1280x1280, S1280x1280] S3840x1280 0
  bcast_S_S3840 : S_.BroadcastsInDim S3840 (![] : Fin 0 → Fin S3840.rank)
  shapeCasts_S3840_S1x3840 : S3840.ShapeCasts S1x3840
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S3840x1280_S3840x1280_0_0 : ∀ a, (![0, 0] : Fin 2 → Nat) a + S3840x1280.size a ≤ S3840x1280.size a
  h_S3840x1280 : 0 < S3840x1280.numel
  shapeCasts_S3840x1280_S3840x1280 : S3840x1280.ShapeCasts S3840x1280
  inb_S1x3840_S1x3840_0_0 : ∀ a, (![0, 0] : Fin 2 → Nat) a + S1x3840.size a ≤ S1x3840.size a
  h_S1x3840 : 0 < S1x3840.numel
  shapeCasts_S1x3840_S1x3840 : S1x3840.ShapeCasts S1x3840
  broadcasts_S1x3840_S1024x3840 : S1x3840.Broadcasts S1024x3840
  inb_S1024x3840_S1024x3840_0_0 : ∀ a, (![0, 0] : Fin 2 → Nat) a + S1024x3840.size a ≤ S1024x3840.size a
  h_S1024x3840 : 0 < S1024x3840.numel
  packedbf16_S1024x3840_S1024x3840_0_0 : (Rect.unit (s := S1024x3840) ![0, 0] S1024x3840.size inb_S1024x3840_S1024x3840_0_0).PackedRows (EltTy.packing .bf16)
  shapeCasts_S8192x3840_S8x1024x3840 : S8192x3840.ShapeCasts S8x1024x3840
  shapeCasts_S1280_S1x1280 : S1280.ShapeCasts S1x1280
  inb_S1x1024x1280_S1x1024x1280_0_0_0 : ∀ a, (![0, 0, 0] : Fin 3 → Nat) a + S1x1024x1280.size a ≤ S1x1024x1280.size a
  h_S1x1024x1280 : 0 < S1x1024x1280.numel
  shapeCasts_S1x1024x1280_S1024x1280 : S1x1024x1280.ShapeCasts S1024x1280
  shapeCasts_S1024x1280_S1024x20x64 : S1024x1280.ShapeCasts S1024x20x64
  transposes_S1024x20x64_p1_0_2_S20x1024x64 : S1024x20x64.Transposes [1, 0, 2] S20x1024x64
  inb_S20x1024x64_S20x1024x64_0_0_0 : ∀ a, (![0, 0, 0] : Fin 3 → Nat) a + S20x1024x64.size a ≤ S20x1024x64.size a
  h_S20x1024x64 : 0 < S20x1024x64.numel
  shapeCasts_S20x1024x64_S20x1024x64 : S20x1024x64.ShapeCasts S20x1024x64
  packedbf16_S20x1024x64_S20x1024x64_0_0_0 : (Rect.unit (s := S20x1024x64) ![0, 0, 0] S20x1024x64.size inb_S20x1024x64_S20x1024x64_0_0_0).PackedRows (EltTy.packing .bf16)
  inb_S1x128x1280_S1x128x1280_0_0_0 : ∀ a, (![0, 0, 0] : Fin 3 → Nat) a + S1x128x1280.size a ≤ S1x128x1280.size a
  h_S1x128x1280 : 0 < S1x128x1280.numel
  shapeCasts_S1x128x1280_S128x1280 : S1x128x1280.ShapeCasts S128x1280
  shapeCasts_S128x1280_S128x20x64 : S128x1280.ShapeCasts S128x20x64
  transposes_S128x20x64_p1_0_2_S20x128x64 : S128x20x64.Transposes [1, 0, 2] S20x128x64
  reduces_S20x128x1024_S20x128 : S20x128x1024.Reduces [2] S20x128
  shapeCasts_S20x128_S20x128x1 : S20x128.ShapeCasts S20x128x1
  broadcasts_S20x128x1_S20x128x1024 : S20x128x1.Broadcasts S20x128x1024
  transposes_S20x128x64_p1_0_2_S128x20x64 : S20x128x64.Transposes [1, 0, 2] S128x20x64
  shapeCasts_S128x20x64_S128x1280 : S128x20x64.ShapeCasts S128x1280
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S128x1280 : S1x1280.Broadcasts S128x1280
  shapeCasts_S128x1280_S1x128x1280 : S128x1280.ShapeCasts S1x128x1280
  dot_S1024x1280_S3840x1280_S1024x3840_1_1_0_0_n_n_wf : DotDims.WF S1024x1280 S3840x1280 S1024x3840 [1] [1] [0] [0] [] []
  dot_S20x128x64_S20x1024x64_S20x128x1024_2_2_1_1_0_0_wf : DotDims.WF S20x128x64 S20x1024x64 S20x128x1024 [2] [2] [1] [1] [0] [0]
  dot_S20x128x1024_S20x1024x64_S20x128x64_2_1_1_2_0_0_wf : DotDims.WF S20x128x1024 S20x1024x64 S20x128x64 [2] [1] [1] [2] [0] [0]
  dot_S128x1280_S1280x1280_S128x1280_1_1_0_0_n_n_wf : DotDims.WF S128x1280 S1280x1280 S128x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S8192x1280.size a
  hwx0_0 : ∀ i : grid0.Coords, EltTy.bits .bf16 = 32 ∨ (Rect.block (s := S8192x1280) S1024x1280.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3840x1280.size a ≤ S3840x1280.size a
  hwx0_1 : ∀ i : grid0.Coords, EltTy.bits .bf16 = 32 ∨ (Rect.block (s := S3840x1280) S3840x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3840.size a ≤ S1x3840.size a
  hwx0_2 : ∀ i : grid0.Coords, EltTy.bits .f32 = 32 ∨ (Rect.block (s := S1x3840) S1x3840.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3840.size a ≤ S8192x3840.size a
  hwx0_3 : ∀ i : grid0.Coords, EltTy.bits .bf16 = 32 ∨ (Rect.block (s := S8192x3840) S1024x3840.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1280.size a ≤ S8x1024x3840.size a
  hwx1_0 : ∀ i : grid1.Coords, EltTy.bits .bf16 = 32 ∨ (Rect.block (s := S8x1024x3840) S1x128x1280.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1280.size a ≤ S8x1024x3840.size a
  hwx1_1 : ∀ i : grid1.Coords, EltTy.bits .bf16 = 32 ∨ (Rect.block (s := S8x1024x3840) S1x1024x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1280.size a ≤ S8x1024x3840.size a
  hwx1_2 : ∀ i : grid1.Coords, EltTy.bits .bf16 = 32 ∨ (Rect.block (s := S8x1024x3840) S1x1024x1280.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1280x1280.size a ≤ S1280x1280.size a
  hwx1_3 : ∀ i : grid1.Coords, EltTy.bits .bf16 = 32 ∨ (Rect.block (s := S1280x1280) S1280x1280.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1280.size a ≤ S1x1280.size a
  hwx1_4 : ∀ i : grid1.Coords, EltTy.bits .f32 = 32 ∨ (Rect.block (s := S1x1280) S1x1280.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x1280.size a ≤ S8x1024x1280.size a
  hwx1_5 : ∀ i : grid1.Coords, EltTy.bits .f32 = 32 ∨ (Rect.block (s := S8x1024x1280) S1x128x1280.size (cc1_transform_5 i) (hinb1_5 i)).WholeWords (EltTy.packing .f32)

variable [Facts₀]

def dot_S1024x1280_S3840x1280_S1024x3840_1_1_0_0_n_n : DotDims S1024x1280 S3840x1280 S1024x3840 where
  lhsContracting := [1]
  rhsContracting := [1]
  lhsNonContracting := [0]
  rhsNonContracting := [0]
  lhsBatch := []
  rhsBatch := []
  wf := dot_S1024x1280_S3840x1280_S1024x3840_1_1_0_0_n_n_wf
def dot_S20x128x64_S20x1024x64_S20x128x1024_2_2_1_1_0_0 : DotDims S20x128x64 S20x1024x64 S20x128x1024 where
  lhsContracting := [2]
  rhsContracting := [2]
  lhsNonContracting := [1]
  rhsNonContracting := [1]
  lhsBatch := [0]
  rhsBatch := [0]
  wf := dot_S20x128x64_S20x1024x64_S20x128x1024_2_2_1_1_0_0_wf
def dot_S20x128x1024_S20x1024x64_S20x128x64_2_1_1_2_0_0 : DotDims S20x128x1024 S20x1024x64 S20x128x64 where
  lhsContracting := [2]
  rhsContracting := [1]
  lhsNonContracting := [1]
  rhsNonContracting := [2]
  lhsBatch := [0]
  rhsBatch := [0]
  wf := dot_S20x128x1024_S20x1024x64_S20x128x64_2_1_1_2_0_0_wf
def dot_S128x1280_S1280x1280_S128x1280_1_1_0_0_n_n : DotDims S128x1280 S1280x1280 S128x1280 where
  lhsContracting := [1]
  rhsContracting := [1]
  lhsNonContracting := [0]
  rhsNonContracting := [0]
  lhsBatch := []
  rhsBatch := []
  wf := dot_S128x1280_S1280x1280_S128x1280_1_1_0_0_n_n_wf

abbrev win0_0 : Pipeline.Window sig grid0 :=
  Pipeline.Window.ofSpec (Memref.whole main_v1) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3840x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3840.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x3840.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x128x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1024x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1280x1280.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1280.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x128x1280.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x1024x1280 : Shape := ⟨3, ![8, 1024, 1280]⟩
abbrev S1280x1280 : Shape := ⟨2, ![1280, 1280]⟩
abbrev S1280 : Shape := ⟨1, ![1280]⟩
abbrev S_ : Shape := ⟨0, ![]⟩
abbrev S8x1024x20x64 : Shape := ⟨4, ![8, 1024, 20, 64]⟩
abbrev S8x20x1024x64 : Shape := ⟨4, ![8, 20, 1024, 64]⟩
abbrev S8x20x1024x1024 : Shape := ⟨4, ![8, 20, 1024, 1024]⟩
abbrev S8x20x1024 : Shape := ⟨3, ![8, 20, 1024]⟩
abbrev S8x20x1024x1 : Shape := ⟨4, ![8, 20, 1024, 1]⟩
abbrev S1x1x1280 : Shape := ⟨3, ![1, 1, 1280]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x1280, .f32⟩
  | .hbm, ⟨1, _⟩ => ⟨S1280x1280, .f32⟩
  | .hbm, ⟨2, _⟩ => ⟨S1280x1280, .f32⟩
  | .hbm, ⟨3, _⟩ => ⟨S1280x1280, .f32⟩
  | .hbm, ⟨4, _⟩ => ⟨S1280x1280, .f32⟩
  | .hbm, ⟨5, _⟩ => ⟨S1280, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x1024x1280, .f32⟩
  | .hbm, ⟨10, _⟩ => ⟨S8x1024x1280, .f32⟩
  | .hbm, ⟨11, _⟩ => ⟨S8x1024x1280, .f32⟩
  | .hbm, ⟨12, _⟩ => ⟨S8x1024x20x64, .f32⟩
  | .hbm, ⟨13, _⟩ => ⟨S8x20x1024x64, .f32⟩
  | .hbm, ⟨14, _⟩ => ⟨S8x1024x20x64, .f32⟩
  | .hbm, ⟨15, _⟩ => ⟨S8x20x1024x64, .f32⟩
  | .hbm, ⟨16, _⟩ => ⟨S8x1024x20x64, .f32⟩
  | .hbm, ⟨17, _⟩ => ⟨S8x20x1024x64, .f32⟩
  | .hbm, ⟨18, _⟩ => ⟨S8x20x1024x1024, .f32⟩
  | .hbm, ⟨19, _⟩ => ⟨S8x20x1024x1024, .f32⟩
  | .hbm, ⟨20, _⟩ => ⟨S8x20x1024x1024, .f32⟩
  | .hbm, ⟨21, _⟩ => ⟨S_, .f32⟩
  | .hbm, ⟨22, _⟩ => ⟨S8x20x1024, .f32⟩
  | .hbm, ⟨23, _⟩ => ⟨S_, .f32⟩
  | .hbm, ⟨24, _⟩ => ⟨S8x20x1024, .f32⟩
  | .hbm, ⟨25, _⟩ => ⟨S8x20x1024, .f32⟩
  | .hbm, ⟨26, _⟩ => ⟨S8x20x1024x1, .f32⟩
  | .hbm, ⟨27, _⟩ => ⟨S8x20x1024x1024, .f32⟩
  | .hbm, ⟨28, _⟩ => ⟨S8x20x1024x1024, .f32⟩
  | .hbm, ⟨29, _⟩ => ⟨S8x20x1024x1024, .f32⟩
  | .hbm, ⟨30, _⟩ => ⟨S_, .f32⟩
  | .hbm, ⟨31, _⟩ => ⟨S8x20x1024, .f32⟩
  | .hbm, ⟨32, _⟩ => ⟨S8x20x1024x1, .f32⟩
  | .hbm, ⟨33, _⟩ => ⟨S8x20x1024x1024, .f32⟩
  | .hbm, ⟨34, _⟩ => ⟨S8x20x1024x1024, .f32⟩
  | .hbm, ⟨35, _⟩ => ⟨S8x20x1024x64, .f32⟩
  | .hbm, ⟨36, _⟩ => ⟨S8x1024x20x64, .f32⟩
  | .hbm, ⟨37, _⟩ => ⟨S8x1024x1280, .f32⟩
  | .hbm, ⟨38, _⟩ => ⟨S8x1024x1280, .f32⟩
  | .hbm, ⟨39, _⟩ => ⟨S1x1x1280, .f32⟩
  | .hbm, ⟨40, _⟩ => ⟨S8x1024x1280, .f32⟩
  | .hbm, ⟨41, _⟩ => ⟨S8x1024x1280, .f32⟩
  | _, _ => ⟨S8x1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  shapeCasts_S8x1024x1280_S8x1024x20x64 : S8x1024x1280.ShapeCasts S8x1024x20x64
  transposes_S8x1024x20x64_S8x20x1024x64_0_2_1_3 : S8x1024x20x64.Transposes [0, 2, 1, 3] S8x20x1024x64
  bcast_S_S8x20x1024x1024 : S_.BroadcastsInDim S8x20x1024x1024 (![] : Fin 0 → Fin S8x20x1024x1024.rank)
  reducesTo_S8x20x1024x1024_S8x20x1024_d3 : S8x20x1024x1024.ReducesTo [3] S8x20x1024
  h_S_ : 0 < S_.numel
  bcast_S_S8x20x1024 : S_.BroadcastsInDim S8x20x1024 (![] : Fin 0 → Fin S8x20x1024.rank)
  bcast_S8x20x1024_S8x20x1024x1_0_1_2 : S8x20x1024.BroadcastsInDim S8x20x1024x1 (![0, 1, 2] : Fin 3 → Fin S8x20x1024x1.rank)
  bcast_S8x20x1024x1_S8x20x1024x1024_0_1_2_3 : S8x20x1024x1.BroadcastsInDim S8x20x1024x1024 (![0, 1, 2, 3] : Fin 4 → Fin S8x20x1024x1024.rank)
  transposes_S8x20x1024x64_S8x1024x20x64_0_2_1_3 : S8x20x1024x64.Transposes [0, 2, 1, 3] S8x1024x20x64
  shapeCasts_S8x1024x20x64_S8x1024x1280 : S8x1024x20x64.ShapeCasts S8x1024x1280
  bcast_S1280_S1x1x1280_2 : S1280.BroadcastsInDim S1x1x1280 (![2] : Fin 1 → Fin S1x1x1280.rank)
  bcast_S1x1x1280_S8x1024x1280_0_1_2 : S1x1x1280.BroadcastsInDim S8x1024x1280 (![0, 1, 2] : Fin 3 → Fin S8x1024x1280.rank)
  dot_S8x1024x1280_S1280x1280_S8x1024x1280_2_1_01_0_n_n_wf : DotDims.WF S8x1024x1280 S1280x1280 S8x1024x1280 [2] [1] [0, 1] [0] [] []
  dot_S8x20x1024x64_S8x20x1024x64_S8x20x1024x1024_3_3_2_2_01_01_wf : DotDims.WF S8x20x1024x64 S8x20x1024x64 S8x20x1024x1024 [3] [3] [2] [2] [0, 1] [0, 1]
  dot_S8x20x1024x1024_S8x20x1024x64_S8x20x1024x64_3_2_2_3_01_01_wf : DotDims.WF S8x20x1024x1024 S8x20x1024x64 S8x20x1024x64 [3] [2] [2] [3] [0, 1] [0, 1]

variable [Facts₀]

def dot_S8x1024x1280_S1280x1280_S8x1024x1280_2_1_01_0_n_n : DotDims S8x1024x1280 S1280x1280 S8x1024x1280 where
  lhsContracting := [2]
  rhsContracting := [1]
  lhsNonContracting := [0, 1]
  rhsNonContracting := [0]
  lhsBatch := []
  rhsBatch := []
  wf := dot_S8x1024x1280_S1280x1280_S8x1024x1280_2_1_01_0_n_n_wf
def dot_S8x20x1024x64_S8x20x1024x64_S8x20x1024x1024_3_3_2_2_01_01 : DotDims S8x20x1024x64 S8x20x1024x64 S8x20x1024x1024 where
  lhsContracting := [3]
  rhsContracting := [3]
  lhsNonContracting := [2]
  rhsNonContracting := [2]
  lhsBatch := [0, 1]
  rhsBatch := [0, 1]
  wf := dot_S8x20x1024x64_S8x20x1024x64_S8x20x1024x1024_3_3_2_2_01_01_wf
def dot_S8x20x1024x1024_S8x20x1024x64_S8x20x1024x64_3_2_2_3_01_01 : DotDims S8x20x1024x1024 S8x20x1024x64 S8x20x1024x64 where
  lhsContracting := [3]
  rhsContracting := [2]
  lhsNonContracting := [2]
  rhsNonContracting := [3]
  lhsBatch := [0, 1]
  rhsBatch := [0, 1]
  wf := dot_S8x20x1024x1024_S8x20x1024x64_S8x20x1024x64_3_2_2_3_01_01_wf

class Facts : Prop extends Facts₀ where

variable [Facts]
-- ==== Proof.KernelRegion0.lean ====
import proofs.«122070_j75737453297854_2_alg».proof.Proof.Gen.Kernel.Launch
import proofs.«122070_j75737453297854_2_alg».proof.Proof.Gen.Kernel.Skeleton
import proofs.«122070_j75737453297854_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the projection's region is entered
variable (V : (c : Dev nD) → (b : Ref sig .tc) → Buf (Elt F) ((c : Thread nD τ).loc b))

/-! # The linear projection qkv = x · Wᵀ + bias, one block of 1024 rows per grid point

The grid has 8 points. At point `t` the body reads rows 1024·t … 1024·t + 1023 of the input `x` (window 0, a new
block at every point), the whole stacked weight matrix (window 1) and the whole bias row (window 2) — both moved
in once, at the first point, and left in place afterwards — and overwrites the matching 1024 rows of the result
(window 3) by ONE store of the whole block. -/

/-! ## The windows' blocks -/

/-- Window `w`'s block at point `t`, read off its array as the region finds it (`V`). -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x`: its staging buffer holds the block of the current point, for any proof data over `V`'s
    array whose body leaves that block where it found it. (It is moved in at every point; the statement does not
    need to know.) -/
theorem xRows_held {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weights: moved in at the first point only; at a later point the block index has not moved (it is the whole
    matrix at every point), so the buffer still holds this point's block. -/
theorem weights_held {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The bias row: as the weights. -/
theorem bias_held {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer is read, or written, whole -/

abbrev allOfX : Rect S1024x1280 := Rect.unit (s := S1024x1280) ![0, 0] S1024x1280.size inb_S1024x1280_S1024x1280_0_0
abbrev allOfW : Rect S3840x1280 := Rect.unit (s := S3840x1280) ![0, 0] S3840x1280.size inb_S3840x1280_S3840x1280_0_0
abbrev allOfBias : Rect S1x3840 := Rect.unit (s := S1x3840) ![0, 0] S1x3840.size inb_S1x3840_S1x3840_0_0
abbrev allOfQkv : Rect S1024x3840 := Rect.unit (s := S1024x3840) ![0, 0] S1024x3840.size inb_S1024x3840_S1024x3840_0_0

/-! ## What the body leaves in the result's staging buffer -/

/-- The result window's staging buffer after the body, from the three input blocks: its one store, of the payload
    x · Wᵀ + bias (rounded to bf16) over the three loads, as a one-piece list. -/
def qkvBlock (x0 : Vec F S1024x1280 .bf16) (x1 : Vec F S3840x1280 .bf16) (x2 : Vec F S1x3840 .f32) : Vec F S1024x3840 .bf16 :=
  View.canon [⟨allOfQkv, k0_pay1 (View.ld x0 allOfX) (View.ld x1 allOfW) (View.ld x2 allOfBias)⟩]

/-- The one store is of the whole buffer, so it covers it. -/
theorem qkvStore_covers (p0 : Vec F S1024x3840 .bf16) (y : S1024x3840.Idx) :
    ∃ pc ∈ ([⟨allOfQkv, p0⟩] : List (View.Piece (Elt F) S1024x3840 .bf16)), y ∈ pc.1.set :=
  View.cover_of_tiled [⟨allOfQkv, p0⟩] S1024x3840.size (by rfl) y

/-! ## The body's triple -/

set_option maxHeartbeats 1000000 in
/-- The projection's body on whole staging memrefs — the inputs' at read contents `x0 x1 x2`, the result's at
    anything — runs to the continuation with the inputs' as they were and the result's at `qkvBlock` of them. -/
theorem linear_runs (c : Dev nD) (E : Set ℕ) (i : grid0.Coords)
    (arg1 : Memref sig .tc .vmem S1024x1280 .bf16) (harg1 : arg1.IsWhole) (arg2 : Memref sig .tc .vmem S3840x1280 .bf16) (harg2 : arg2.IsWhole)
    (arg3 : Memref sig .tc .vmem S1x3840 .f32) (harg3 : arg3.IsWhole) (arg4 : Memref sig .tc .vmem S1024x3840 .bf16) (harg4 : arg4.IsWhole)
    (x0 : Vec F S1024x1280 .bf16) (x1 : Vec F S3840x1280 .bf16) (x2 : Vec F S1x3840 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (qkvBlock x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (qkvStore_covers _)

/-! ## The pipeline's proof data -/

/-- The proof data of the projection's pipeline on core `c`: the arrays as the region finds them (`V`); after the
    body at point `t` each input's buffer at its block and the result's at `qkvBlock` of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => qkvBlock (blk0 V c 0 t) (blk0 V c 1 t) (blk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = qkvBlock (blk0 V c 0 t) (blk0 V c 1 t) (blk0 V c 2 t) := by dsimp only [dat0]

/-- Each input's current staging buffer holds its block at every point. -/
theorem before0_0 (c : Dev nD) (t : Fin cfg0.N) (d) : (dat0 V c).before 0 t d = blk0 V c 0 t :=
  xRows_held V (dat0 V c) (A_eq0 V c 0) (after0_0 V c) t d
theorem before0_1 (c : Dev nD) (t : Fin cfg0.N) (d) : (dat0 V c).before 1 t d = blk0 V c 1 t :=
  weights_held V (dat0 V c) (A_eq0 V c 1) (after0_1 V c) t d
theorem before0_2 (c : Dev nD) (t : Fin cfg0.N) (d) : (dat0 V c).before 2 t d = blk0 V c 2 t :=
  bias_held V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `linear_runs` applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (linear_runs c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Attn

end
-- ==== Proof.KernelAttnBody.lean ====
import proofs.«122070_j75737453297854_2_alg».proof.Proof.Gen.Kernel.Launch
import proofs.«122070_j75737453297854_2_alg».proof.Proof.Gen.Kernel.Skeleton
import proofs.«122070_j75737453297854_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body at one grid point

The body reads a 128-row block of queries, the whole key and value blocks of the batch, the output weights and
the bias. When the second grid coordinate is 0 it first re-lays the key and value blocks head by head into the
two scratch buffers; at every point it then computes, per head, scores = q·kᵀ/8, a softmax over the keys,
probabilities·v, re-lays the heads side by side and applies the output projection. Two cases, one per value
of the branch: each runs to the end with the inputs unchanged and every written buffer holding a list of
written pieces. -/

/-- The branch of the attention body: taken exactly when the second grid coordinate is 0. -/
abbrev cond1 (i : grid1.Coords) : Prop :=
  (Scalar.cmpi .ne (Scalar.extui (Scalar.cmpi .eq (BitVec.ofNat 32 (i 1).val) 0#32)) 0#32) = 1#1

set_option maxHeartbeats 2000000 in
/-- The body at a point where the branch is not taken: both scratch buffers are only read. The pieces the output's
    staging buffer ends with are found by the run. -/
noncomputable def kernelRun1_B (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : ¬cond1 i)
    (x2 : Vec F S1x128x1280 .bf16) (x3 x4 : Vec F S1x1024x1280 .bf16) (x5 : Vec F S1280x1280 .bf16) (x6 : Vec F S1x1280 .f32)
    (s8 s9 : Vec F S20x1024x64 .bf16) :
    { L7 : List (View.Piece (Elt F) S1x128x1280 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d)
            ∗ owns (c : Thread nD τ) arg8 fullShare s8 ∗ owns (c : Thread nD τ) arg9 fullShare s9
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ owns (c : Thread nD τ) arg8 fullShare s8 ∗ owns (c : Thread nD τ) arg9 fullShare s9) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part1_eq_skeleton]; unfold k1_part1_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg8.eq_unread hf8
    obtain rfl := harg9.eq_unread hf9
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; isplitr; · ipureintro; exact harg8.read_unread _
      iexact H8
    · iexists _; isplitr; · ipureintro; exact harg9.read_unread _
      iexact H9

set_option maxHeartbeats 4000000 in
/-- The body at a point where the branch is taken (second grid coordinate 0): both scratch buffers are overwritten
    from the key and value blocks and then read back. The pieces each written buffer ends with are found by the run. -/
noncomputable def kernelRun1_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i)
    (x2 : Vec F S1x128x1280 .bf16) (x3 x4 : Vec F S1x1024x1280 .bf16) (x5 : Vec F S1280x1280 .bf16) (x6 : Vec F S1x1280 .f32) :
    { L : List (View.Piece (Elt F) S1x128x1280 .f32) × List (View.Piece (Elt F) S20x1024x64 .bf16) × List (View.Piece (Elt F) S20x1024x64 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨⟨?_, ?_, ?_⟩, fun E K => ?run⟩
  case run =>
    simp only [cc1__attn_kernel_eq_skeleton]; unfold cc1__attn_kernel_skel
    simp only [k1_part1_eq_skeleton]; unfold k1_part1_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf2
    obtain rfl := harg3.eq_unread hf3
    obtain rfl := harg4.eq_unread hf4
    obtain rfl := harg5.eq_unread hf5
    obtain rfl := harg6.eq_unread hf6
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    · iexists _; iexact H9

end Cert.Kernel.Attn

end
-- ==== Proof.KernelRegion1.lean ====
import proofs.«122070_j75737453297854_2_alg».proof.Proof.KernelAttnBody

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region over its 8 × 8 grid

Point t = 8·b + i handles batch b and query tile i. The key and value blocks of batch b are re-laid into the two
scratch buffers at i = 0 and stay there for i = 1 … 7, so what a point computes depends on what the scratch
holds: a recursion over the points. All of it is stated at a parameter V, the buffers' contents when the
region is entered. -/

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The branch is taken exactly at the points 8·b: decided over the 64 points. -/
theorem hcond1 : ∀ t : Fin cfg1.N, cond1 (grid1.coords t) ↔ t.val % 8 = 0 :=
  (by decide +kernel : ∀ t : Fin grid1.N, cond1 (grid1.coords t) ↔ t.val % 8 = 0)

/-- Each window's current staging buffer at point t, as the pipeline passes it to the body. -/
abbrev ms1_0 (t : Fin cfg1.N) : Memref sig .tc .vmem S1x128x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1280 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1280 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x1280 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1280 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x1280 .f32 := win1_5.stage (cfg1.slots t 5)
abbrev hs1_5 (t : Fin cfg1.N) : (ms1_5 t).IsWhole := hstage1_5 ((cfg1.slots t 5).cast nbuf1_5)
/-- The two scratch buffers: the re-laid keys and the re-laid values. -/
abbrev scK : Memref sig .tc .vmem S20x1024x64 .bf16 := Memref.whole cc1_scratch0
abbrev scV : Memref sig .tc .vmem S20x1024x64 .bf16 := Memref.whole cc1_scratch1
/-- Views through which written pieces are read back (the choice of buffer does not matter). -/
abbrev VO5 : View sig .tc .vmem S1x128x1280 .f32 := (Memref.whole cc1_stg5_0 : Memref sig .tc .vmem S1x128x1280 .f32).view
abbrev VSK : View sig .tc .vmem S20x1024x64 .bf16 := scK.view
abbrev VSV : View sig .tc .vmem S20x1024x64 .bf16 := scV.view

/-! ## What each case leaves -/

/-- At a point 8·b: the output tile, the re-laid keys and the re-laid values, each the written pieces read back. -/
def tile_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) : Vec F S1x128x1280 .f32 :=
  VO5.read (Elt F) (VO5.writes (Elt F) VO5.junk (kernelRun1_A c i arg2 harg2 arg3 harg3 arg4 harg4 arg5 harg5 arg6 harg6 arg7 harg7 arg8 harg8 arg9 harg9 hc0 x2 x3 x4 x5 x6).1.1)
def keys_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) : Vec F S20x1024x64 .bf16 :=
  VSK.read (Elt F) (VSK.writes (Elt F) VSK.junk (kernelRun1_A c i arg2 harg2 arg3 harg3 arg4 harg4 arg5 harg5 arg6 harg6 arg7 harg7 arg8 harg8 arg9 harg9 hc0 x2 x3 x4 x5 x6).1.2.1)
def vals_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) : Vec F S20x1024x64 .bf16 :=
  VSV.read (Elt F) (VSV.writes (Elt F) VSV.junk (kernelRun1_A c i arg2 harg2 arg3 harg3 arg4 harg4 arg5 harg5 arg6 harg6 arg7 harg7 arg8 harg8 arg9 harg9 hc0 x2 x3 x4 x5 x6).1.2.2)
/-- At any other point: the output tile, from the scratch contents s8, s9 the earlier point left. -/
def tile_B (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : ¬cond1 i) (x2 : Vec F S1x128x1280 .bf16) (x3 x4 : Vec F S1x1024x1280 .bf16) (x5 : Vec F S1280x1280 .bf16) (x6 : Vec F S1x1280 .f32) (s8 s9 : Vec F S20x1024x64 .bf16) : Vec F S1x128x1280 .f32 :=
  VO5.read (Elt F) (VO5.writes (Elt F) VO5.junk (kernelRun1_B c i arg2 harg2 arg3 harg3 arg4 harg4 arg5 harg5 arg6 harg6 arg7 harg7 arg8 harg8 arg9 harg9 hc0 x2 x3 x4 x5 x6 s8 s9).1)

/-- The written pieces tile their buffers, so they cover them. -/
theorem cover_tile_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) (y : S1x128x1280.Idx) :
    ∃ pc ∈ (kernelRun1_A c i arg2 harg2 arg3 harg3 arg4 harg4 arg5 harg5 arg6 harg6 arg7 harg7 arg8 harg8 arg9 harg9 hc0 x2 x3 x4 x5 x6).1.1, y ∈ pc.1.set :=
  View.cover_of_tiledL _ S1x128x1280.size (by sl_kernel_rfl) y
theorem cover_keys_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) (y : S20x1024x64.Idx) :
    ∃ pc ∈ (kernelRun1_A c i arg2 harg2 arg3 harg3 arg4 harg4 arg5 harg5 arg6 harg6 arg7 harg7 arg8 harg8 arg9 harg9 hc0 x2 x3 x4 x5 x6).1.2.1, y ∈ pc.1.set :=
  View.cover_of_tiledL _ S20x1024x64.size (by sl_kernel_rfl) y
theorem cover_vals_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) (y : S20x1024x64.Idx) :
    ∃ pc ∈ (kernelRun1_A c i arg2 harg2 arg3 harg3 arg4 harg4 arg5 harg5 arg6 harg6 arg7 harg7 arg8 harg8 arg9 harg9 hc0 x2 x3 x4 x5 x6).1.2.2, y ∈ pc.1.set :=
  View.cover_of_tiledL _ S20x1024x64.size (by sl_kernel_rfl) y
theorem cover_tile_B (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : ¬cond1 i) (x2 : Vec F S1x128x1280 .bf16) (x3 x4 : Vec F S1x1024x1280 .bf16) (x5 : Vec F S1280x1280 .bf16) (x6 : Vec F S1x1280 .f32) (s8 s9 : Vec F S20x1024x64 .bf16) (y : S1x128x1280.Idx) :
    ∃ pc ∈ (kernelRun1_B c i arg2 harg2 arg3 harg3 arg4 harg4 arg5 harg5 arg6 harg6 arg7 harg7 arg8 harg8 arg9 harg9 hc0 x2 x3 x4 x5 x6 s8 s9).1, y ∈ pc.1.set :=
  View.cover_of_tiledL _ S1x128x1280.size (by sl_kernel_rfl) y

/-! ## The recursion over the points -/

/-- After the body at position n: the output tile, and what the two scratch buffers hold. At 8·b everything is
    made afresh from the point's blocks; elsewhere the scratch is what the point before left. -/
def outsAt1 (c : Dev nD) : (n : ℕ) → n < cfg1.N → Vec F S1x128x1280 .f32 × Vec F S20x1024x64 .bf16 × Vec F S20x1024x64 .bf16
  | 0, hn =>
    (tile_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scK (Memref.isWhole_whole _) scV (Memref.isWhole_whole _) ((hcond1 ⟨0, hn⟩).mpr (Nat.zero_mod _)) (blk1 V c 0 ⟨0, hn⟩) (blk1 V c 1 ⟨0, hn⟩) (blk1 V c 2 ⟨0, hn⟩) (blk1 V c 3 ⟨0, hn⟩) (blk1 V c 4 ⟨0, hn⟩),
     keys_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scK (Memref.isWhole_whole _) scV (Memref.isWhole_whole _) ((hcond1 ⟨0, hn⟩).mpr (Nat.zero_mod _)) (blk1 V c 0 ⟨0, hn⟩) (blk1 V c 1 ⟨0, hn⟩) (blk1 V c 2 ⟨0, hn⟩) (blk1 V c 3 ⟨0, hn⟩) (blk1 V c 4 ⟨0, hn⟩),
     vals_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scK (Memref.isWhole_whole _) scV (Memref.isWhole_whole _) ((hcond1 ⟨0, hn⟩).mpr (Nat.zero_mod _)) (blk1 V c 0 ⟨0, hn⟩) (blk1 V c 1 ⟨0, hn⟩) (blk1 V c 2 ⟨0, hn⟩) (blk1 V c 3 ⟨0, hn⟩) (blk1 V c 4 ⟨0, hn⟩))
  | n + 1, hn =>
    if h0 : (n + 1) % 8 = 0 then
      (tile_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scK (Memref.isWhole_whole _) scV (Memref.isWhole_whole _) ((hcond1 ⟨n + 1, hn⟩).mpr h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩),
       keys_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scK (Memref.isWhole_whole _) scV (Memref.isWhole_whole _) ((hcond1 ⟨n + 1, hn⟩).mpr h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩),
       vals_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scK (Memref.isWhole_whole _) scV (Memref.isWhole_whole _) ((hcond1 ⟨n + 1, hn⟩).mpr h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩))
    else
      (tile_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scK (Memref.isWhole_whole _) scV (Memref.isWhole_whole _) (fun h => h0 ((hcond1 ⟨n + 1, hn⟩).mp h)) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩)
         (outsAt1 c n (Nat.lt_of_succ_lt hn)).2.1 (outsAt1 c n (Nat.lt_of_succ_lt hn)).2.2,
       (outsAt1 c n (Nat.lt_of_succ_lt hn)).2.1, (outsAt1 c n (Nat.lt_of_succ_lt hn)).2.2)

theorem outsAt1_A (c : Dev nD) (t : Fin cfg1.N) (h0 : t.val % 8 = 0) :
    outsAt1 V c t.val t.isLt =
      (tile_A c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t),
       keys_A c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t),
       vals_A c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt =
      (tile_B c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) (fun h => h0 ((hcond1 t).mp h)) (blk1 V c 0 t) (blk1 V c 1 t) (blk1 V c 2 t) (blk1 V c 3 t) (blk1 V c 4 t)
         (outsAt1 V c (t.val - 1) (Nat.lt_of_le_of_lt (Nat.sub_le _ _) t.isLt)).2.1 (outsAt1 V c (t.val - 1) (Nat.lt_of_le_of_lt (Nat.sub_le _ _) t.isLt)).2.2,
       (outsAt1 V c (t.val - 1) (Nat.lt_of_le_of_lt (Nat.sub_le _ _) t.isLt)).2.1, (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's invariant -/

/-- Before position n: before the first point every scoped buffer the pipeline does not stage holds anything; later
    the two scratch buffers hold what the point before left, the first call's staging buffers anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scK fullShare (outsAt1 V c n hn).2.1 ∗ owns (c : Thread nD τ) scV fullShare (outsAt1 V c n hn).2.2) ∗ (∃ r, prngReg c r))

/-- The same with the scratch contents forgotten: what the class invariant is, buffer by buffer. -/
def PhiAny1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scK fullShare d) ∗ (∃ d, owns (c : Thread nD τ) scV fullShare d)) ∗ (∃ r, prngReg c r))

theorem PhiA1_eq (c : Dev nD) : (Pipeline.ΦA spec1 c : sProp 𝕄) = PhiAny1 (F := F) c := by
  unfold Pipeline.ΦA PhiAny1; rw [scopedRest1_eq]; simp only [scK, scV, owns_whole]; try rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scK fullShare (outsAt1 V c n hn).2.1 ∗ owns (c : Thread nD τ) scV fullShare (outsAt1 V c n hn).2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scK fullShare (outsAt1 V c (n - 1) (by omega)).2.1 ∗ owns (c : Thread nD τ) scV fullShare (outsAt1 V c (n - 1) (by omega)).2.2) ∗ (∃ r, prngReg c r)) := by
  cases n with
  | zero => exact absurd rfl hz
  | succ n => rfl

/-- At every position the invariant yields the forgetful form. -/
theorem PhiS1_any (c : Dev nD) (n : ℕ) (h : n ≤ cfg1.N) : PhiS1 V c n h ⊢ PhiAny1 (F := F) c := by
  cases n with
  | zero => rw [show PhiS1 V c 0 h = Pipeline.ΦA spec1 c from rfl, PhiA1_eq]
  | succ n =>
    rw [PhiS1_succ]; unfold PhiAny1
    iintro ⟨⟨H1, H2, H3, H4, H5, H6, HK, HV⟩, Hp⟩
    isplitr [Hp]
    · isplitl [H1]; · iexact H1
      isplitl [H2]; · iexact H2
      isplitl [H3]; · iexact H3
      isplitl [H4]; · iexact H4
      isplitl [H5]; · iexact H5
      isplitl [H6]; · iexact H6
      isplitl [HK]; · iexists _; iexact HK
      iexists _; iexact HV
    iexact Hp

/-! ## The proof data -/

/-- The arrays as the region finds them; after the body each input's buffer at its block, the output's at the tile
    of the recursion; the invariant above; nothing owed. The three windows on the one fused q|k|v array hold it at
    three shares that together make the whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = blk1 V c 3 t := by dsimp only [dat1]
theorem left1_4 (c : Dev nD) (t : Fin cfg1.N) : (dat1 V c).after 4 t = blk1 V c 4 t := by dsimp only [dat1]
theorem left1_5 (c : Dev nD) (t : Fin cfg1.N) : (dat1 V c).after 5 t = (outsAt1 V c t.val t.isLt).1 := by dsimp only [dat1]

/-- Each input's current staging buffer holds its block at every point, fetched there or not. -/
theorem found1_0 (c : Dev nD) (t : Fin cfg1.N) (d) : (dat1 V c).before 0 t d = blk1 V c 0 t :=
  ((dat1 V c).before_in_eq_fetched 0 rfl (fun _ => rfl) (fun _ _ _ => rfl) (fun t => by rw [left1_0]; unfold Dat.blockOf blk1; rw [A_eq1]; try rfl) t d).trans
    (by unfold Dat.fetched Dat.blockOf blk1; rw [A_eq1]; try rfl)
theorem found1_1 (c : Dev nD) (t : Fin cfg1.N) (d) : (dat1 V c).before 1 t d = blk1 V c 1 t :=
  ((dat1 V c).before_in_eq_fetched 1 rfl (fun _ => rfl) (fun _ _ _ => rfl) (fun t => by rw [left1_1]; unfold Dat.blockOf blk1; rw [A_eq1]; try rfl) t d).trans
    (by unfold Dat.fetched Dat.blockOf blk1; rw [A_eq1]; try rfl)
theorem found1_2 (c : Dev nD) (t : Fin cfg1.N) (d) : (dat1 V c).before 2 t d = blk1 V c 2 t :=
  ((dat1 V c).before_in_eq_fetched 2 rfl (fun _ => rfl) (fun _ _ _ => rfl) (fun t => by rw [left1_2]; unfold Dat.blockOf blk1; rw [A_eq1]; try rfl) t d).trans
    (by unfold Dat.fetched Dat.blockOf blk1; rw [A_eq1]; try rfl)
theorem found1_3 (c : Dev nD) (t : Fin cfg1.N) (d) : (dat1 V c).before 3 t d = blk1 V c 3 t :=
  ((dat1 V c).before_in_eq_fetched 3 rfl (fun _ => rfl) (fun _ _ _ => rfl) (fun t => by rw [left1_3]; unfold Dat.blockOf blk1; rw [A_eq1]; try rfl) t d).trans
    (by unfold Dat.fetched Dat.blockOf blk1; rw [A_eq1]; try rfl)
theorem found1_4 (c : Dev nD) (t : Fin cfg1.N) (d) : (dat1 V c).before 4 t d = blk1 V c 4 t :=
  ((dat1 V c).before_in_eq_fetched 4 rfl (fun _ => rfl) (fun _ _ _ => rfl) (fun t => by rw [left1_4]; unfold Dat.blockOf blk1; rw [A_eq1]; try rfl) t d).trans
    (by unfold Dat.fetched Dat.blockOf blk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' buffers hold their blocks; at 8·b the scratch may hold anything and ends
    re-laid, elsewhere it holds what the point before left and is handed on unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2, found1_3, found1_4]
  rw [show (dat1 V c).Φ t.succ = PhiS1 V c (t.val + 1) t.isLt from rfl, PhiS1_succ,
    show (dat1 V c).owesAt () t.succ = (dat1 V c).owesAt () t.castSucc from rfl,
    Phi1_castSucc, left1_0, left1_1, left1_2, left1_3, left1_4, left1_5]
  have hN : t.val < 64 := lt_of_lt_of_eq t.isLt (show cfg1.N = 64 from N_1)
  by_cases h0 : t.val % 8 = 0
  · rw [outsAt1_A V c t h0]
    unfold tile_A keys_A vals_A
    dsimp only
    iintro ⟨HΦ, Ho, ⟨%d0, H0⟩, ⟨%d1, H1⟩, ⟨%d2, H2⟩, ⟨%d3, H3⟩, ⟨%d4, H4⟩, ⟨%d5, H5⟩⟩
    ihave HΦ' := (PhiS1_any V c t.val (Nat.le_of_lt t.isLt)) $$ HΦ
    unfold PhiAny1
    icases HΦ' with ⟨⟨R1, R2, R3, R4, R5, R6, HK, HV⟩, Hp⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HK]; · iexact HK
    isplitl [HV]; · iexact HV
    iintro ⟨H0, H1, H2, H3, H4, ⟨%e5, H5⟩, ⟨%eK, HK⟩, ⟨%eV, HV⟩⟩
    isplitl [R1 R2 R3 R4 R5 R6 HK HV Hp]
    · isplitr [Hp]
      · isplitl [R1]; · iexact R1
        isplitl [R2]; · iexact R2
        isplitl [R3]; · iexact R3
        isplitl [R4]; · iexact R4
        isplitl [R5]; · iexact R5
        isplitl [R6]; · iexact R6
        isplitl [HK]
        · unfold owns; iexists _; isplitr
          swap; · iexact HK
          ipureintro; exact View.read_writes_of_cover _ _ _ _ _ (cover_keys_A c _ _ _ _ _ _ _ _ _ _ _ _ _ _ _ _ _ _ _ _ _ _ _)
        unfold owns; iexists _; isplitr
        swap; · iexact HV
        ipureintro; exact View.read_writes_of_cover _ _ _ _ _ (cover_vals_A c _ _ _ _ _ _ _ _ _ _ _ _ _ _ _ _ _ _ _ _ _ _ _)
      iexact Hp
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_tile_A c _ _ _ _ _ _ _ _ _ _ _ _ _ _ _ _ _ _ _ _ _ _ _)
  · have hz : t.val ≠ 0 := fun h => h0 (by rw [h])
    rw [outsAt1_B V c t h0, PhiS1_pos V c t.val _ hz]
    unfold tile_B
    dsimp only
    iintro ⟨⟨⟨R1, R2, R3, R4, R5, R6, HK, HV⟩, Hp⟩, Ho, ⟨%d0, H0⟩, ⟨%d1, H1⟩, ⟨%d2, H2⟩, ⟨%d3, H3⟩, ⟨%d4, H4⟩, ⟨%d5, H5⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) (fun h => h0 ((hcond1 t).mp h)) (blk1 V c 0 t) (blk1 V c 1 t) (blk1 V c 2 t) (blk1 V c 3 t) (blk1 V c 4 t) _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HK]; · iexact HK
    isplitl [HV]; · iexact HV
    iintro ⟨H0, H1, H2, H3, H4, ⟨%e5, H5⟩, HK, HV⟩
    isplitl [R1 R2 R3 R4 R5 R6 HK HV Hp]
    · isplitr [Hp]
      · isplitl [R1]; · iexact R1
        isplitl [R2]; · iexact R2
        isplitl [R3]; · iexact R3
        isplitl [R4]; · iexact R4
        isplitl [R5]; · iexact R5
        isplitl [R6]; · iexact R6
        isplitl [HK]; · iexact HK
        iexact HV
      iexact Hp
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_tile_B c _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Attn

end
-- ==== Proof.KernelRun1.lean ====
import proofs.«122070_j75737453297854_2_alg».proof.Proof.KernelRegion0
import proofs.«122070_j75737453297854_2_alg».proof.Proof.KernelRegion1
import Idealize.ShloMosaic.Lib.Pipeline.RegionsLoop
import Idealize.ShloMosaic.Lib.Pipeline.FrameSuffix

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of the program

The program is: eight host operations (casts, the flattening of the input, the stacking of the three projection
weights, a zero bias), the projection call, two host reshapes, the attention call. B0 … B4 are the unscoped
buffers' contents before each of these five stretches and after the last. -/

/-- At launch. -/
abbrev B0 : Dev nD → Valuation τ sig (Elt F) := fun c b => (s₀ m ρ).mem ((c : Dev nD), b)
/-- After the first host stretch: what the projection call is entered from. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the projection call: its four arrays at what its write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem exit0_arr (c : Dev nD) (w : Fin cfg0.W) : (dat0 (E1 m ρ) c).arrAt w cfg0.N = E2 m ρ c (Pipeline.arrRef spec0 w) :=
  (B2_arr m ρ c w).symm
theorem exit0_rest (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After the two reshapes: what the attention call is entered from. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention call: only its result array changes, to what its write-backs leave. -/
def B4 (c : Dev nD) : Valuation τ sig (Elt F) :=
  Function.update (B3 m ρ c) (Proc.devRef .tc main_v10) ((dat1 (E3 m ρ) c).arrAt 5 cfg1.N)
theorem B4_result (c : Dev nD) : B4 m ρ c (Proc.devRef .tc main_v10) = (dat1 (E3 m ρ) c).arrAt 5 cfg1.N := by
  unfold B4; exact Function.update_self _ _ _
theorem B4_of_ne (c : Dev nD) (b : Ref sig .tc) (hb : b ≠ main_v10) :
    B4 m ρ c (Proc.devRef .tc b) = B3 m ρ c (Proc.devRef .tc b) := by
  unfold B4; exact Function.update_of_ne (StableHlo.devRef_ne_of_ne hb) _ _
abbrev E4 : (c : Dev nD) → (b : Ref sig .tc) → Buf (Elt F) ((c : Thread nD τ).loc b) := fun c b => B4 m ρ c b

/-- Argument 0 reaches the end as launched: no host operation writes it, region 0 does not stage it, region 1 writes only its result. -/
theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

/-- Argument 1 reaches the end as launched: no host operation writes it, region 0 does not stage it, region 1 writes only its result. -/
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

/-- Argument 2 reaches the end as launched: no host operation writes it, region 0 does not stage it, region 1 writes only its result. -/
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

/-- Argument 3 reaches the end as launched: no host operation writes it, region 0 does not stage it, region 1 writes only its result. -/
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-- Argument 4 reaches the end as launched: no host operation writes it, region 0 does not stage it, region 1 writes only its result. -/
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

/-- Argument 5 reaches the end as launched: no host operation writes it, region 0 does not stage it, region 1 writes only its result. -/
theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg5) := B2_of_ne m ρ c main_arg5 (by decide)
    _ = B0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

end Cert.Kernel.Attn

end
-- ==== Proof.KernelRun2.lean ====
import proofs.«122070_j75737453297854_2_alg».proof.Proof.KernelRun1

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One array behind three windows

The attention call reads the fused q|k|v array through three windows. The array's one full-share ownership is
dealt to them as its left half, and the two halves of its right half; at the exit the three parts, which all
still hold the entry contents, make the whole again. -/

section Shared

variable (V : (c : Dev nD) → (b : Ref sig .tc) → Buf (Elt F) ((c : Thread nD τ).loc b))

/-- The four distinct buffers behind the six windows, each whole. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v8) ↦{fullShare} W main_v8) ∗ (((c : Thread nD τ).loc main_v4) ↦{fullShare} W main_v4) ∗ (((c : Thread nD τ).loc main_v9) ↦{fullShare} W main_v9) ∗ (((c : Thread nD τ).loc main_v10) ↦{fullShare} W main_v10)) := by
  unfold Pipeline.arrBufs
  exact bigSep_eq_bigSepL_of_eq [main_v8, main_v4, main_v9, main_v10] (by decide) (by decide) _

/-- The six windows' arrays, each at its share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v8) ↦{fullShare.left} G 0) ∗ (((c : Thread nD τ).loc main_v8) ↦{fullShare.right.left} G 1) ∗ (((c : Thread nD τ).loc main_v8) ↦{fullShare.right.right} G 2)
          ∗ (((c : Thread nD τ).loc main_v4) ↦{fullShare} G 3) ∗ (((c : Thread nD τ).loc main_v9) ↦{fullShare} G 4) ∗ (((c : Thread nD τ).loc main_v10) ↦{fullShare} G 5)) := by
  unfold Dat.arrays
  rw [show (bigSep Finset.univ fun w : Fin cfg1.W => ((cfg1.win w).arr.view.loc (c.tc : Thread nD τ) ↦[(cfg1.win w).arr.view.set]{(dat1 V c).share w} G w : sProp 𝕄))
        = bigSep Finset.univ fun w : Fin cfg1.W => (((c.tc : Thread nD τ).loc (Pipeline.arrRef spec1 w)) ↦{(dat1 V c).share w} G w : sProp 𝕄)
      from bigSep_congr fun w _ => by rw [(arr_whole1 w).set_eq_univ]]
  rw [bigSep_W1]; rfl

end Shared

variable (m : (ℓ : Loc nD τ sig) → Buf (Elt F) ℓ) (ρ : Dev nD → PrngReg)

/-- The buffers no window of the attention call stages are the same before and after it. -/
theorem rest1_keep (c : Dev nD) :
    (Pipeline.unscopedRest (Ix := Unit) (Name := ℕ) (U := UR sig nD τ) (Lvl := ℕ) spec1 c (E4 m ρ c) : sProp 𝕄) = Pipeline.unscopedRest (Ix := Unit) (Name := ℕ) (U := UR sig nD τ) (Lvl := ℕ) spec1 c (E3 m ρ c) := by
  unfold Pipeline.unscopedRest
  exact bigSep_congr fun b hb => by
    have hne : b ≠ main_v10 := fun e => (Finset.mem_sdiff.mp hb).2 (e ▸ Finset.mem_image.mpr ⟨5, Finset.mem_univ _, rfl⟩)
    rw [show E4 m ρ c b = E3 m ρ c b from B4_of_ne m ρ c b hne]

/-- ENTRY of the attention call: every unscoped buffer at the entry contents gives the six windows' arrays — the
    fused array's ownership dealt in three — and the buffers no window stages. -/
theorem entry1 (c : Dev nD) :
    (StableHlo.held (c : Thread nD τ) (Pipeline.ucRefs τ sig) (B3 m ρ c) : sProp 𝕄)
      ⊢ iprop((dat1 (E3 m ρ) c).arrays ((dat1 (E3 m ρ) c).arrAt · 0) ∗ Pipeline.unscopedRest (Ix := Unit) (Name := ℕ) (U := UR sig nD τ) (Lvl := ℕ) spec1 c (E3 m ρ c)) := by
  rw [← Pipeline.unscopedBufs_held (Ix := Unit) (Name := ℕ) (U := UR sig nD τ) (Lvl := ℕ) c (B3 m ρ c),
    Pipeline.unscopedBufs_split₀ cfgs (1 : Fin 2) winFacts₀1.arr_unscoped c (E3 m ρ c)]
  show (iprop(Pipeline.arrBufs (Ix := Unit) (Name := ℕ) (U := UR sig nD τ) (Lvl := ℕ) spec1 c (E3 m ρ c) ∗ Pipeline.unscopedRest (Ix := Unit) (Name := ℕ) (U := UR sig nD τ) (Lvl := ℕ) spec1 c (E3 m ρ c)) : sProp 𝕄) ⊢ _
  rw [arrBufs1_eq, arrays1_eq]
  iintro ⟨⟨H8, H4, H9, H10⟩, Hrest⟩
  have hs1 := (pointsTo_share (Ix := Unit) (Name := ℕ) (U := UR sig nD τ) (Lvl := ℕ) (Val := Elt F) (ℓ := (c : Thread nD τ).loc main_v8) (I := Finset.univ) (f := E3 m ρ c main_v8) (PosShare.mem_left_op_right fullShare)).1
  have hs2 := (pointsTo_share (Ix := Unit) (Name := ℕ) (U := UR sig nD τ) (Lvl := ℕ) (Val := Elt F) (ℓ := (c : Thread nD τ).loc main_v8) (I := Finset.univ) (f := E3 m ρ c main_v8) (PosShare.mem_left_op_right fullShare.right)).1
  ihave H8' := hs1 $$ H8
  icases H8' with ⟨Ha, Hb⟩
  ihave Hb' := hs2 $$ Hb
  icases Hb' with ⟨Hb1, Hb2⟩
  isplitr [Hrest]
  · isplitl [Ha]; · iexact Ha
    isplitl [Hb1]; · iexact Hb1
    isplitl [Hb2]; · iexact Hb2
    isplitl [H4]; · iexact H4
    isplitl [H9]; · iexact H9
    iexact H10
  iexact Hrest

/-- EXIT of the attention call: the three parts of the fused array, still at its entry contents, make it whole
    again; the result array holds what the write-backs left; with the unstaged buffers, every unscoped buffer at the
    exit contents. -/
theorem exit1 (c : Dev nD) :
    (iprop((dat1 (E3 m ρ) c).arrays ((dat1 (E3 m ρ) c).arrAt · cfg1.N) ∗ Pipeline.unscopedRest (Ix := Unit) (Name := ℕ) (U := UR sig nD τ) (Lvl := ℕ) spec1 c (E3 m ρ c)) : sProp 𝕄)
      ⊢ StableHlo.held (c : Thread nD τ) (Pipeline.ucRefs τ sig) (B4 m ρ c) := by
  have h0 : (dat1 (E3 m ρ) c).arrAt 0 cfg1.N = E4 m ρ c main_v8 :=
    ((dat1 (E3 m ρ) c).arrAt_in 0 rfl _).trans ((A_eq1 (E3 m ρ) c 0).trans (B4_of_ne m ρ c main_v8 (by decide)).symm)
  have h1 : (dat1 (E3 m ρ) c).arrAt 1 cfg1.N = E4 m ρ c main_v8 :=
    ((dat1 (E3 m ρ) c).arrAt_in 1 rfl _).trans ((A_eq1 (E3 m ρ) c 1).trans (B4_of_ne m ρ c main_v8 (by decide)).symm)
  have h2 : (dat1 (E3 m ρ) c).arrAt 2 cfg1.N = E4 m ρ c main_v8 :=
    ((dat1 (E3 m ρ) c).arrAt_in 2 rfl _).trans ((A_eq1 (E3 m ρ) c 2).trans (B4_of_ne m ρ c main_v8 (by decide)).symm)
  have h3 : (dat1 (E3 m ρ) c).arrAt 3 cfg1.N = E4 m ρ c main_v4 :=
    ((dat1 (E3 m ρ) c).arrAt_in 3 rfl _).trans ((A_eq1 (E3 m ρ) c 3).trans (B4_of_ne m ρ c main_v4 (by decide)).symm)
  have h4 : (dat1 (E3 m ρ) c).arrAt 4 cfg1.N = E4 m ρ c main_v9 :=
    ((dat1 (E3 m ρ) c).arrAt_in 4 rfl _).trans ((A_eq1 (E3 m ρ) c 4).trans (B4_of_ne m ρ c main_v9 (by decide)).symm)
  have h5 : (dat1 (E3 m ρ) c).arrAt 5 cfg1.N = E4 m ρ c main_v10 := (B4_result m ρ c).symm
  rw [← Pipeline.unscopedBufs_held (Ix := Unit) (Name := ℕ) (U := UR sig nD τ) (Lvl := ℕ) c (B4 m ρ c),
    Pipeline.unscopedBufs_split₀ cfgs (1 : Fin 2) winFacts₀1.arr_unscoped c (E4 m ρ c)]
  show _ ⊢ (iprop(Pipeline.arrBufs (Ix := Unit) (Name := ℕ) (U := UR sig nD τ) (Lvl := ℕ) spec1 c (E4 m ρ c) ∗ Pipeline.unscopedRest (Ix := Unit) (Name := ℕ) (U := UR sig nD τ) (Lvl := ℕ) spec1 c (E4 m ρ c)) : sProp 𝕄)
  rw [arrBufs1_eq, arrays1_eq, rest1_keep]
  dsimp only
  rw [h0, h1, h2, h3, h4, h5]
  iintro ⟨⟨Ha, Hb1, Hb2, H4, H9, H10⟩, Hrest⟩
  have hj2 := (pointsTo_share (Ix := Unit) (Name := ℕ) (U := UR sig nD τ) (Lvl := ℕ) (Val := Elt F) (ℓ := (c : Thread nD τ).loc main_v8) (I := Finset.univ) (f := E4 m ρ c main_v8) (PosShare.mem_left_op_right fullShare.right)).2
  have hj1 := (pointsTo_share (Ix := Unit) (Name := ℕ) (U := UR sig nD τ) (Lvl := ℕ) (Val := Elt F) (ℓ := (c : Thread nD τ).loc main_v8) (I := Finset.univ) (f := E4 m ρ c main_v8) (PosShare.mem_left_op_right fullShare)).2
  ihave Hb := hj2 $$ [Hb1 Hb2]
  · isplitl [Hb1]; · iexact Hb1
    iexact Hb2
  ihave H8 := hj1 $$ [Ha Hb]
  · isplitl [Ha]; · iexact Ha
    iexact Hb
  isplitr [Hrest]
  · isplitl [H8]; · iexact H8
    isplitl [H4]; · iexact H4
    isplitl [H9]; · iexact H9
    iexact H10
  iexact Hrest

/-- After its last point the attention call's invariant gives the class invariant back: the scratch forgotten. -/
theorem Phi1_out (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = PhiS1 V c cfg1.N (le_refl _) from rfl, PhiA1_eq]
  exact PhiS1_any V c cfg1.N (le_refl _)

end Cert.Kernel.Attn

end
-- ==== Proof.KernelRun3.lean ====
import proofs.«122070_j75737453297854_2_alg».proof.Proof.KernelRun2

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The program as four segments, and its run -/

/-- Neither call has a prefetched table. -/
abbrev noTables : (p : Fin 2) → (pcfgs (F := F) p).Adm := fun p => (cfgs p).toPCfg_adm
/-- Each call's proof data at the contents it is entered from. -/
def bothDats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev noVariants : Variants := Variants.none
/-- No core owes another anything: no level is assigned. -/
abbrev noPairs : GSem nD τ sig → Finset Unit := fun _ => ∅
abbrev noLevels : GSem nD τ sig → Unit → ℕ := fun _ _ => 0
/-- What rides beside the buffers through every segment: the generator register at some state, nothing owed. -/
abbrev Riding (c : Dev nD) : sProp 𝕄 := iprop((∃ r, prngReg c r) ∗ ∃ W, owes (c : Thread nD τ) (0 : CellTallies nD τ sig Unit) W)
/-- A stretch of host operations as a segment, from the contents W. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Riding

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register. -/
abbrev AtEnd (c : Dev nD) : sProp 𝕄 := iprop(StableHlo.held (c : Thread nD τ) (Pipeline.ucRefs τ sig) (B4 m ρ c) ∗ ∃ r, prngReg c r)

set_option backward.isDefEq.respectTransparency.types false in
/-- The projection call as a segment: its four distinct arrays split out of the unscoped buffers and put back. -/
def projSeg : Pipeline.RegionSeg (pcfgs (F := F)) noTables (bothDats m ρ) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noPairs noLevels 0 fun _ _ => rfl
  pre c := iprop(StableHlo.held (c : Thread nD τ) (Pipeline.ucRefs τ sig) (B1 m ρ c) ∗ Riding c)
  post c := iprop(StableHlo.held (c : Thread nD τ) (Pipeline.ucRefs τ sig) (B2 m ρ c) ∗ Riding c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (bothDats m ρ) launch0.win launch0.arr_whole c
      ((bothDats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (bothDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (bothDats m ρ) ((bothDats m ρ 0 c).share_full fun _ => rfl)
      (E1 m ρ c) (E2 m ρ c) ((bothDats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment: the fused array dealt to its three windows at entry and made whole at exit. -/
def attnSeg : Pipeline.RegionSeg (pcfgs (F := F)) noTables (bothDats m ρ) () defs₀ noVariants noPairs noLevels 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ noPairs noLevels 1 fun _ _ => rfl
  pre c := iprop(StableHlo.held (c : Thread nD τ) (Pipeline.ucRefs τ sig) (B3 m ρ c) ∗ Riding c)
  post c := iprop(AtEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (bothDats m ρ 1 c).Φ (Fin.last _) ⊢ (Pipeline.ΦA spec1 c : sProp 𝕄) from Phi1_out (E3 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m ρ c)
        isplitl [Ha]; · iexact Ha
        iexact Hrest
      iexact HY
    unfold Pipeline.Dat.owesAt Pipeline.owesWithin
    icases HO with ⟨%W, -, HO⟩; iexists W; iexact HO

/-- The program's four segments in order. -/
abbrev fourSegs : List (Pipeline.Seg (pcfgs (F := F)) noTables (bothDats m ρ) () defs₀ noVariants noPairs noLevels) :=
  [ .host (hostStretch hostOps0 hostOps0_sub ops0_fresh (B0 m ρ)),
    .region (projSeg m ρ),
    .host (hostStretch hostOps1 hostOps1_sub ops1_fresh (B2 m ρ)),
    .region (attnSeg m ρ) ]
theorem main_is_segs (c : Dev nD) : main (F := F) c = Pipeline.Seg.run (fourSegs m ρ) := (main_chain c).trans (by chain_rfl)

set_option backward.isDefEq.respectTransparency.types false in
/-- THE RUN. From any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (bothDats m ρ) () cellOf_inj emb₁ defs₀ noVariants noPairs noLevels m ρ main (fourSegs m ρ)
    (fun c Q => by rw [main_is_segs m ρ c])
    (by simp only [fourSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Riding c)) (Tₙ := AtEnd m ρ)
    (hch := ⟨fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME of the kernel program: it runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (B4_main_arg0 m ρ c),
    (h c _ (mem_uc main_arg1 (by decide))).trans (B4_main_arg1 m ρ c),
    (h c _ (mem_uc main_arg2 (by decide))).trans (B4_main_arg2 m ρ c),
    (h c _ (mem_uc main_arg3 (by decide))).trans (B4_main_arg3 m ρ c),
    (h c _ (mem_uc main_arg4 (by decide))).trans (B4_main_arg4 m ρ c),
    (h c _ (mem_uc main_arg5 (by decide))).trans (B4_main_arg5 m ρ c)⟩) (run_all m ρ)

/-- The run with the result named: the result array ends at what the attention call's write-backs leave. -/
theorem run_result : θ_run defs (onTc (τ := τ) (main (F := F))) ⟨m, fun _ => 0, ρ⟩ (fun r => ∀ c : Dev nD,
      r.2.mem ((c.tc : Thread nD τ).loc main_v10) = (dat1 (E3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v10 (by decide))).trans (B4_result m ρ c),
    (h c _ (mem_uc main_arg0 (by decide))).trans (B4_main_arg0 m ρ c),
    (h c _ (mem_uc main_arg1 (by decide))).trans (B4_main_arg1 m ρ c),
    (h c _ (mem_uc main_arg2 (by decide))).trans (B4_main_arg2 m ρ c),
    (h c _ (mem_uc main_arg3 (by decide))).trans (B4_main_arg3 m ρ c),
    (h c _ (mem_uc main_arg4 (by decide))).trans (B4_main_arg4 m ρ c),
    (h c _ (mem_uc main_arg5 (by decide))).trans (B4_main_arg5 m ρ c)⟩) (run_all m ρ)

end Cert.Kernel.Attn

end
-- ==== Proof.Region0.lean ====
import proofs.«122070_j75737453297854_2_alg».proof.Proof.Gen.KernelIdeal.Launch
import proofs.«122070_j75737453297854_2_alg».proof.Proof.Gen.KernelIdeal.Skeleton
import proofs.«122070_j75737453297854_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the projection's region is entered
variable (V : (c : Dev nD) → (b : Ref sig .tc) → Buf (Elt F) ((c : Thread nD τ).loc b))

/-! # The linear projection qkv = x · Wᵀ + bias, one block of 1024 rows per grid point

The grid has 8 points. At point `t` the body reads rows 1024·t … 1024·t + 1023 of the input `x` (window 0, a new
block at every point), the whole stacked weight matrix (window 1) and the whole bias row (window 2) — both moved
in once, at the first point, and left in place afterwards — and overwrites the matching 1024 rows of the result
(window 3) by ONE store of the whole block. -/

/-! ## The windows' blocks -/

/-- Window `w`'s block at point `t`, read off its array as the region finds it (`V`). -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x`: its staging buffer holds the block of the current point, for any proof data over `V`'s
    array whose body leaves that block where it found it. (It is moved in at every point; the statement does not
    need to know.) -/
theorem xRows_held {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weights: moved in at the first point only; at a later point the block index has not moved (it is the whole
    matrix at every point), so the buffer still holds this point's block. -/
theorem weights_held {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The bias row: as the weights. -/
theorem bias_held {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer is read, or written, whole -/

abbrev allOfX : Rect S1024x1280 := Rect.unit (s := S1024x1280) ![0, 0] S1024x1280.size inb_S1024x1280_S1024x1280_0_0
abbrev allOfW : Rect S3840x1280 := Rect.unit (s := S3840x1280) ![0, 0] S3840x1280.size inb_S3840x1280_S3840x1280_0_0
abbrev allOfBias : Rect S1x3840 := Rect.unit (s := S1x3840) ![0, 0] S1x3840.size inb_S1x3840_S1x3840_0_0
abbrev allOfQkv : Rect S1024x3840 := Rect.unit (s := S1024x3840) ![0, 0] S1024x3840.size inb_S1024x3840_S1024x3840_0_0

/-! ## What the body leaves in the result's staging buffer -/

/-- The result window's staging buffer after the body, from the three input blocks: its one store, of the payload
    x · Wᵀ + bias (rounded to bf16) over the three loads, as a one-piece list. -/
def qkvBlock (x0 : Vec F S1024x1280 .bf16) (x1 : Vec F S3840x1280 .bf16) (x2 : Vec F S1x3840 .f32) : Vec F S1024x3840 .bf16 :=
  View.canon [⟨allOfQkv, k0_pay1 (View.ld x0 allOfX) (View.ld x1 allOfW) (View.ld x2 allOfBias)⟩]

/-- The one store is of the whole buffer, so it covers it. -/
theorem qkvStore_covers (p0 : Vec F S1024x3840 .bf16) (y : S1024x3840.Idx) :
    ∃ pc ∈ ([⟨allOfQkv, p0⟩] : List (View.Piece (Elt F) S1024x3840 .bf16)), y ∈ pc.1.set :=
  View.cover_of_tiled [⟨allOfQkv, p0⟩] S1024x3840.size (by rfl) y

/-! ## The body's triple -/

set_option maxHeartbeats 1000000 in
/-- The projection's body on whole staging memrefs — the inputs' at read contents `x0 x1 x2`, the result's at
    anything — runs to the continuation with the inputs' as they were and the result's at `qkvBlock` of them. -/
theorem linear_runs (c : Dev nD) (E : Set ℕ) (i : grid0.Coords)
    (arg1 : Memref sig .tc .vmem S1024x1280 .bf16) (harg1 : arg1.IsWhole) (arg2 : Memref sig .tc .vmem S3840x1280 .bf16) (harg2 : arg2.IsWhole)
    (arg3 : Memref sig .tc .vmem S1x3840 .f32) (harg3 : arg3.IsWhole) (arg4 : Memref sig .tc .vmem S1024x3840 .bf16) (harg4 : arg4.IsWhole)
    (x0 : Vec F S1024x1280 .bf16) (x1 : Vec F S3840x1280 .bf16) (x2 : Vec F S1x3840 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (qkvBlock x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (qkvStore_covers _)

/-! ## The pipeline's proof data -/

/-- The proof data of the projection's pipeline on core `c`: the arrays as the region finds them (`V`); after the
    body at point `t` each input's buffer at its block and the result's at `qkvBlock` of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => qkvBlock (blk0 V c 0 t) (blk0 V c 1 t) (blk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = qkvBlock (blk0 V c 0 t) (blk0 V c 1 t) (blk0 V c 2 t) := by dsimp only [dat0]

/-- Each input's current staging buffer holds its block at every point. -/
theorem before0_0 (c : Dev nD) (t : Fin cfg0.N) (d) : (dat0 V c).before 0 t d = blk0 V c 0 t :=
  xRows_held V (dat0 V c) (A_eq0 V c 0) (after0_0 V c) t d
theorem before0_1 (c : Dev nD) (t : Fin cfg0.N) (d) : (dat0 V c).before 1 t d = blk0 V c 1 t :=
  weights_held V (dat0 V c) (A_eq0 V c 1) (after0_1 V c) t d
theorem before0_2 (c : Dev nD) (t : Fin cfg0.N) (d) : (dat0 V c).before 2 t d = blk0 V c 2 t :=
  bias_held V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `linear_runs` applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (linear_runs c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Attn

end
-- ==== Proof.AttnBody.lean ====
import proofs.«122070_j75737453297854_2_alg».proof.Proof.Gen.KernelIdeal.Launch
import proofs.«122070_j75737453297854_2_alg».proof.Proof.Gen.KernelIdeal.Skeleton
import proofs.«122070_j75737453297854_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention body at one grid point

The body reads a 128-row block of queries, the whole key and value blocks of the batch, the output weights and
the bias. When the second grid coordinate is 0 it first re-lays the key and value blocks head by head into the
two scratch buffers; at every point it then computes, per head, scores = q·kᵀ/8, a softmax over the keys,
probabilities·v, re-lays the heads side by side and applies the output projection. Two cases, one per value
of the branch: each runs to the end with the inputs unchanged and every written buffer holding a list of
written pieces. -/

/-- The branch of the attention body: taken exactly when the second grid coordinate is 0. -/
abbrev cond1 (i : grid1.Coords) : Prop :=
  (Scalar.cmpi .ne (Scalar.extui (Scalar.cmpi .eq (BitVec.ofNat 32 (i 1).val) 0#32)) 0#32) = 1#1

set_option maxHeartbeats 2000000 in
/-- The body at a point where the branch is not taken: both scratch buffers are only read. The pieces the output's
    staging buffer ends with are found by the run. -/
noncomputable def kernelRun1_B (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : ¬cond1 i)
    (x2 : Vec F S1x128x1280 .bf16) (x3 x4 : Vec F S1x1024x1280 .bf16) (x5 : Vec F S1280x1280 .bf16) (x6 : Vec F S1x1280 .f32)
    (s8 s9 : Vec F S20x1024x64 .bf16) :
    { L7 : List (View.Piece (Elt F) S1x128x1280 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d)
            ∗ owns (c : Thread nD τ) arg8 fullShare s8 ∗ owns (c : Thread nD τ) arg9 fullShare s9
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ owns (c : Thread nD τ) arg8 fullShare s8 ∗ owns (c : Thread nD τ) arg9 fullShare s9) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part1_eq_skeleton]; unfold k1_part1_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg8.eq_unread hf8
    obtain rfl := harg9.eq_unread hf9
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; isplitr; · ipureintro; exact harg8.read_unread _
      iexact H8
    · iexists _; isplitr; · ipureintro; exact harg9.read_unread _
      iexact H9

set_option maxHeartbeats 4000000 in
/-- The body at a point where the branch is taken (second grid coordinate 0): both scratch buffers are overwritten
    from the key and value blocks and then read back. The pieces each written buffer ends with are found by the run. -/
noncomputable def kernelRun1_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i)
    (x2 : Vec F S1x128x1280 .bf16) (x3 x4 : Vec F S1x1024x1280 .bf16) (x5 : Vec F S1280x1280 .bf16) (x6 : Vec F S1x1280 .f32) :
    { L : List (View.Piece (Elt F) S1x128x1280 .f32) × List (View.Piece (Elt F) S20x1024x64 .bf16) × List (View.Piece (Elt F) S20x1024x64 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨⟨?_, ?_, ?_⟩, fun E K => ?run⟩
  case run =>
    simp only [cc1__attn_kernel_eq_skeleton]; unfold cc1__attn_kernel_skel
    simp only [k1_part1_eq_skeleton]; unfold k1_part1_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf2
    obtain rfl := harg3.eq_unread hf3
    obtain rfl := harg4.eq_unread hf4
    obtain rfl := harg5.eq_unread hf5
    obtain rfl := harg6.eq_unread hf6
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    · iexists _; iexact H9

end Cert.KernelIdeal.Attn

end
-- ==== Proof.Region1.lean ====
import proofs.«122070_j75737453297854_2_alg».proof.Proof.AttnBody

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region over its 8 × 8 grid

Point t = 8·b + i handles batch b and query tile i. The key and value blocks of batch b are re-laid into the two
scratch buffers at i = 0 and stay there for i = 1 … 7, so what a point computes depends on what the scratch
holds: a recursion over the points. All of it is stated at a parameter V, the buffers' contents when the
region is entered. -/

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The branch is taken exactly at the points 8·b: decided over the 64 points. -/
theorem hcond1 : ∀ t : Fin cfg1.N, cond1 (grid1.coords t) ↔ t.val % 8 = 0 :=
  (by decide +kernel : ∀ t : Fin grid1.N, cond1 (grid1.coords t) ↔ t.val % 8 = 0)

/-- Each window's current staging buffer at point t, as the pipeline passes it to the body. -/
abbrev ms1_0 (t : Fin cfg1.N) : Memref sig .tc .vmem S1x128x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1280 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1280 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x1280 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1280 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x1280 .f32 := win1_5.stage (cfg1.slots t 5)
abbrev hs1_5 (t : Fin cfg1.N) : (ms1_5 t).IsWhole := hstage1_5 ((cfg1.slots t 5).cast nbuf1_5)
/-- The two scratch buffers: the re-laid keys and the re-laid values. -/
abbrev scK : Memref sig .tc .vmem S20x1024x64 .bf16 := Memref.whole cc1_scratch0
abbrev scV : Memref sig .tc .vmem S20x1024x64 .bf16 := Memref.whole cc1_scratch1
/-- Views through which written pieces are read back (the choice of buffer does not matter). -/
abbrev VO5 : View sig .tc .vmem S1x128x1280 .f32 := (Memref.whole cc1_stg5_0 : Memref sig .tc .vmem S1x128x1280 .f32).view
abbrev VSK : View sig .tc .vmem S20x1024x64 .bf16 := scK.view
abbrev VSV : View sig .tc .vmem S20x1024x64 .bf16 := scV.view

/-! ## What each case leaves -/

/-- At a point 8·b: the output tile, the re-laid keys and the re-laid values, each the written pieces read back. -/
def tile_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) : Vec F S1x128x1280 .f32 :=
  VO5.read (Elt F) (VO5.writes (Elt F) VO5.junk (kernelRun1_A c i arg2 harg2 arg3 harg3 arg4 harg4 arg5 harg5 arg6 harg6 arg7 harg7 arg8 harg8 arg9 harg9 hc0 x2 x3 x4 x5 x6).1.1)
def keys_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) : Vec F S20x1024x64 .bf16 :=
  VSK.read (Elt F) (VSK.writes (Elt F) VSK.junk (kernelRun1_A c i arg2 harg2 arg3 harg3 arg4 harg4 arg5 harg5 arg6 harg6 arg7 harg7 arg8 harg8 arg9 harg9 hc0 x2 x3 x4 x5 x6).1.2.1)
def vals_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) : Vec F S20x1024x64 .bf16 :=
  VSV.read (Elt F) (VSV.writes (Elt F) VSV.junk (kernelRun1_A c i arg2 harg2 arg3 harg3 arg4 harg4 arg5 harg5 arg6 harg6 arg7 harg7 arg8 harg8 arg9 harg9 hc0 x2 x3 x4 x5 x6).1.2.2)
/-- At any other point: the output tile, from the scratch contents s8, s9 the earlier point left. -/
def tile_B (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : ¬cond1 i) (x2 : Vec F S1x128x1280 .bf16) (x3 x4 : Vec F S1x1024x1280 .bf16) (x5 : Vec F S1280x1280 .bf16) (x6 : Vec F S1x1280 .f32) (s8 s9 : Vec F S20x1024x64 .bf16) : Vec F S1x128x1280 .f32 :=
  VO5.read (Elt F) (VO5.writes (Elt F) VO5.junk (kernelRun1_B c i arg2 harg2 arg3 harg3 arg4 harg4 arg5 harg5 arg6 harg6 arg7 harg7 arg8 harg8 arg9 harg9 hc0 x2 x3 x4 x5 x6 s8 s9).1)

/-- The written pieces tile their buffers, so they cover them. -/
theorem cover_tile_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) (y : S1x128x1280.Idx) :
    ∃ pc ∈ (kernelRun1_A c i arg2 harg2 arg3 harg3 arg4 harg4 arg5 harg5 arg6 harg6 arg7 harg7 arg8 harg8 arg9 harg9 hc0 x2 x3 x4 x5 x6).1.1, y ∈ pc.1.set :=
  View.cover_of_tiledL _ S1x128x1280.size (by sl_kernel_rfl) y
theorem cover_keys_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) (y : S20x1024x64.Idx) :
    ∃ pc ∈ (kernelRun1_A c i arg2 harg2 arg3 harg3 arg4 harg4 arg5 harg5 arg6 harg6 arg7 harg7 arg8 harg8 arg9 harg9 hc0 x2 x3 x4 x5 x6).1.2.1, y ∈ pc.1.set :=
  View.cover_of_tiledL _ S20x1024x64.size (by sl_kernel_rfl) y
theorem cover_vals_A (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) (y : S20x1024x64.Idx) :
    ∃ pc ∈ (kernelRun1_A c i arg2 harg2 arg3 harg3 arg4 harg4 arg5 harg5 arg6 harg6 arg7 harg7 arg8 harg8 arg9 harg9 hc0 x2 x3 x4 x5 x6).1.2.2, y ∈ pc.1.set :=
  View.cover_of_tiledL _ S20x1024x64.size (by sl_kernel_rfl) y
theorem cover_tile_B (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : ¬cond1 i) (x2 : Vec F S1x128x1280 .bf16) (x3 x4 : Vec F S1x1024x1280 .bf16) (x5 : Vec F S1280x1280 .bf16) (x6 : Vec F S1x1280 .f32) (s8 s9 : Vec F S20x1024x64 .bf16) (y : S1x128x1280.Idx) :
    ∃ pc ∈ (kernelRun1_B c i arg2 harg2 arg3 harg3 arg4 harg4 arg5 harg5 arg6 harg6 arg7 harg7 arg8 harg8 arg9 harg9 hc0 x2 x3 x4 x5 x6 s8 s9).1, y ∈ pc.1.set :=
  View.cover_of_tiledL _ S1x128x1280.size (by sl_kernel_rfl) y

/-! ## The recursion over the points -/

/-- After the body at position n: the output tile, and what the two scratch buffers hold. At 8·b everything is
    made afresh from the point's blocks; elsewhere the scratch is what the point before left. -/
def outsAt1 (c : Dev nD) : (n : ℕ) → n < cfg1.N → Vec F S1x128x1280 .f32 × Vec F S20x1024x64 .bf16 × Vec F S20x1024x64 .bf16
  | 0, hn =>
    (tile_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scK (Memref.isWhole_whole _) scV (Memref.isWhole_whole _) ((hcond1 ⟨0, hn⟩).mpr (Nat.zero_mod _)) (blk1 V c 0 ⟨0, hn⟩) (blk1 V c 1 ⟨0, hn⟩) (blk1 V c 2 ⟨0, hn⟩) (blk1 V c 3 ⟨0, hn⟩) (blk1 V c 4 ⟨0, hn⟩),
     keys_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scK (Memref.isWhole_whole _) scV (Memref.isWhole_whole _) ((hcond1 ⟨0, hn⟩).mpr (Nat.zero_mod _)) (blk1 V c 0 ⟨0, hn⟩) (blk1 V c 1 ⟨0, hn⟩) (blk1 V c 2 ⟨0, hn⟩) (blk1 V c 3 ⟨0, hn⟩) (blk1 V c 4 ⟨0, hn⟩),
     vals_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scK (Memref.isWhole_whole _) scV (Memref.isWhole_whole _) ((hcond1 ⟨0, hn⟩).mpr (Nat.zero_mod _)) (blk1 V c 0 ⟨0, hn⟩) (blk1 V c 1 ⟨0, hn⟩) (blk1 V c 2 ⟨0, hn⟩) (blk1 V c 3 ⟨0, hn⟩) (blk1 V c 4 ⟨0, hn⟩))
  | n + 1, hn =>
    if h0 : (n + 1) % 8 = 0 then
      (tile_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scK (Memref.isWhole_whole _) scV (Memref.isWhole_whole _) ((hcond1 ⟨n + 1, hn⟩).mpr h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩),
       keys_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scK (Memref.isWhole_whole _) scV (Memref.isWhole_whole _) ((hcond1 ⟨n + 1, hn⟩).mpr h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩),
       vals_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scK (Memref.isWhole_whole _) scV (Memref.isWhole_whole _) ((hcond1 ⟨n + 1, hn⟩).mpr h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩))
    else
      (tile_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scK (Memref.isWhole_whole _) scV (Memref.isWhole_whole _) (fun h => h0 ((hcond1 ⟨n + 1, hn⟩).mp h)) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩)
         (outsAt1 c n (Nat.lt_of_succ_lt hn)).2.1 (outsAt1 c n (Nat.lt_of_succ_lt hn)).2.2,
       (outsAt1 c n (Nat.lt_of_succ_lt hn)).2.1, (outsAt1 c n (Nat.lt_of_succ_lt hn)).2.2)

theorem outsAt1_A (c : Dev nD) (t : Fin cfg1.N) (h0 : t.val % 8 = 0) :
    outsAt1 V c t.val t.isLt =
      (tile_A c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t),
       keys_A c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t),
       vals_A c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt =
      (tile_B c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) (fun h => h0 ((hcond1 t).mp h)) (blk1 V c 0 t) (blk1 V c 1 t) (blk1 V c 2 t) (blk1 V c 3 t) (blk1 V c 4 t)
         (outsAt1 V c (t.val - 1) (Nat.lt_of_le_of_lt (Nat.sub_le _ _) t.isLt)).2.1 (outsAt1 V c (t.val - 1) (Nat.lt_of_le_of_lt (Nat.sub_le _ _) t.isLt)).2.2,
       (outsAt1 V c (t.val - 1) (Nat.lt_of_le_of_lt (Nat.sub_le _ _) t.isLt)).2.1, (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's invariant -/

/-- Before position n: before the first point every scoped buffer the pipeline does not stage holds anything; later
    the two scratch buffers hold what the point before left, the first call's staging buffers anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scK fullShare (outsAt1 V c n hn).2.1 ∗ owns (c : Thread nD τ) scV fullShare (outsAt1 V c n hn).2.2) ∗ (∃ r, prngReg c r))

/-- The same with the scratch contents forgotten: what the class invariant is, buffer by buffer. -/
def PhiAny1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scK fullShare d) ∗ (∃ d, owns (c : Thread nD τ) scV fullShare d)) ∗ (∃ r, prngReg c r))

theorem PhiA1_eq (c : Dev nD) : (Pipeline.ΦA spec1 c : sProp 𝕄) = PhiAny1 (F := F) c := by
  unfold Pipeline.ΦA PhiAny1; rw [scopedRest1_eq]; simp only [scK, scV, owns_whole]; try rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scK fullShare (outsAt1 V c n hn).2.1 ∗ owns (c : Thread nD τ) scV fullShare (outsAt1 V c n hn).2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scK fullShare (outsAt1 V c (n - 1) (by omega)).2.1 ∗ owns (c : Thread nD τ) scV fullShare (outsAt1 V c (n - 1) (by omega)).2.2) ∗ (∃ r, prngReg c r)) := by
  cases n with
  | zero => exact absurd rfl hz
  | succ n => rfl

/-- At every position the invariant yields the forgetful form. -/
theorem PhiS1_any (c : Dev nD) (n : ℕ) (h : n ≤ cfg1.N) : PhiS1 V c n h ⊢ PhiAny1 (F := F) c := by
  cases n with
  | zero => rw [show PhiS1 V c 0 h = Pipeline.ΦA spec1 c from rfl, PhiA1_eq]
  | succ n =>
    rw [PhiS1_succ]; unfold PhiAny1
    iintro ⟨⟨H1, H2, H3, H4, H5, H6, HK, HV⟩, Hp⟩
    isplitr [Hp]
    · isplitl [H1]; · iexact H1
      isplitl [H2]; · iexact H2
      isplitl [H3]; · iexact H3
      isplitl [H4]; · iexact H4
      isplitl [H5]; · iexact H5
      isplitl [H6]; · iexact H6
      isplitl [HK]; · iexists _; iexact HK
      iexists _; iexact HV
    iexact Hp

/-! ## The proof data -/

/-- The arrays as the region finds them; after the body each input's buffer at its block, the output's at the tile
    of the recursion; the invariant above; nothing owed. The three windows on the one fused q|k|v array hold it at
    three shares that together make the whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = blk1 V c 3 t := by dsimp only [dat1]
theorem left1_4 (c : Dev nD) (t : Fin cfg1.N) : (dat1 V c).after 4 t = blk1 V c 4 t := by dsimp only [dat1]
theorem left1_5 (c : Dev nD) (t : Fin cfg1.N) : (dat1 V c).after 5 t = (outsAt1 V c t.val t.isLt).1 := by dsimp only [dat1]

/-- Each input's current staging buffer holds its block at every point, fetched there or not. -/
theorem found1_0 (c : Dev nD) (t : Fin cfg1.N) (d) : (dat1 V c).before 0 t d = blk1 V c 0 t :=
  ((dat1 V c).before_in_eq_fetched 0 rfl (fun _ => rfl) (fun _ _ _ => rfl) (fun t => by rw [left1_0]; unfold Dat.blockOf blk1; rw [A_eq1]; try rfl) t d).trans
    (by unfold Dat.fetched Dat.blockOf blk1; rw [A_eq1]; try rfl)
theorem found1_1 (c : Dev nD) (t : Fin cfg1.N) (d) : (dat1 V c).before 1 t d = blk1 V c 1 t :=
  ((dat1 V c).before_in_eq_fetched 1 rfl (fun _ => rfl) (fun _ _ _ => rfl) (fun t => by rw [left1_1]; unfold Dat.blockOf blk1; rw [A_eq1]; try rfl) t d).trans
    (by unfold Dat.fetched Dat.blockOf blk1; rw [A_eq1]; try rfl)
theorem found1_2 (c : Dev nD) (t : Fin cfg1.N) (d) : (dat1 V c).before 2 t d = blk1 V c 2 t :=
  ((dat1 V c).before_in_eq_fetched 2 rfl (fun _ => rfl) (fun _ _ _ => rfl) (fun t => by rw [left1_2]; unfold Dat.blockOf blk1; rw [A_eq1]; try rfl) t d).trans
    (by unfold Dat.fetched Dat.blockOf blk1; rw [A_eq1]; try rfl)
theorem found1_3 (c : Dev nD) (t : Fin cfg1.N) (d) : (dat1 V c).before 3 t d = blk1 V c 3 t :=
  ((dat1 V c).before_in_eq_fetched 3 rfl (fun _ => rfl) (fun _ _ _ => rfl) (fun t => by rw [left1_3]; unfold Dat.blockOf blk1; rw [A_eq1]; try rfl) t d).trans
    (by unfold Dat.fetched Dat.blockOf blk1; rw [A_eq1]; try rfl)
theorem found1_4 (c : Dev nD) (t : Fin cfg1.N) (d) : (dat1 V c).before 4 t d = blk1 V c 4 t :=
  ((dat1 V c).before_in_eq_fetched 4 rfl (fun _ => rfl) (fun _ _ _ => rfl) (fun t => by rw [left1_4]; unfold Dat.blockOf blk1; rw [A_eq1]; try rfl) t d).trans
    (by unfold Dat.fetched Dat.blockOf blk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' buffers hold their blocks; at 8·b the scratch may hold anything and ends
    re-laid, elsewhere it holds what the point before left and is handed on unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2, found1_3, found1_4]
  rw [show (dat1 V c).Φ t.succ = PhiS1 V c (t.val + 1) t.isLt from rfl, PhiS1_succ,
    show (dat1 V c).owesAt () t.succ = (dat1 V c).owesAt () t.castSucc from rfl,
    Phi1_castSucc, left1_0, left1_1, left1_2, left1_3, left1_4, left1_5]
  have hN : t.val < 64 := lt_of_lt_of_eq t.isLt (show cfg1.N = 64 from N_1)
  by_cases h0 : t.val % 8 = 0
  · rw [outsAt1_A V c t h0]
    unfold tile_A keys_A vals_A
    dsimp only
    iintro ⟨HΦ, Ho, ⟨%d0, H0⟩, ⟨%d1, H1⟩, ⟨%d2, H2⟩, ⟨%d3, H3⟩, ⟨%d4, H4⟩, ⟨%d5, H5⟩⟩
    ihave HΦ' := (PhiS1_any V c t.val (Nat.le_of_lt t.isLt)) $$ HΦ
    unfold PhiAny1
    icases HΦ' with ⟨⟨R1, R2, R3, R4, R5, R6, HK, HV⟩, Hp⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HK]; · iexact HK
    isplitl [HV]; · iexact HV
    iintro ⟨H0, H1, H2, H3, H4, ⟨%e5, H5⟩, ⟨%eK, HK⟩, ⟨%eV, HV⟩⟩
    isplitl [R1 R2 R3 R4 R5 R6 HK HV Hp]
    · isplitr [Hp]
      · isplitl [R1]; · iexact R1
        isplitl [R2]; · iexact R2
        isplitl [R3]; · iexact R3
        isplitl [R4]; · iexact R4
        isplitl [R5]; · iexact R5
        isplitl [R6]; · iexact R6
        isplitl [HK]
        · unfold owns; iexists _; isplitr
          swap; · iexact HK
          ipureintro; exact View.read_writes_of_cover _ _ _ _ _ (cover_keys_A c _ _ _ _ _ _ _ _ _ _ _ _ _ _ _ _ _ _ _ _ _ _ _)
        unfold owns; iexists _; isplitr
        swap; · iexact HV
        ipureintro; exact View.read_writes_of_cover _ _ _ _ _ (cover_vals_A c _ _ _ _ _ _ _ _ _ _ _ _ _ _ _ _ _ _ _ _ _ _ _)
      iexact Hp
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_tile_A c _ _ _ _ _ _ _ _ _ _ _ _ _ _ _ _ _ _ _ _ _ _ _)
  · have hz : t.val ≠ 0 := fun h => h0 (by rw [h])
    rw [outsAt1_B V c t h0, PhiS1_pos V c t.val _ hz]
    unfold tile_B
    dsimp only
    iintro ⟨⟨⟨R1, R2, R3, R4, R5, R6, HK, HV⟩, Hp⟩, Ho, ⟨%d0, H0⟩, ⟨%d1, H1⟩, ⟨%d2, H2⟩, ⟨%d3, H3⟩, ⟨%d4, H4⟩, ⟨%d5, H5⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) (fun h => h0 ((hcond1 t).mp h)) (blk1 V c 0 t) (blk1 V c 1 t) (blk1 V c 2 t) (blk1 V c 3 t) (blk1 V c 4 t) _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HK]; · iexact HK
    isplitl [HV]; · iexact HV
    iintro ⟨H0, H1, H2, H3, H4, ⟨%e5, H5⟩, HK, HV⟩
    isplitl [R1 R2 R3 R4 R5 R6 HK HV Hp]
    · isplitr [Hp]
      · isplitl [R1]; · iexact R1
        isplitl [R2]; · iexact R2
        isplitl [R3]; · iexact R3
        isplitl [R4]; · iexact R4
        isplitl [R5]; · iexact R5
        isplitl [R6]; · iexact R6
        isplitl [HK]; · iexact HK
        iexact HV
      iexact Hp
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_tile_B c _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Attn

end
-- ==== Proof.Run1.lean ====
import proofs.«122070_j75737453297854_2_alg».proof.Proof.Region0
import proofs.«122070_j75737453297854_2_alg».proof.Proof.Region1
import Idealize.ShloMosaic.Lib.Pipeline.RegionsLoop
import Idealize.ShloMosaic.Lib.Pipeline.FrameSuffix

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of the program

The program is: eight host operations (casts, the flattening of the input, the stacking of the three projection
weights, a zero bias), the projection call, two host reshapes, the attention call. B0 … B4 are the unscoped
buffers' contents before each of these five stretches and after the last. -/

/-- At launch. -/
abbrev B0 : Dev nD → Valuation τ sig (Elt F) := fun c b => (s₀ m ρ).mem ((c : Dev nD), b)
/-- After the first host stretch: what the projection call is entered from. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the projection call: its four arrays at what its write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem exit0_arr (c : Dev nD) (w : Fin cfg0.W) : (dat0 (E1 m ρ) c).arrAt w cfg0.N = E2 m ρ c (Pipeline.arrRef spec0 w) :=
  (B2_arr m ρ c w).symm
theorem exit0_rest (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After the two reshapes: what the attention call is entered from. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention call: only its result array changes, to what its write-backs leave. -/
def B4 (c : Dev nD) : Valuation τ sig (Elt F) :=
  Function.update (B3 m ρ c) (Proc.devRef .tc main_v10) ((dat1 (E3 m ρ) c).arrAt 5 cfg1.N)
theorem B4_result (c : Dev nD) : B4 m ρ c (Proc.devRef .tc main_v10) = (dat1 (E3 m ρ) c).arrAt 5 cfg1.N := by
  unfold B4; exact Function.update_self _ _ _
theorem B4_of_ne (c : Dev nD) (b : Ref sig .tc) (hb : b ≠ main_v10) :
    B4 m ρ c (Proc.devRef .tc b) = B3 m ρ c (Proc.devRef .tc b) := by
  unfold B4; exact Function.update_of_ne (StableHlo.devRef_ne_of_ne hb) _ _
abbrev E4 : (c : Dev nD) → (b : Ref sig .tc) → Buf (Elt F) ((c : Thread nD τ).loc b) := fun c b => B4 m ρ c b

/-- Argument 0 reaches the end as launched: no host operation writes it, region 0 does not stage it, region 1 writes only its result. -/
theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

/-- Argument 1 reaches the end as launched: no host operation writes it, region 0 does not stage it, region 1 writes only its result. -/
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

/-- Argument 2 reaches the end as launched: no host operation writes it, region 0 does not stage it, region 1 writes only its result. -/
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

/-- Argument 3 reaches the end as launched: no host operation writes it, region 0 does not stage it, region 1 writes only its result. -/
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-- Argument 4 reaches the end as launched: no host operation writes it, region 0 does not stage it, region 1 writes only its result. -/
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

/-- Argument 5 reaches the end as launched: no host operation writes it, region 0 does not stage it, region 1 writes only its result. -/
theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = B1 m ρ c (Proc.devRef .tc main_arg5) := B2_of_ne m ρ c main_arg5 (by decide)
    _ = B0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

end Cert.KernelIdeal.Attn

end
-- ==== Proof.Run2.lean ====
import proofs.«122070_j75737453297854_2_alg».proof.Proof.Run1

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One array behind three windows

The attention call reads the fused q|k|v array through three windows. The array's one full-share ownership is
dealt to them as its left half, and the two halves of its right half; at the exit the three parts, which all
still hold the entry contents, make the whole again. -/

section Shared

variable (V : (c : Dev nD) → (b : Ref sig .tc) → Buf (Elt F) ((c : Thread nD τ).loc b))

/-- The four distinct buffers behind the six windows, each whole. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v8) ↦{fullShare} W main_v8) ∗ (((c : Thread nD τ).loc main_v4) ↦{fullShare} W main_v4) ∗ (((c : Thread nD τ).loc main_v9) ↦{fullShare} W main_v9) ∗ (((c : Thread nD τ).loc main_v10) ↦{fullShare} W main_v10)) := by
  unfold Pipeline.arrBufs
  exact bigSep_eq_bigSepL_of_eq [main_v8, main_v4, main_v9, main_v10] (by decide) (by decide) _

/-- The six windows' arrays, each at its share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v8) ↦{fullShare.left} G 0) ∗ (((c : Thread nD τ).loc main_v8) ↦{fullShare.right.left} G 1) ∗ (((c : Thread nD τ).loc main_v8) ↦{fullShare.right.right} G 2)
          ∗ (((c : Thread nD τ).loc main_v4) ↦{fullShare} G 3) ∗ (((c : Thread nD τ).loc main_v9) ↦{fullShare} G 4) ∗ (((c : Thread nD τ).loc main_v10) ↦{fullShare} G 5)) := by
  unfold Dat.arrays
  rw [show (bigSep Finset.univ fun w : Fin cfg1.W => ((cfg1.win w).arr.view.loc (c.tc : Thread nD τ) ↦[(cfg1.win w).arr.view.set]{(dat1 V c).share w} G w : sProp 𝕄))
        = bigSep Finset.univ fun w : Fin cfg1.W => (((c.tc : Thread nD τ).loc (Pipeline.arrRef spec1 w)) ↦{(dat1 V c).share w} G w : sProp 𝕄)
      from bigSep_congr fun w _ => by rw [(arr_whole1 w).set_eq_univ]]
  rw [bigSep_W1]; rfl

end Shared

variable (m : (ℓ : Loc nD τ sig) → Buf (Elt F) ℓ) (ρ : Dev nD → PrngReg)

/-- The buffers no window of the attention call stages are the same before and after it. -/
theorem rest1_keep (c : Dev nD) :
    (Pipeline.unscopedRest (Ix := Unit) (Name := ℕ) (U := UR sig nD τ) (Lvl := ℕ) spec1 c (E4 m ρ c) : sProp 𝕄) = Pipeline.unscopedRest (Ix := Unit) (Name := ℕ) (U := UR sig nD τ) (Lvl := ℕ) spec1 c (E3 m ρ c) := by
  unfold Pipeline.unscopedRest
  exact bigSep_congr fun b hb => by
    have hne : b ≠ main_v10 := fun e => (Finset.mem_sdiff.mp hb).2 (e ▸ Finset.mem_image.mpr ⟨5, Finset.mem_univ _, rfl⟩)
    rw [show E4 m ρ c b = E3 m ρ c b from B4_of_ne m ρ c b hne]

/-- ENTRY of the attention call: every unscoped buffer at the entry contents gives the six windows' arrays — the
    fused array's ownership dealt in three — and the buffers no window stages. -/
theorem entry1 (c : Dev nD) :
    (StableHlo.held (c : Thread nD τ) (Pipeline.ucRefs τ sig) (B3 m ρ c) : sProp 𝕄)
      ⊢ iprop((dat1 (E3 m ρ) c).arrays ((dat1 (E3 m ρ) c).arrAt · 0) ∗ Pipeline.unscopedRest (Ix := Unit) (Name := ℕ) (U := UR sig nD τ) (Lvl := ℕ) spec1 c (E3 m ρ c)) := by
  rw [← Pipeline.unscopedBufs_held (Ix := Unit) (Name := ℕ) (U := UR sig nD τ) (Lvl := ℕ) c (B3 m ρ c),
    Pipeline.unscopedBufs_split₀ cfgs (1 : Fin 2) winFacts₀1.arr_unscoped c (E3 m ρ c)]
  show (iprop(Pipeline.arrBufs (Ix := Unit) (Name := ℕ) (U := UR sig nD τ) (Lvl := ℕ) spec1 c (E3 m ρ c) ∗ Pipeline.unscopedRest (Ix := Unit) (Name := ℕ) (U := UR sig nD τ) (Lvl := ℕ) spec1 c (E3 m ρ c)) : sProp 𝕄) ⊢ _
  rw [arrBufs1_eq, arrays1_eq]
  iintro ⟨⟨H8, H4, H9, H10⟩, Hrest⟩
  have hs1 := (pointsTo_share (Ix := Unit) (Name := ℕ) (U := UR sig nD τ) (Lvl := ℕ) (Val := Elt F) (ℓ := (c : Thread nD τ).loc main_v8) (I := Finset.univ) (f := E3 m ρ c main_v8) (PosShare.mem_left_op_right fullShare)).1
  have hs2 := (pointsTo_share (Ix := Unit) (Name := ℕ) (U := UR sig nD τ) (Lvl := ℕ) (Val := Elt F) (ℓ := (c : Thread nD τ).loc main_v8) (I := Finset.univ) (f := E3 m ρ c main_v8) (PosShare.mem_left_op_right fullShare.right)).1
  ihave H8' := hs1 $$ H8
  icases H8' with ⟨Ha, Hb⟩
  ihave Hb' := hs2 $$ Hb
  icases Hb' with ⟨Hb1, Hb2⟩
  isplitr [Hrest]
  · isplitl [Ha]; · iexact Ha
    isplitl [Hb1]; · iexact Hb1
    isplitl [Hb2]; · iexact Hb2
    isplitl [H4]; · iexact H4
    isplitl [H9]; · iexact H9
    iexact H10
  iexact Hrest

/-- EXIT of the attention call: the three parts of the fused array, still at its entry contents, make it whole
    again; the result array holds what the write-backs left; with the unstaged buffers, every unscoped buffer at the
    exit contents. -/
theorem exit1 (c : Dev nD) :
    (iprop((dat1 (E3 m ρ) c).arrays ((dat1 (E3 m ρ) c).arrAt · cfg1.N) ∗ Pipeline.unscopedRest (Ix := Unit) (Name := ℕ) (U := UR sig nD τ) (Lvl := ℕ) spec1 c (E3 m ρ c)) : sProp 𝕄)
      ⊢ StableHlo.held (c : Thread nD τ) (Pipeline.ucRefs τ sig) (B4 m ρ c) := by
  have h0 : (dat1 (E3 m ρ) c).arrAt 0 cfg1.N = E4 m ρ c main_v8 :=
    ((dat1 (E3 m ρ) c).arrAt_in 0 rfl _).trans ((A_eq1 (E3 m ρ) c 0).trans (B4_of_ne m ρ c main_v8 (by decide)).symm)
  have h1 : (dat1 (E3 m ρ) c).arrAt 1 cfg1.N = E4 m ρ c main_v8 :=
    ((dat1 (E3 m ρ) c).arrAt_in 1 rfl _).trans ((A_eq1 (E3 m ρ) c 1).trans (B4_of_ne m ρ c main_v8 (by decide)).symm)
  have h2 : (dat1 (E3 m ρ) c).arrAt 2 cfg1.N = E4 m ρ c main_v8 :=
    ((dat1 (E3 m ρ) c).arrAt_in 2 rfl _).trans ((A_eq1 (E3 m ρ) c 2).trans (B4_of_ne m ρ c main_v8 (by decide)).symm)
  have h3 : (dat1 (E3 m ρ) c).arrAt 3 cfg1.N = E4 m ρ c main_v4 :=
    ((dat1 (E3 m ρ) c).arrAt_in 3 rfl _).trans ((A_eq1 (E3 m ρ) c 3).trans (B4_of_ne m ρ c main_v4 (by decide)).symm)
  have h4 : (dat1 (E3 m ρ) c).arrAt 4 cfg1.N = E4 m ρ c main_v9 :=
    ((dat1 (E3 m ρ) c).arrAt_in 4 rfl _).trans ((A_eq1 (E3 m ρ) c 4).trans (B4_of_ne m ρ c main_v9 (by decide)).symm)
  have h5 : (dat1 (E3 m ρ) c).arrAt 5 cfg1.N = E4 m ρ c main_v10 := (B4_result m ρ c).symm
  rw [← Pipeline.unscopedBufs_held (Ix := Unit) (Name := ℕ) (U := UR sig nD τ) (Lvl := ℕ) c (B4 m ρ c),
    Pipeline.unscopedBufs_split₀ cfgs (1 : Fin 2) winFacts₀1.arr_unscoped c (E4 m ρ c)]
  show _ ⊢ (iprop(Pipeline.arrBufs (Ix := Unit) (Name := ℕ) (U := UR sig nD τ) (Lvl := ℕ) spec1 c (E4 m ρ c) ∗ Pipeline.unscopedRest (Ix := Unit) (Name := ℕ) (U := UR sig nD τ) (Lvl := ℕ) spec1 c (E4 m ρ c)) : sProp 𝕄)
  rw [arrBufs1_eq, arrays1_eq, rest1_keep]
  dsimp only
  rw [h0, h1, h2, h3, h4, h5]
  iintro ⟨⟨Ha, Hb1, Hb2, H4, H9, H10⟩, Hrest⟩
  have hj2 := (pointsTo_share (Ix := Unit) (Name := ℕ) (U := UR sig nD τ) (Lvl := ℕ) (Val := Elt F) (ℓ := (c : Thread nD τ).loc main_v8) (I := Finset.univ) (f := E4 m ρ c main_v8) (PosShare.mem_left_op_right fullShare.right)).2
  have hj1 := (pointsTo_share (Ix := Unit) (Name := ℕ) (U := UR sig nD τ) (Lvl := ℕ) (Val := Elt F) (ℓ := (c : Thread nD τ).loc main_v8) (I := Finset.univ) (f := E4 m ρ c main_v8) (PosShare.mem_left_op_right fullShare)).2
  ihave Hb := hj2 $$ [Hb1 Hb2]
  · isplitl [Hb1]; · iexact Hb1
    iexact Hb2
  ihave H8 := hj1 $$ [Ha Hb]
  · isplitl [Ha]; · iexact Ha
    iexact Hb
  isplitr [Hrest]
  · isplitl [H8]; · iexact H8
    isplitl [H4]; · iexact H4
    isplitl [H9]; · iexact H9
    iexact H10
  iexact Hrest

/-- After its last point the attention call's invariant gives the class invariant back: the scratch forgotten. -/
theorem Phi1_out (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = PhiS1 V c cfg1.N (le_refl _) from rfl, PhiA1_eq]
  exact PhiS1_any V c cfg1.N (le_refl _)

end Cert.KernelIdeal.Attn

end
-- ==== Proof.Run3.lean ====
import proofs.«122070_j75737453297854_2_alg».proof.Proof.Run2

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The program as four segments, and its run -/

/-- Neither call has a prefetched table. -/
abbrev noTables : (p : Fin 2) → (pcfgs (F := F) p).Adm := fun p => (cfgs p).toPCfg_adm
/-- Each call's proof data at the contents it is entered from. -/
def bothDats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev noVariants : Variants := Variants.none
/-- No core owes another anything: no level is assigned. -/
abbrev noPairs : GSem nD τ sig → Finset Unit := fun _ => ∅
abbrev noLevels : GSem nD τ sig → Unit → ℕ := fun _ _ => 0
/-- What rides beside the buffers through every segment: the generator register at some state, nothing owed. -/
abbrev Riding (c : Dev nD) : sProp 𝕄 := iprop((∃ r, prngReg c r) ∗ ∃ W, owes (c : Thread nD τ) (0 : CellTallies nD τ sig Unit) W)
/-- A stretch of host operations as a segment, from the contents W. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Riding

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register. -/
abbrev AtEnd (c : Dev nD) : sProp 𝕄 := iprop(StableHlo.held (c : Thread nD τ) (Pipeline.ucRefs τ sig) (B4 m ρ c) ∗ ∃ r, prngReg c r)

set_option backward.isDefEq.respectTransparency.types false in
/-- The projection call as a segment: its four distinct arrays split out of the unscoped buffers and put back. -/
def projSeg : Pipeline.RegionSeg (pcfgs (F := F)) noTables (bothDats m ρ) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noPairs noLevels 0 fun _ _ => rfl
  pre c := iprop(StableHlo.held (c : Thread nD τ) (Pipeline.ucRefs τ sig) (B1 m ρ c) ∗ Riding c)
  post c := iprop(StableHlo.held (c : Thread nD τ) (Pipeline.ucRefs τ sig) (B2 m ρ c) ∗ Riding c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (bothDats m ρ) launch0.win launch0.arr_whole c
      ((bothDats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (bothDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (bothDats m ρ) ((bothDats m ρ 0 c).share_full fun _ => rfl)
      (E1 m ρ c) (E2 m ρ c) ((bothDats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment: the fused array dealt to its three windows at entry and made whole at exit. -/
def attnSeg : Pipeline.RegionSeg (pcfgs (F := F)) noTables (bothDats m ρ) () defs₀ noVariants noPairs noLevels 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ noPairs noLevels 1 fun _ _ => rfl
  pre c := iprop(StableHlo.held (c : Thread nD τ) (Pipeline.ucRefs τ sig) (B3 m ρ c) ∗ Riding c)
  post c := iprop(AtEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (bothDats m ρ 1 c).Φ (Fin.last _) ⊢ (Pipeline.ΦA spec1 c : sProp 𝕄) from Phi1_out (E3 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m ρ c)
        isplitl [Ha]; · iexact Ha
        iexact Hrest
      iexact HY
    unfold Pipeline.Dat.owesAt Pipeline.owesWithin
    icases HO with ⟨%W, -, HO⟩; iexists W; iexact HO

/-- The program's four segments in order. -/
abbrev fourSegs : List (Pipeline.Seg (pcfgs (F := F)) noTables (bothDats m ρ) () defs₀ noVariants noPairs noLevels) :=
  [ .host (hostStretch hostOps0 hostOps0_sub ops0_fresh (B0 m ρ)),
    .region (projSeg m ρ),
    .host (hostStretch hostOps1 hostOps1_sub ops1_fresh (B2 m ρ)),
    .region (attnSeg m ρ) ]
theorem main_is_segs (c : Dev nD) : main (F := F) c = Pipeline.Seg.run (fourSegs m ρ) := (main_chain c).trans (by chain_rfl)

set_option backward.isDefEq.respectTransparency.types false in
/-- THE RUN. From any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (bothDats m ρ) () cellOf_inj emb₁ defs₀ noVariants noPairs noLevels m ρ main (fourSegs m ρ)
    (fun c Q => by rw [main_is_segs m ρ c])
    (by simp only [fourSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Riding c)) (Tₙ := AtEnd m ρ)
    (hch := ⟨fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME of the kernel program: it runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (B4_main_arg0 m ρ c),
    (h c _ (mem_uc main_arg1 (by decide))).trans (B4_main_arg1 m ρ c),
    (h c _ (mem_uc main_arg2 (by decide))).trans (B4_main_arg2 m ρ c),
    (h c _ (mem_uc main_arg3 (by decide))).trans (B4_main_arg3 m ρ c),
    (h c _ (mem_uc main_arg4 (by decide))).trans (B4_main_arg4 m ρ c),
    (h c _ (mem_uc main_arg5 (by decide))).trans (B4_main_arg5 m ρ c)⟩) (run_all m ρ)

/-- The run with the result named: the result array ends at what the attention call's write-backs leave. -/
theorem run_result : θ_run defs (onTc (τ := τ) (main (F := F))) ⟨m, fun _ => 0, ρ⟩ (fun r => ∀ c : Dev nD,
      r.2.mem ((c.tc : Thread nD τ).loc main_v10) = (dat1 (E3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v10 (by decide))).trans (B4_result m ρ c),
    (h c _ (mem_uc main_arg0 (by decide))).trans (B4_main_arg0 m ρ c),
    (h c _ (mem_uc main_arg1 (by decide))).trans (B4_main_arg1 m ρ c),
    (h c _ (mem_uc main_arg2 (by decide))).trans (B4_main_arg2 m ρ c),
    (h c _ (mem_uc main_arg3 (by decide))).trans (B4_main_arg3 m ρ c),
    (h c _ (mem_uc main_arg4 (by decide))).trans (B4_main_arg4 m ρ c),
    (h c _ (mem_uc main_arg5 (by decide))).trans (B4_main_arg5 m ρ c)⟩) (run_all m ρ)

end Cert.KernelIdeal.Attn

end
-- ==== Proof.AttnSpec.lean ====
/- The specification of dense multi-head self-attention, index by index, over the extended reals.

   Eight batches, 1024 positions, 1280 channels = 20 heads of 64 channels each. The four weight matrices are
   stored row = output channel, column = input channel, so a projection is y = x · wᵀ. Every definition is a
   plain function of the argument arrays and of literal-size coordinates; nothing here mentions a program. -/
import Idealize.ShloMosaic.PureOps.Ideal
import Idealize.ShloMosaic.Lib.ValueIdx

noncomputable section

namespace Cert.AttnSpec

open Idealize.ShloMosaic Idealize.ShloMosaic.ValueIdx
open scoped BigOperators

/-- The activations' shape: batch, position, channel. -/
abbrev SX : Shape := ⟨3, ![8, 1024, 1280]⟩
/-- A weight matrix's shape: output channel, input channel. -/
abbrev SW : Shape := ⟨2, ![1280, 1280]⟩
/-- The bias's shape. -/
abbrev SB : Shape := ⟨1, ![1280]⟩

/-- Channel `e` of head `h` among the 1280 channels: heads lie side by side, 64 channels each. -/
def col (h : Fin 20) (e : Fin 64) : Fin 1280 := ⟨h.val * 64 + e.val, by omega⟩

/-- The head a channel belongs to. -/
def headOf (c : Fin 1280) : Fin 20 := ⟨c.val / 64, by omega⟩
/-- A channel's place inside its head. -/
def laneOf (c : Fin 1280) : Fin 64 := ⟨c.val % 64, by omega⟩

theorem col_headOf_laneOf (c : Fin 1280) : col (headOf c) (laneOf c) = c :=
  Fin.ext (by show c.val / 64 * 64 + c.val % 64 = c.val; omega)
theorem headOf_col (h : Fin 20) (e : Fin 64) : headOf (col h e) = h :=
  Fin.ext (by show (h.val * 64 + e.val) / 64 = h.val; omega)
theorem laneOf_col (h : Fin 20) (e : Fin 64) : laneOf (col h e) = e :=
  Fin.ext (by show (h.val * 64 + e.val) % 64 = e.val; omega)

/-- A linear projection without bias: output channel `o` of position `s` of batch `b` is the sum over the input
    channels `c` of `x[b, s, c] · w[o, c]`. -/
def proj (x : SX.Idx → EReal) (w : SW.Idx → EReal) (b : Fin 8) (s : Fin 1024) (o : Fin 1280) : EReal :=
  ∑ c : Fin 1280, x (ix3 b s c) * w (ix2 o c)

/-- The scaled score of query position `s` against key position `s'` in head `h`: the inner product of the
    query and key projections over the head's 64 channels, times 1/8 = 64^(-1/2). -/
def score (x : SX.Idx → EReal) (wq wk : SW.Idx → EReal) (b : Fin 8) (h : Fin 20) (s s' : Fin 1024) : EReal :=
  (∑ e : Fin 64, proj x wq b s (col h e) * proj x wk b s' (col h e)) * ((1 / 8 : ℝ) : EReal)

/-- The largest score of a query row: the fold of `max` from `⊥` over the 1024 key positions. -/
def rowMax (x : SX.Idx → EReal) (wq wk : SW.Idx → EReal) (b : Fin 8) (h : Fin 20) (s : Fin 1024) : EReal :=
  (Finset.univ : Finset (Fin 1024)).fold max ⊥ (fun s' => score x wq wk b h s s')

/-- The same maximum as a supremum over the key positions (on a linear order the two folds are one). -/
theorem rowMax_eq_sup (x : SX.Idx → EReal) (wq wk : SW.Idx → EReal) (b : Fin 8) (h : Fin 20) (s : Fin 1024) :
    rowMax x wq wk b h s = (Finset.univ : Finset (Fin 1024)).sup (fun s' => score x wq wk b h s s') := rfl

/-- Every score of a row is at most the row's maximum. -/
theorem score_le_rowMax (x : SX.Idx → EReal) (wq wk : SW.Idx → EReal) (b : Fin 8) (h : Fin 20) (s s' : Fin 1024) :
    score x wq wk b h s s' ≤ rowMax x wq wk b h s :=
  Finset.le_sup (f := fun s' => score x wq wk b h s s') (Finset.mem_univ s')

/-- The exponential of a score shifted by its row's maximum. -/
def expo (x : SX.Idx → EReal) (wq wk : SW.Idx → EReal) (b : Fin 8) (h : Fin 20) (s s' : Fin 1024) : EReal :=
  Ideal.exp (score x wq wk b h s s' - rowMax x wq wk b h s)

/-- The softmax denominator of a query row. -/
def den (x : SX.Idx → EReal) (wq wk : SW.Idx → EReal) (b : Fin 8) (h : Fin 20) (s : Fin 1024) : EReal :=
  ∑ s' : Fin 1024, expo x wq wk b h s s'

/-- The attention probability of key position `s'` for query position `s`. -/
def p (x : SX.Idx → EReal) (wq wk : SW.Idx → EReal) (b : Fin 8) (h : Fin 20) (s s' : Fin 1024) : EReal :=
  Ideal.div (expo x wq wk b h s s') (den x wq wk b h s)

/-- The attended value: channel `e` of head `h` at position `s` is the probability-weighted sum of the value
    projections over the key positions. -/
def attn (x : SX.Idx → EReal) (wq wk wv : SW.Idx → EReal) (b : Fin 8) (s : Fin 1024) (h : Fin 20) (e : Fin 64) : EReal :=
  ∑ s' : Fin 1024, p x wq wk b h s s' * proj x wv b s' (col h e)

/-- The attended values with the heads laid side by side again: channel `c` is lane `c % 64` of head `c / 64`. -/
def attn' (x : SX.Idx → EReal) (wq wk wv : SW.Idx → EReal) (b : Fin 8) (s : Fin 1024) (c : Fin 1280) : EReal :=
  attn x wq wk wv b s (headOf c) (laneOf c)

/-- The output projection with its bias. -/
def out (x : SX.Idx → EReal) (wq wk wv wo : SW.Idx → EReal) (bo : SB.Idx → EReal)
    (b : Fin 8) (s : Fin 1024) (o : Fin 1280) : EReal :=
  (∑ c : Fin 1280, attn' x wq wk wv b s c * wo (ix2 o c)) + bo (ix1 o)

/-- THE SPECIFICATION: the whole result array as one function of the six argument arrays. -/
def G (x : SX.Idx → EReal) (wq wk wv wo : SW.Idx → EReal) (bo : SB.Idx → EReal) : SX.Idx → EReal :=
  fun j => out x wq wk wv wo bo (j 0) (j 1) (j 2)

theorem G_ix3 (x : SX.Idx → EReal) (wq wk wv wo : SW.Idx → EReal) (bo : SB.Idx → EReal)
    (b : Fin 8) (s : Fin 1024) (o : Fin 1280) :
    G x wq wk wv wo bo (ix3 b s o) = out x wq wk wv wo bo b s o := rfl

/-! ## The float words the two programs spell, as the reals they denote -/

/-- `64.0` denotes the real 64. -/
theorem ofBits_64 : Ideal.ofBits .f32 0x42800000#32 = ((64 : ℝ) : EReal) := by
  simp [Ideal.ofBits, Ideal.ieee, -EReal.coe_mul]; norm_num

/-- `-0.5` denotes the real -1/2. -/
theorem ofBits_neg_half : Ideal.ofBits .f32 0xBF000000#32 = ((-1 / 2 : ℝ) : EReal) := by
  simp [Ideal.ofBits, Ideal.ieee, -EReal.coe_mul]; norm_num

/-- `0.125` denotes the real 1/8. -/
theorem ofBits_eighth : Ideal.ofBits .f32 0x3E000000#32 = ((1 / 8 : ℝ) : EReal) := by
  simp [Ideal.ofBits, Ideal.ieee, -EReal.coe_mul]; norm_num

/-- The pattern of negative infinity denotes `⊥`. -/
theorem ofBits_neg_inf : Ideal.ofBits .f32 0xFF800000#32 = ⊥ := by
  simp [Ideal.ofBits, Ideal.ieee]

/-- `+0.0` denotes 0. -/
theorem ofBits_zero : Ideal.ofBits .f32 0x00000000#32 = 0 := by
  simp [Ideal.ofBits, Ideal.ieee]

/-- 64 to the power -1/2 is 1/8, in the reals. -/
theorem rpow_64_neg_half : Real.rpow 64 (-1 / 2) = 1 / 8 := by
  rw [show (64 : ℝ) = 2 ^ (6 : ℝ) by norm_num, Real.rpow_eq_pow, ← Real.rpow_mul (by norm_num)]
  norm_num

/-- 64 to the power -1/2 is 1/8, as the ideal power of two reals. -/
theorem pow_64_neg_half : Ideal.pow ((64 : ℝ) : EReal) ((-1 / 2 : ℝ) : EReal) = ((1 / 8 : ℝ) : EReal) := by
  rw [Ideal.pow_coe_coe, rpow_64_neg_half]

/-- The reference's scale, as its program spells it: the power of the two words. -/
theorem pow_words : Ideal.pow (Ideal.ofBits .f32 0x42800000#32) (Ideal.ofBits .f32 0xBF000000#32) = ((1 / 8 : ℝ) : EReal) := by
  rw [ofBits_64, ofBits_neg_half, pow_64_neg_half]

end Cert.AttnSpec

end
-- ==== Proof.RefIsSpec1.lean ====
import proofs.«122070_j75737453297854_2_alg».proof.Proof.Gen.ReferenceIdeal.Read
import proofs.«122070_j75737453297854_2_alg».proof.Proof.AttnSpec

noncomputable section

namespace Cert.ReferenceIdeal.RefValue

open Cert.ReferenceIdeal Cert.ReferenceIdeal.Gen Cert.ReferenceIdeal.Read
open Idealize.ShloMosaic Idealize.ShloMosaic.ValueIdx Cert.AttnSpec
open scoped BigOperators

/-- The activations' type, as the read-back lemmas spell it. -/
abbrev XT : Type := (⟨S8x1024x1280, .f32⟩ : BufTy).Contents (Elt Ideal)
/-- A weight matrix's type. -/
abbrev WT : Type := (⟨S1280x1280, .f32⟩ : BufTy).Contents (Elt Ideal)
/-- The bias's type. -/
abbrev BT : Type := (⟨S1280, .f32⟩ : BufTy).Contents (Elt Ideal)

/-! # The reference's three projections at an index

Each of the query, key and value arrays is a matrix product `x · wᵀ`, split into 20 heads of 64 channels and
with the head axis moved in front of the position axis. Read at `(b, h, s, e)` it is the projection of
position `s` of batch `b` at channel `h · 64 + e`. -/

/-- The row-major position of `(b, s, h, e)` in `[8, 1024, 20, 64]` is that of `(b, s, h · 64 + e)` in
    `[8, 1024, 1280]`. -/
theorem split_heads_idx (b : Fin 8) (s : Fin 1024) (h : Fin 20) (e : Fin 64) :
    idx_main_v4 (ix4 b s h e) = ix3 b s (col h e) := by
  have hb := b.isLt; have hs := s.isLt; have hh := h.isLt; have he := e.isLt
  funext a; apply Fin.ext
  match a with
  | ⟨0, _⟩ => show (((b.val * 1024 + s.val) * 20 + h.val) * 64 + e.val) / 1310720 = b.val; omega
  | ⟨1, _⟩ => show (((b.val * 1024 + s.val) * 20 + h.val) * 64 + e.val) / 1280 % 1024 = s.val; omega
  | ⟨2, _⟩ => show (((b.val * 1024 + s.val) * 20 + h.val) * 64 + e.val) % 1280 = h.val * 64 + e.val; omega

/-- Swapping the position and head axes. -/
theorem swap_idx (b : Fin 8) (h : Fin 20) (s : Fin 1024) (e : Fin 64) :
    idx_main_v5 (ix4 b h s e) = ix4 b s h e := by
  funext a; match a with | ⟨0, _⟩ => rfl | ⟨1, _⟩ => rfl | ⟨2, _⟩ => rfl | ⟨3, _⟩ => rfl

theorem lidx_v1 (b : Fin 8) (s : Fin 1024) (o k : Fin 1280) : lidx_main_v1 (ix3 b s o) k = ix3 b s k := by
  funext a; match a with | ⟨0, _⟩ => rfl | ⟨1, _⟩ => rfl | ⟨2, _⟩ => rfl
theorem ridx_v1 (b : Fin 8) (s : Fin 1024) (o k : Fin 1280) : ridx_main_v1 (ix3 b s o) k = ix2 o k := by
  funext a; match a with | ⟨0, _⟩ => rfl | ⟨1, _⟩ => rfl

/-- The first matrix product at `(b, s, o)` is the projection. -/
theorem dot_q_at (x0 : XT) (x1 : WT) (b : Fin 8) (s : Fin 1024) (o : Fin 1280) :
    val_main_v1 (F := Ideal) x0 x1 (ix3 b s o) = proj x0 x1 b s o := by
  rw [val_main_v1_apply]
  unfold proj
  refine Finset.sum_congr rfl fun k _ => ?_
  rw [lidx_v1, ridx_v1]

/-- The second matrix product is the same operation on the key weights. -/
theorem dot_k_at (x0 : XT) (x2 : WT) (b : Fin 8) (s : Fin 1024) (o : Fin 1280) :
    val_main_v2 (F := Ideal) x0 x2 (ix3 b s o) = proj x0 x2 b s o := dot_q_at x0 x2 b s o

/-- The third, on the value weights. -/
theorem dot_v_at (x0 : XT) (x3 : WT) (b : Fin 8) (s : Fin 1024) (o : Fin 1280) :
    val_main_v3 (F := Ideal) x0 x3 (ix3 b s o) = proj x0 x3 b s o := dot_q_at x0 x3 b s o

/-- The queries at `(b, h, s, e)`. -/
theorem q_at (x0 : XT) (x1 : WT) (b : Fin 8) (h : Fin 20) (s : Fin 1024) (e : Fin 64) :
    val_main_v5 (F := Ideal) x0 x1 (ix4 b h s e) = proj x0 x1 b s (col h e) := by
  rw [val_main_v5_apply, swap_idx, val_main_v4_apply, split_heads_idx, dot_q_at]

/-- The keys at `(b, h, s, e)`. -/
theorem k_at (x0 : XT) (x2 : WT) (b : Fin 8) (h : Fin 20) (s : Fin 1024) (e : Fin 64) :
    val_main_v7 (F := Ideal) x0 x2 (ix4 b h s e) = proj x0 x2 b s (col h e) := by
  rw [val_main_v7_apply, show idx_main_v7 (ix4 b h s e) = ix4 b s h e from swap_idx b h s e, val_main_v6_apply,
    show idx_main_v6 (ix4 b s h e) = ix3 b s (col h e) from split_heads_idx b s h e, dot_k_at]

/-- The values at `(b, h, s, e)`. -/
theorem v_at (x0 : XT) (x3 : WT) (b : Fin 8) (h : Fin 20) (s : Fin 1024) (e : Fin 64) :
    val_main_v9 (F := Ideal) x0 x3 (ix4 b h s e) = proj x0 x3 b s (col h e) := by
  rw [val_main_v9_apply, show idx_main_v9 (ix4 b h s e) = ix4 b s h e from swap_idx b h s e, val_main_v8_apply,
    show idx_main_v8 (ix4 b s h e) = ix3 b s (col h e) from split_heads_idx b s h e, dot_v_at]

end Cert.ReferenceIdeal.RefValue

end
-- ==== Proof.LibRowMax4.lean ====
import Idealize.ShloMosaic.Lib.ValueIdx
import Idealize.ShloMosaic.PureOps.Ideal.Laws

/-!
  A MAXIMUM OVER THE LAST AXIS OF A RANK-4 ARRAY AS A FOLD.

  The host's reduction with a maximum body over the LAST axis of `x : [A, B, C, J]` is, at the ideal values and
  at `(a, b, r)`, the fold of `max` from the initial value over the entries `x (a, b, r, c')`, `c' < J`.  The
  maximum is commutative and associative, so the order in which the host visits the axis does not matter.
-/

open Idealize.ShloMosaic Idealize.ShloMosaic.ValueIdx

namespace RowMax4

variable {A B C J : Nat}

/-- Dropping the last axis of `[A, B, C, J]` leaves `[A, B, C]`, a shape with an axis: the host's shape fact gives
    the vector reduction's. -/
theorem reduces_of_reducesTo (h' : (⟨4, ![A, B, C, J]⟩ : Shape).ReducesTo [3] (⟨3, ![A, B, C]⟩ : Shape)) :
    (⟨4, ![A, B, C, J]⟩ : Shape).Reduces [3] (⟨3, ![A, B, C]⟩ : Shape) :=
  ⟨h'.1, Nat.succ_pos 2, h'.2⟩

/-- `(a, b, r)` with the last coordinate `k` put back is `(a, b, r, k)`. -/
theorem lift_ix4 (h : (⟨4, ![A, B, C, J]⟩ : Shape).Reduces [3] (⟨3, ![A, B, C]⟩ : Shape)) (a : Fin A) (b : Fin B) (r : Fin C)
    (k : Fin ((⟨4, ![A, B, C, J]⟩ : Shape).size 3)) :
    h.lift (ix3 a b r) k = ix4 a b r (⟨k.val, k.isLt⟩ : Fin J) := by
  funext c; apply Fin.ext
  fin_cases c <;> rfl

/-- THE MAXIMUM AT `(a, b, r)`: the fold of `max` from the initial value's element over the last axis. -/
theorem hostReduce_maximumf_last {φ : FTy} {u : Shape} (x : FVec Ideal ⟨4, ![A, B, C, J]⟩ φ) (init : u.Idx → Ideal φ)
    (h' : (⟨4, ![A, B, C, J]⟩ : Shape).ReducesTo [3] (⟨3, ![A, B, C]⟩ : Shape)) (hu : 0 < u.numel)
    (a : Fin A) (b : Fin B) (r : Fin C) :
    Host.reduce FloatOps.maximumf x init h' hu (ix3 a b r)
      = (Finset.univ : Finset (Fin J)).fold max (init (Shape.Idx.first hu)) (fun c' => x (ix4 a b r c')) := by
  have h := reduces_of_reducesTo h'
  rw [Host.reduce_eq_fold_single FloatOps.maximumf x init h' h hu]
  have hf : (x ∘ h.lift (ix3 a b r)) = fun c' : Fin J => x (ix4 a b r c') :=
    funext fun k => congrArg x (lift_ix4 h a b r k)
  exact congrArg (fun f => Finset.fold max (init (Shape.Idx.first hu)) f (Finset.univ : Finset (Fin J))) hf

end RowMax4
-- ==== Proof.RefIsSpec2.lean ====
import proofs.«122070_j75737453297854_2_alg».proof.Proof.RefIsSpec1
import proofs.«122070_j75737453297854_2_alg».proof.Proof.LibRowMax4

noncomputable section

namespace Cert.ReferenceIdeal.RefValue

open Cert.ReferenceIdeal Cert.ReferenceIdeal.Gen Cert.ReferenceIdeal.Read
open Idealize.ShloMosaic Idealize.ShloMosaic.ValueIdx Cert.AttnSpec
open scoped BigOperators

/-! # The reference's softmax row at an index

The scaled scores, the row maximum, the shifted exponentials, their sum and the probabilities, each read at an
index built from literal-size coordinates. The reference folds its maximum from `-∞` and then takes one more
maximum with `-∞`, and starts its sum from `0`: on the extended reals `max ⊥ y = y` and `0 + y = y`, so the
plain fold and the plain sum remain. -/

theorem lidx_v10 (b : Fin 8) (h : Fin 20) (s s' : Fin 1024) (k : Fin 64) :
    lidx_main_v10 (ix4 b h s s') k = ix4 b h s k := by
  funext a; match a with | ⟨0, _⟩ => rfl | ⟨1, _⟩ => rfl | ⟨2, _⟩ => rfl | ⟨3, _⟩ => rfl
theorem ridx_v10 (b : Fin 8) (h : Fin 20) (s s' : Fin 1024) (k : Fin 64) :
    ridx_main_v10 (ix4 b h s s') k = ix4 b h s' k := by
  funext a; match a with | ⟨0, _⟩ => rfl | ⟨1, _⟩ => rfl | ⟨2, _⟩ => rfl | ⟨3, _⟩ => rfl

/-- The scale the reference multiplies by, `64 ^ (-1/2)`, is `1/8` at every index. -/
theorem scale_at (i : S8x20x1024x1024.Idx) : val_main_v11 (F := Ideal) i = ((1 / 8 : ℝ) : EReal) := by
  rw [val_main_v11_apply, val_main_v0_apply, val_main_cst_apply, val_main_cst_0_apply, Ideal.hostPowf_def,
    Ideal.ofBits_def, Ideal.ofBits_def, pow_words]

/-- The scaled score at `(b, h, s, s')`. -/
theorem score_at (x0 : XT) (x1 x2 : WT) (b : Fin 8) (h : Fin 20) (s s' : Fin 1024) :
    val_main_v12 (F := Ideal) x0 x1 x2 (ix4 b h s s') = score x0 x1 x2 b h s s' := by
  rw [val_main_v12_apply, Ideal.mulf_def, scale_at, val_main_v10_apply]
  unfold score
  congr 1
  refine Finset.sum_congr rfl fun k _ => ?_
  rw [lidx_v10, ridx_v10, q_at, k_at]

/-- The row maximum at `(b, h, s)`: the fold of `max` from `⊥` over the key positions. -/
theorem rowMax_at (x0 : XT) (x1 x2 : WT) (b : Fin 8) (h : Fin 20) (s : Fin 1024) :
    val_main_v15 (F := Ideal) x0 x1 x2 (ix3 b h s) = rowMax x0 x1 x2 b h s := by
  rw [val_main_v15_apply, Ideal.maximumf_def, val_main_v14_apply, val_main_cst_2_apply, Ideal.ofBits_def,
    ofBits_neg_inf, max_eq_right bot_le]
  unfold val_main_v13
  refine (RowMax4.hostReduce_maximumf_last (φ := .f32) (val_main_v12 (F := Ideal) x0 x1 x2)
    (val_main_cst_1 (F := Ideal)) reducesTo_S8x20x1024x1024_S8x20x1024_d3 h_S_ b h s).trans ?_
  rw [val_main_cst_1_apply, Ideal.ofBits_def, ofBits_neg_inf]
  unfold rowMax
  exact congrArg (fun f => Finset.fold max (⊥ : EReal) f (Finset.univ : Finset (Fin 1024)))
    (funext fun s' => score_at x0 x1 x2 b h s s')

theorem keepdims_idx (b : Fin 8) (h : Fin 20) (s s' : Fin 1024) :
    idx_main_v16 (idx_main_v17 (ix4 b h s s')) = ix3 b h s := by
  funext a; match a with | ⟨0, _⟩ => rfl | ⟨1, _⟩ => rfl | ⟨2, _⟩ => rfl

/-- The row maximum spread back over the key axis. -/
theorem rowMax_bcast_at (x0 : XT) (x1 x2 : WT) (b : Fin 8) (h : Fin 20) (s s' : Fin 1024) :
    val_main_v17 (F := Ideal) x0 x1 x2 (ix4 b h s s') = rowMax x0 x1 x2 b h s := by
  rw [val_main_v17_apply, val_main_v16_apply, keepdims_idx, rowMax_at]

/-- The shifted exponential at `(b, h, s, s')`. -/
theorem expo_at (x0 : XT) (x1 x2 : WT) (b : Fin 8) (h : Fin 20) (s s' : Fin 1024) :
    val_main_v19 (F := Ideal) x0 x1 x2 (ix4 b h s s') = expo x0 x1 x2 b h s s' := by
  rw [val_main_v19_apply, Ideal.hostUnary_exp_def, val_main_v18_apply, Ideal.subf_def, score_at, rowMax_bcast_at]
  rfl

theorem sum_idx (b : Fin 8) (h : Fin 20) (s k : Fin 1024) : idx_main_v20 (ix3 b h s) k = ix4 b h s k := by
  funext a; match a with | ⟨0, _⟩ => rfl | ⟨1, _⟩ => rfl | ⟨2, _⟩ => rfl | ⟨3, _⟩ => rfl

/-- The softmax denominator at `(b, h, s)`. -/
theorem den_at (x0 : XT) (x1 x2 : WT) (b : Fin 8) (h : Fin 20) (s : Fin 1024) :
    val_main_v20 (F := Ideal) x0 x1 x2 (ix3 b h s) = den x0 x1 x2 b h s := by
  rw [val_main_v20_apply, val_main_cst_3_apply, Ideal.ofBits_def, ofBits_zero, zero_add]
  unfold den
  refine Finset.sum_congr rfl fun k _ => ?_
  rw [sum_idx, expo_at]

theorem keepdims_idx' (b : Fin 8) (h : Fin 20) (s s' : Fin 1024) :
    idx_main_v21 (idx_main_v22 (ix4 b h s s')) = ix3 b h s := by
  funext a; match a with | ⟨0, _⟩ => rfl | ⟨1, _⟩ => rfl | ⟨2, _⟩ => rfl

/-- The probability at `(b, h, s, s')`. -/
theorem p_at (x0 : XT) (x1 x2 : WT) (b : Fin 8) (h : Fin 20) (s s' : Fin 1024) :
    val_main_v23 (F := Ideal) x0 x1 x2 (ix4 b h s s') = p x0 x1 x2 b h s s' := by
  rw [val_main_v23_apply, Ideal.hostDivf_def, expo_at, val_main_v22_apply, val_main_v21_apply, keepdims_idx', den_at]
  rfl

end Cert.ReferenceIdeal.RefValue

end
-- ==== Proof.RefIsSpec.lean ====
import proofs.«122070_j75737453297854_2_alg».proof.Proof.RefIsSpec2

noncomputable section

namespace Cert.ReferenceIdeal.RefValue

open Cert.ReferenceIdeal Cert.ReferenceIdeal.Gen Cert.ReferenceIdeal.Read
open Idealize.ShloMosaic Idealize.ShloMosaic.ValueIdx Cert.AttnSpec
open scoped BigOperators

/-! # The reference is the specification

The probability-weighted sum of the values per head, the heads laid side by side again, the output projection
with its bias; and then the whole result array, index by index, as the specification's function of the six
arguments. -/

theorem lidx_v24 (b : Fin 8) (h : Fin 20) (s : Fin 1024) (e : Fin 64) (k : Fin 1024) :
    lidx_main_v24 (ix4 b h s e) k = ix4 b h s k := by
  funext a; match a with | ⟨0, _⟩ => rfl | ⟨1, _⟩ => rfl | ⟨2, _⟩ => rfl | ⟨3, _⟩ => rfl
theorem ridx_v24 (b : Fin 8) (h : Fin 20) (s : Fin 1024) (e : Fin 64) (k : Fin 1024) :
    ridx_main_v24 (ix4 b h s e) k = ix4 b h k e := by
  funext a; match a with | ⟨0, _⟩ => rfl | ⟨1, _⟩ => rfl | ⟨2, _⟩ => rfl | ⟨3, _⟩ => rfl

/-- The attended value at `(b, h, s, e)`. -/
theorem attn_at (x0 : XT) (x1 x2 x3 : WT) (b : Fin 8) (h : Fin 20) (s : Fin 1024) (e : Fin 64) :
    val_main_v24 (F := Ideal) x0 x1 x2 x3 (ix4 b h s e) = attn x0 x1 x2 x3 b s h e := by
  rw [val_main_v24_apply]
  unfold attn
  refine Finset.sum_congr rfl fun k _ => ?_
  rw [lidx_v24, ridx_v24, p_at, v_at]

/-- The row-major position of `(b, s, c)` in `[8, 1024, 1280]` is that of `(b, s, c / 64, c % 64)` in
    `[8, 1024, 20, 64]`; with the head axis moved back in front of the position axis. -/
theorem merge_heads_idx (b : Fin 8) (s : Fin 1024) (c : Fin 1280) :
    idx_main_v25 (idx_main_v26 (ix3 b s c)) = ix4 b (headOf c) s (laneOf c) := by
  have hb := b.isLt; have hs := s.isLt; have hc := c.isLt
  funext a; apply Fin.ext
  match a with
  | ⟨0, _⟩ => show ((b.val * 1024 + s.val) * 1280 + c.val) / 1310720 = b.val; omega
  | ⟨1, _⟩ => show ((b.val * 1024 + s.val) * 1280 + c.val) / 64 % 20 = c.val / 64; omega
  | ⟨2, _⟩ => show ((b.val * 1024 + s.val) * 1280 + c.val) / 1280 % 1024 = s.val; omega
  | ⟨3, _⟩ => show ((b.val * 1024 + s.val) * 1280 + c.val) % 64 = c.val % 64; omega

/-- The attended values with the heads side by side, at `(b, s, c)`. -/
theorem attn'_at (x0 : XT) (x1 x2 x3 : WT) (b : Fin 8) (s : Fin 1024) (c : Fin 1280) :
    val_main_v26 (F := Ideal) x0 x1 x2 x3 (ix3 b s c) = attn' x0 x1 x2 x3 b s c := by
  rw [val_main_v26_apply, val_main_v25_apply, merge_heads_idx, attn_at]
  rfl

theorem lidx_v27 (b : Fin 8) (s : Fin 1024) (o k : Fin 1280) : lidx_main_v27 (ix3 b s o) k = ix3 b s k := by
  funext a; match a with | ⟨0, _⟩ => rfl | ⟨1, _⟩ => rfl | ⟨2, _⟩ => rfl
theorem ridx_v27 (b : Fin 8) (s : Fin 1024) (o k : Fin 1280) : ridx_main_v27 (ix3 b s o) k = ix2 o k := by
  funext a; match a with | ⟨0, _⟩ => rfl | ⟨1, _⟩ => rfl
theorem bias_idx (b : Fin 8) (s : Fin 1024) (o : Fin 1280) :
    idx_main_v28 (idx_main_v29 (ix3 b s o)) = ix1 o := by
  funext a; match a with | ⟨0, _⟩ => rfl

/-- The result at `(b, s, o)`. -/
theorem out_at (x0 : XT) (x1 x2 x3 x4 : WT) (x5 : BT) (b : Fin 8) (s : Fin 1024) (o : Fin 1280) :
    val_main_v30 (F := Ideal) x0 x1 x2 x3 x4 x5 (ix3 b s o) = out x0 x1 x2 x3 x4 x5 b s o := by
  rw [val_main_v30_apply, Ideal.addf_def, val_main_v27_apply, val_main_v29_apply, val_main_v28_apply, bias_idx]
  unfold out
  congr 1
  refine Finset.sum_congr rfl fun k _ => ?_
  rw [lidx_v27, ridx_v27, attn'_at]

/-- The reference's last stage is the specification, as functions of the six arguments. -/
theorem val_is_spec (x0 : XT) (x1 x2 x3 x4 : WT) (x5 : BT) :
    val_main_v30 (F := Ideal) x0 x1 x2 x3 x4 x5 = G x0 x1 x2 x3 x4 x5 := by
  funext j
  obtain ⟨b, s, o, rfl⟩ : ∃ (b : Fin 8) (s : Fin 1024) (o : Fin 1280), j = ix3 b s o := ⟨j 0, j 1, j 2, eq_ix3 j⟩
  rw [G_ix3]
  exact out_at x0 x1 x2 x3 x4 x5 b s o

/-- THE REFERENCE IS THE SPECIFICATION: the reference run's result is `G` of the launch contents of its six
    arguments. -/
theorem ref_is_spec (m : (ℓ : Loc nD τ sig) → Buf (Elt Ideal) ℓ) (c : Dev nD) :
    Cert.ReferenceIdeal.Value.res_main_v30 (F := Ideal) m c
      = Cert.AttnSpec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v30_eq m c).trans (val_is_spec _ _ _ _ _ _)

end Cert.ReferenceIdeal.RefValue

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.Region0Value.lean ====
import proofs.«122070_j75737453297854_2_alg».proof.Proof.Region0
import proofs.«122070_j75737453297854_2_alg».proof.Proof.LibDotRowsT
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! # What the projection's region leaves in its result array

At the ideal values the body's one store is, entry by entry, the row of `x` against the row of the stacked
weights plus the bias entry: `(x · Wᵀ + bias) (r, n) = ∑ k, x (r, k) · W (n, k) + bias (0, n)` (a change of float
format is the identity). Point `t` of the grid reads rows `1024·t …` of `x`, all of `W` and of the bias, and
writes rows `1024·t …` of the result; the eight blocks tile the result's 8192 rows, so the array ends holding that
one function of the three arrays as the region found them. -/

/-! ## The product's dimension numbers: both operands are contracted on their second axis -/

theorem projDot_lhs_row (j : S1024x3840.Idx) (q : dot_S1024x1280_S3840x1280_S1024x3840_1_1_0_0_n_n.contr.Idx) :
    (dot_S1024x1280_S3840x1280_S1024x3840_1_1_0_0_n_n.lhsIdx j q 0).val = (j 0).val := by
  unfold DotDims.lhsIdx
  rw [dif_neg (show ¬(0 : Fin S1024x1280.rank) ∈ dot_S1024x1280_S3840x1280_S1024x3840_1_1_0_0_n_n.lhsBatch by decide), dif_pos (show (0 : Fin S1024x1280.rank) ∈ dot_S1024x1280_S3840x1280_S1024x3840_1_1_0_0_n_n.lhsNonContracting by decide)]
  rfl
theorem projDot_lhs_k (j : S1024x3840.Idx) (q : dot_S1024x1280_S3840x1280_S1024x3840_1_1_0_0_n_n.contr.Idx) :
    (dot_S1024x1280_S3840x1280_S1024x3840_1_1_0_0_n_n.lhsIdx j q 1).val = (q ⟨0, by decide⟩).val :=
  dot_S1024x1280_S3840x1280_S1024x3840_1_1_0_0_n_n.lhsIdx_val_of_single rfl j q
theorem projDot_rhs_row (j : S1024x3840.Idx) (q : dot_S1024x1280_S3840x1280_S1024x3840_1_1_0_0_n_n.contr.Idx) :
    (dot_S1024x1280_S3840x1280_S1024x3840_1_1_0_0_n_n.rhsIdx j q 0).val = (j 1).val := by
  unfold DotDims.rhsIdx
  rw [dif_neg (show ¬(0 : Fin S3840x1280.rank) ∈ dot_S1024x1280_S3840x1280_S1024x3840_1_1_0_0_n_n.rhsBatch by decide), dif_pos (show (0 : Fin S3840x1280.rank) ∈ dot_S1024x1280_S3840x1280_S1024x3840_1_1_0_0_n_n.rhsNonContracting by decide)]
  rfl
theorem projDot_rhs_k (j : S1024x3840.Idx) (q : dot_S1024x1280_S3840x1280_S1024x3840_1_1_0_0_n_n.contr.Idx) :
    (dot_S1024x1280_S3840x1280_S1024x3840_1_1_0_0_n_n.rhsIdx j q 1).val = (q ⟨0, by decide⟩).val :=
  dot_S1024x1280_S3840x1280_S1024x3840_1_1_0_0_n_n.rhsIdx_val_of_single rfl j q

/-! ## The body's payload at an entry -/

/-- Entry `(r, n)` of the stored block: row `r` of the `x` block against row `n` of the weights, plus the bias at `n`. -/
theorem proj_apply (x : FVec Ideal S1024x1280 .bf16) (w : FVec Ideal S3840x1280 .bf16) (b : FVec Ideal S1x3840 .f32)
    (r : Fin 1024) (n : Fin 3840) :
    k0_pay1 x w b (ix2 r n) = (∑ k : Fin 1280, x (ix2 r k) * w (ix2 n k)) + b (ix2 (0 : Fin 1) n) := by
  unfold k0_pay1
  rw [truncf_apply, addf_apply, shapeCast_self, shapeCast_self, shapeCast_self, broadcastTo_1b_ab_apply]
  exact congrArg (· + b (ix2 (0 : Fin 1) n))
    (matmul_zero_rowsT dot_S1024x1280_S3840x1280_S1024x3840_1_1_0_0_n_n none rfl rfl projDot_lhs_row projDot_lhs_k projDot_rhs_row projDot_rhs_k x w r n)

/-! ## From the blocks to the array -/

theorem zeroOffsets : (![0, 0] : Fin 2 → Nat) = fun _ => 0 := funext fun a => by fin_cases a <;> rfl

/-- The projection as ONE function of the three arrays, entry by entry. -/
def qkvOf (X : FVec Ideal S8192x1280 .bf16) (W : FVec Ideal S3840x1280 .bf16) (B : FVec Ideal S1x3840 .f32) :
    FVec Ideal S8192x3840 .bf16 :=
  fun j => (∑ k : Fin 1280, X (ix2 (j 0) k) * W (ix2 (j 1) k)) + B (ix2 (0 : Fin 1) (j 1))

/-- The block the body leaves, at a local entry `y`, is the projection of the arrays at the entry `j` of the result
    that lies `o` rows further down — when the `x` block is the rows of `X` from `o` on, and the other two blocks are
    the whole arrays. -/
theorem qkvBlock_apply (X : FVec Ideal S8192x1280 .bf16) (W : FVec Ideal S3840x1280 .bf16) (B : FVec Ideal S1x3840 .f32)
    (x : Vec Ideal S1024x1280 .bf16) (w : Vec Ideal S3840x1280 .bf16) (b : Vec Ideal S1x3840 .f32) (o : ℕ)
    (hx : ∀ (z : S1024x1280.Idx) (i : S8192x1280.Idx), (i 0).val = o + (z 0).val → (i 1).val = (z 1).val → x z = X i)
    (hw : w = W) (hb : b = B)
    (y : S1024x3840.Idx) (j : S8192x3840.Idx) (h0 : (j 0).val = o + (y 0).val) (h1 : (j 1).val = (y 1).val) :
    qkvBlock x w b y = qkvOf X W B j := by
  subst hw hb
  unfold qkvBlock qkvOf
  rw [View.canon_unit_zero zeroOffsets]
  simp only [View.ld_unit_zero (S := S1024x1280) zeroOffsets, View.ld_unit_zero (S := S3840x1280) zeroOffsets,
    View.ld_unit_zero (S := S1x3840) zeroOffsets]
  obtain ⟨r, n, rfl⟩ : ∃ (r : Fin 1024) (n : Fin 3840), y = ix2 r n := ⟨y 0, y 1, eq_ix2 y⟩
  obtain ⟨R, N, rfl⟩ : ∃ (R : Fin 8192) (N : Fin 3840), j = ix2 R N := ⟨j 0, j 1, eq_ix2 j⟩
  obtain rfl : N = n := Fin.ext h1
  rw [proj_apply]
  show (∑ k : Fin 1280, x (ix2 r k) * w (ix2 N k)) + b (ix2 (0 : Fin 1) N)
    = (∑ k : Fin 1280, X (ix2 R k) * w (ix2 N k)) + b (ix2 (0 : Fin 1) N)
  congr 1
  refine Finset.sum_congr rfl fun k _ => ?_
  rw [hx (ix2 r k) (ix2 R k) h0 rfl]

/-- The printed index maps, decided once over the grid: the `x` window and the result window are on row block `t` at
    point `t`; the weights' and the bias's windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the projection of the three arrays as the region finds them. -/
theorem qkv_flushed (c : Dev nD) (t : Fin cfg0.N) :
    (dat0 (F := Ideal) V c).flushed 3 t
      = ((cfg0.win 3).blk t).view.read (Elt Ideal) (qkvOf (V c main_v1) (V c main_v3) (V c main_v6)) := by
  show (cfg0.win 3).cut (grid0.coords t) ((dat0 V c).after 3 t) = _
  rw [after0_3]
  obtain ⟨e00, e01, e10, e11, e20, e21, e30, e31⟩ := idx_facts t
  funext y
  show qkvBlock (blk0 V c 0 t) (blk0 V c 1 t) (blk0 V c 2 t) y
    = qkvOf (V c main_v1) (V c main_v3) (V c main_v6) (((cfg0.win 3).blk t).view.emb y)
  refine qkvBlock_apply _ _ _ _ _ _ (t.val * 1024) ?_ ?_ ?_ y _ ?_ ?_
  · intro z i hi0 hi1
    show V c main_v1 (((cfg0.win 0).blk t).view.emb z) = V c main_v1 i
    congr 1
    funext a
    apply Fin.ext
    match a with
    | ⟨0, _⟩ => show win0_0.index t (0 : Fin 2) * 1024 + 1 * (z 0).val = (i 0).val; omega
    | ⟨1, _⟩ => show win0_0.index t (1 : Fin 2) * 1280 + 1 * (z 1).val = (i 1).val; omega
  · funext z
    show V c main_v3 (((cfg0.win 1).blk t).view.emb z) = V c main_v3 z
    congr 1
    funext a
    apply Fin.ext
    match a with
    | ⟨0, _⟩ => show win0_1.index t (0 : Fin 2) * 3840 + 1 * (z 0).val = (z 0).val; omega
    | ⟨1, _⟩ => show win0_1.index t (1 : Fin 2) * 1280 + 1 * (z 1).val = (z 1).val; omega
  · funext z
    show V c main_v6 (((cfg0.win 2).blk t).view.emb z) = V c main_v6 z
    congr 1
    funext a
    apply Fin.ext
    match a with
    | ⟨0, _⟩ => show win0_2.index t (0 : Fin 2) * 1 + 1 * (z 0).val = (z 0).val; omega
    | ⟨1, _⟩ => show win0_2.index t (1 : Fin 2) * 3840 + 1 * (z 1).val = (z 1).val; omega
  · show win0_3.index t (0 : Fin 2) * 1024 + 1 * (y 0).val = t.val * 1024 + (y 0).val; omega
  · show win0_3.index t (1 : Fin 2) * 3840 + 1 * (y 1).val = (y 1).val; omega

/-- An entry of the result is in point `t`'s block iff each coordinate is in the block's range on its axis. -/
theorem mem_qkvBlk (t : Fin cfg0.N) (i : S8192x3840.Idx) :
    i ∈ ((cfg0.win 3).blk t).view.set ↔ ∀ a : Fin 2, win0_3.index t a * S1024x3840.size a ≤ (i a).val
      ∧ (i a).val < win0_3.index t a * S1024x3840.size a + S1024x3840.size a := by
  show i ∈ ((View.whole main_v7).slice (win0_3.rect t)).set ↔ _
  rw [View.set_slice_whole, Rect.mem_set_unit]
  exact Iff.rfl

/-- Row `r` of the result lies in the block of point `r / 1024`: the eight blocks cover the array. -/
theorem qkv_cover (i : S8192x3840.Idx) :
    ∃ t : Fin cfg0.N, (cfg0.win 3).flush t = true ∧ i ∈ ((cfg0.win 3).blk t).view.set := by
  have hi0 : (i 0).val < 8192 := (i 0).isLt
  have hi1 : (i 1).val < 3840 := (i 1).isLt
  have hN : grid0.N = 8 := N_0
  have ht : (i 0).val / 1024 < cfg0.N := by show _ < grid0.N; rw [hN]; omega
  obtain ⟨-, -, -, -, -, -, e30, e31⟩ := idx_facts ⟨(i 0).val / 1024, ht⟩
  refine ⟨⟨(i 0).val / 1024, ht⟩, flush0_3 _, ?_⟩
  rw [mem_qkvBlk]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win0_3.index ⟨(i 0).val / 1024, ht⟩ (1 : Fin 2) * 3840 ≤ (i 1).val
      ∧ (i 1).val < win0_3.index ⟨(i 0).val / 1024, ht⟩ (1 : Fin 2) * 3840 + 3840
    rw [e31]; omega

/-- THE RESULT ARRAY after the region: the projection of the three arrays as the region found them. -/
theorem qkv_final (c : Dev nD) :
    (dat0 (F := Ideal) V c).arrAt 3 cfg0.N = qkvOf (V c main_v1) (V c main_v3) (V c main_v6) :=
  (dat0 (F := Ideal) V c).arrAt_eq_of_cover 3 (qkvOf (V c main_v1) (V c main_v3) (V c main_v6))
    (fun t _ => qkv_flushed V c t) qkv_cover

/-- The projection read at an entry: row `r` of `X` against row `n` of `W`, plus the bias at `n`. -/
theorem qkvOf_apply (X : FVec Ideal S8192x1280 .bf16) (W : FVec Ideal S3840x1280 .bf16) (B : FVec Ideal S1x3840 .f32)
    (r : Fin 8192) (n : Fin 3840) :
    qkvOf X W B (ix2 r n) = (∑ k : Fin 1280, X (ix2 r k) * W (ix2 n k)) + B (ix2 (0 : Fin 1) n) := rfl

end Cert.KernelIdeal.Attn

end
-- ==== Proof.Region1Value.lean ====
import proofs.«122070_j75737453297854_2_alg».proof.Proof.Region1
import Idealize.ShloMosaic.Lib.Pipeline.Value
import Idealize.ShloMosaic.Lib.ValueIdx
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-! # The attention region's blocks, and its result array from its tiles

The grid is 8 × 8: point `t` is batch `t / 8` and query tile `t % 8`. The fused array q|k|v has shape
[8, 1024, 3840]: of batch `b`, the query tile `i` is rows `128·i …` of columns `0 … 1279`, the keys are all rows of
columns `1280 … 2559`, the values all rows of columns `2560 … 3839`. The output weights and the bias are read whole.
The result [8, 1024, 1280] is written tile by tile: rows `128·i …` of batch `b` at point `8·b + i`; the 64 tiles
cover it. -/

/-- The region has 64 points. -/
theorem point_lt (t : Fin cfg1.N) : t.val < 64 := lt_of_lt_of_eq t.isLt (show cfg1.N = 64 from N_1)

/-- The batch of point `t`. -/
abbrev batchOf (t : Fin cfg1.N) : Fin 8 := ⟨t.val / 8, by have := point_lt t; omega⟩
/-- Row `r` of point `t`'s query tile, as a row of the batch. -/
abbrev rowOf (t : Fin cfg1.N) (r : Fin 128) : Fin 1024 := ⟨t.val % 8 * 128 + r.val, by have := r.isLt; omega⟩
/-- Column `n` of the queries, of the keys, of the values, as a column of the fused array. -/
abbrev qCol (n : Fin 1280) : Fin 3840 := ⟨n.val, by have := n.isLt; omega⟩
abbrev kCol (n : Fin 1280) : Fin 3840 := ⟨1280 + n.val, by have := n.isLt; omega⟩
abbrev vCol (n : Fin 1280) : Fin 3840 := ⟨2560 + n.val, by have := n.isLt; omega⟩

/-- The printed index maps, decided once over the 64 points. -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 1
    ∧ win1_2.index t (0 : Fin 3) = t.val / 8 ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

variable (V : (c : Dev nD) → (b : Ref sig .tc) → Buf (Elt F) ((c : Thread nD τ).loc b))

/-! ## The input blocks, entry by entry -/

/-- The query tile at a local entry `y` is the fused array at any entry `j` with these coordinates. -/
theorem q_tile_read (c : Dev nD) (t : Fin cfg1.N) (y : S1x128x1280.Idx) (j : S8x1024x3840.Idx)
    (h0 : (j 0).val = t.val / 8) (h1 : (j 1).val = t.val % 8 * 128 + (y 1).val) (h2 : (j 2).val = (y 2).val) :
    blk1 V c 0 t y = V c main_v8 j := by
  obtain ⟨e00, e01, e02, -⟩ := idx_facts1 t
  have hy0 : (y 0).val < 1 := (y 0).isLt
  show V c main_v8 (((cfg1.win 0).blk t).view.emb y) = V c main_v8 j
  congr 1
  funext a
  apply Fin.ext
  match a with
  | ⟨0, _⟩ => show win1_0.index t (0 : Fin 3) * 1 + 1 * (y 0).val = (j 0).val; omega
  | ⟨1, _⟩ => show win1_0.index t (1 : Fin 3) * 128 + 1 * (y 1).val = (j 1).val; omega
  | ⟨2, _⟩ => show win1_0.index t (2 : Fin 3) * 1280 + 1 * (y 2).val = (j 2).val; omega

/-- The key block at a local entry: all rows of the batch, the second third of the columns. -/
theorem keys_read (c : Dev nD) (t : Fin cfg1.N) (y : S1x1024x1280.Idx) (j : S8x1024x3840.Idx)
    (h0 : (j 0).val = t.val / 8) (h1 : (j 1).val = (y 1).val) (h2 : (j 2).val = 1280 + (y 2).val) :
    blk1 V c 1 t y = V c main_v8 j := by
  obtain ⟨-, -, -, e10, e11, e12, -⟩ := idx_facts1 t
  have hy0 : (y 0).val < 1 := (y 0).isLt
  show V c main_v8 (((cfg1.win 1).blk t).view.emb y) = V c main_v8 j
  congr 1
  funext a
  apply Fin.ext
  match a with
  | ⟨0, _⟩ => show win1_1.index t (0 : Fin 3) * 1 + 1 * (y 0).val = (j 0).val; omega
  | ⟨1, _⟩ => show win1_1.index t (1 : Fin 3) * 1024 + 1 * (y 1).val = (j 1).val; omega
  | ⟨2, _⟩ => show win1_1.index t (2 : Fin 3) * 1280 + 1 * (y 2).val = (j 2).val; omega

/-- The value block at a local entry: all rows of the batch, the last third of the columns. -/
theorem vals_read (c : Dev nD) (t : Fin cfg1.N) (y : S1x1024x1280.Idx) (j : S8x1024x3840.Idx)
    (h0 : (j 0).val = t.val / 8) (h1 : (j 1).val = (y 1).val) (h2 : (j 2).val = 2560 + (y 2).val) :
    blk1 V c 2 t y = V c main_v8 j := by
  obtain ⟨-, -, -, -, -, -, e20, e21, e22, -⟩ := idx_facts1 t
  have hy0 : (y 0).val < 1 := (y 0).isLt
  show V c main_v8 (((cfg1.win 2).blk t).view.emb y) = V c main_v8 j
  congr 1
  funext a
  apply Fin.ext
  match a with
  | ⟨0, _⟩ => show win1_2.index t (0 : Fin 3) * 1 + 1 * (y 0).val = (j 0).val; omega
  | ⟨1, _⟩ => show win1_2.index t (1 : Fin 3) * 1024 + 1 * (y 1).val = (j 1).val; omega
  | ⟨2, _⟩ => show win1_2.index t (2 : Fin 3) * 1280 + 1 * (y 2).val = (j 2).val; omega

/-- Row `r`, column `n` of point `t`'s query tile. -/
theorem q_tile_at (c : Dev nD) (t : Fin cfg1.N) (r : Fin 128) (n : Fin 1280) :
    blk1 V c 0 t (ix3 (0 : Fin 1) r n) = V c main_v8 (ix3 (batchOf t) (rowOf t r) (qCol n)) :=
  q_tile_read V c t _ _ rfl rfl rfl

/-- Row `s`, column `n` of point `t`'s keys. -/
theorem keys_at (c : Dev nD) (t : Fin cfg1.N) (s : Fin 1024) (n : Fin 1280) :
    blk1 V c 1 t (ix3 (0 : Fin 1) s n) = V c main_v8 (ix3 (batchOf t) s (kCol n)) :=
  keys_read V c t _ _ rfl rfl rfl

/-- Row `s`, column `n` of point `t`'s values. -/
theorem vals_at (c : Dev nD) (t : Fin cfg1.N) (s : Fin 1024) (n : Fin 1280) :
    blk1 V c 2 t (ix3 (0 : Fin 1) s n) = V c main_v8 (ix3 (batchOf t) s (vCol n)) :=
  vals_read V c t _ _ rfl rfl rfl

/-- The output weights' block is the whole matrix, at every point. -/
theorem wo_block (c : Dev nD) (t : Fin cfg1.N) : (blk1 V c 3 t : Vec F S1280x1280 .bf16) = V c main_v4 := by
  obtain ⟨-, -, -, -, -, -, -, -, -, e30, e31, -⟩ := idx_facts1 t
  funext z
  show V c main_v4 (((cfg1.win 3).blk t).view.emb z) = V c main_v4 z
  congr 1
  funext a
  apply Fin.ext
  match a with
  | ⟨0, _⟩ => show win1_3.index t (0 : Fin 2) * 1280 + 1 * (z 0).val = (z 0).val; omega
  | ⟨1, _⟩ => show win1_3.index t (1 : Fin 2) * 1280 + 1 * (z 1).val = (z 1).val; omega

/-- The bias block is the whole bias row, at every point. -/
theorem bias_block (c : Dev nD) (t : Fin cfg1.N) : (blk1 V c 4 t : Vec F S1x1280 .f32) = V c main_v9 := by
  obtain ⟨-, -, -, -, -, -, -, -, -, -, -, e40, e41, -⟩ := idx_facts1 t
  funext z
  show V c main_v9 (((cfg1.win 4).blk t).view.emb z) = V c main_v9 z
  congr 1
  funext a
  apply Fin.ext
  match a with
  | ⟨0, _⟩ => show win1_4.index t (0 : Fin 2) * 1 + 1 * (z 0).val = (z 0).val; omega
  | ⟨1, _⟩ => show win1_4.index t (1 : Fin 2) * 1280 + 1 * (z 1).val = (z 1).val; omega

/-! ## From the tiles to the result array -/

/-- An entry of the result is in point `t`'s tile iff each coordinate is in the tile's range on its axis. -/
theorem mem_outTile (t : Fin cfg1.N) (i : S8x1024x1280.Idx) :
    i ∈ ((cfg1.win 5).blk t).view.set ↔ ∀ a : Fin 3, win1_5.index t a * S1x128x1280.size a ≤ (i a).val
      ∧ (i a).val < win1_5.index t a * S1x128x1280.size a + S1x128x1280.size a := by
  show i ∈ ((View.whole main_v10).slice (win1_5.rect t)).set ↔ _
  rw [View.set_slice_whole, Rect.mem_set_unit]
  exact Iff.rfl

/-- Row `s` of batch `b` lies in the tile of point `8·b + s / 128`: the 64 tiles cover the result. -/
theorem out_cover (i : S8x1024x1280.Idx) :
    ∃ t : Fin cfg1.N, (cfg1.win 5).flush t = true ∧ i ∈ ((cfg1.win 5).blk t).view.set := by
  have hi0 : (i 0).val < 8 := (i 0).isLt
  have hi1 : (i 1).val < 1024 := (i 1).isLt
  have hi2 : (i 2).val < 1280 := (i 2).isLt
  have hN : grid1.N = 64 := N_1
  have ht : 8 * (i 0).val + (i 1).val / 128 < cfg1.N := by show _ < grid1.N; rw [hN]; omega
  obtain ⟨-, -, -, -, -, -, -, -, -, -, -, -, -, e50, e51, e52⟩ := idx_facts1 ⟨8 * (i 0).val + (i 1).val / 128, ht⟩
  refine ⟨⟨8 * (i 0).val + (i 1).val / 128, ht⟩, flush1_5 _, ?_⟩
  rw [mem_outTile]
  intro a
  match a with
  | ⟨0, _⟩ =>
    show win1_5.index ⟨8 * (i 0).val + (i 1).val / 128, ht⟩ (0 : Fin 3) * 1 ≤ (i 0).val
      ∧ (i 0).val < win1_5.index ⟨8 * (i 0).val + (i 1).val / 128, ht⟩ (0 : Fin 3) * 1 + 1
    rw [e50]; show (8 * (i 0).val + (i 1).val / 128) / 8 * 1 ≤ (i 0).val ∧ (i 0).val < (8 * (i 0).val + (i 1).val / 128) / 8 * 1 + 1; omega
  | ⟨1, _⟩ =>
    show win1_5.index ⟨8 * (i 0).val + (i 1).val / 128, ht⟩ (1 : Fin 3) * 128 ≤ (i 1).val
      ∧ (i 1).val < win1_5.index ⟨8 * (i 0).val + (i 1).val / 128, ht⟩ (1 : Fin 3) * 128 + 128
    rw [e51]; show (8 * (i 0).val + (i 1).val / 128) % 8 * 128 ≤ (i 1).val ∧ (i 1).val < (8 * (i 0).val + (i 1).val / 128) % 8 * 128 + 128; omega
  | ⟨2, _⟩ =>
    show win1_5.index ⟨8 * (i 0).val + (i 1).val / 128, ht⟩ (2 : Fin 3) * 1280 ≤ (i 2).val
      ∧ (i 2).val < win1_5.index ⟨8 * (i 0).val + (i 1).val / 128, ht⟩ (2 : Fin 3) * 1280 + 1280
    rw [e52]; omega

/-- WHAT POINT `t` WRITES BACK is tile `t` of `Gv`, for any array `Gv` whose tiles are the recursion's. -/
theorem attn_flushed (c : Dev nD) (Gv : Vec F S8x1024x1280 .f32)
    (htile : ∀ (t : Fin cfg1.N) (r : Fin 128) (o : Fin 1280),
      (outsAt1 V c t.val t.isLt).1 (ix3 (0 : Fin 1) r o) = Gv (ix3 (batchOf t) (rowOf t r) o))
    (t : Fin cfg1.N) :
    (dat1 V c).flushed 5 t = ((cfg1.win 5).blk t).view.read (Elt F) Gv := by
  show (cfg1.win 5).cut (grid1.coords t) ((dat1 V c).after 5 t) = _
  rw [left1_5]
  obtain ⟨-, -, -, -, -, -, -, -, -, -, -, -, -, e50, e51, e52⟩ := idx_facts1 t
  funext y
  show (outsAt1 V c t.val t.isLt).1 y = Gv (((cfg1.win 5).blk t).view.emb y)
  obtain ⟨z, r, o, rfl⟩ : ∃ (z : Fin 1) (r : Fin 128) (o : Fin 1280), y = ix3 z r o := ⟨y 0, y 1, y 2, eq_ix3 y⟩
  obtain rfl : z = 0 := Subsingleton.elim _ _
  rw [htile t r o]
  congr 1
  funext a
  apply Fin.ext
  match a with
  | ⟨0, _⟩ => show t.val / 8 = win1_5.index t (0 : Fin 3) * 1 + 1 * 0; omega
  | ⟨1, _⟩ => show t.val % 8 * 128 + r.val = win1_5.index t (1 : Fin 3) * 128 + 1 * r.val; omega
  | ⟨2, _⟩ => show o.val = win1_5.index t (2 : Fin 3) * 1280 + 1 * o.val; omega

/-- THE RESULT ARRAY after the region is `Gv`, for any array `Gv` whose tiles are the recursion's. -/
theorem attn_final (c : Dev nD) (Gv : Vec F S8x1024x1280 .f32)
    (htile : ∀ (t : Fin cfg1.N) (r : Fin 128) (o : Fin 1280),
      (outsAt1 V c t.val t.isLt).1 (ix3 (0 : Fin 1) r o) = Gv (ix3 (batchOf t) (rowOf t r) o)) :
    (dat1 V c).arrAt 5 cfg1.N = Gv :=
  (dat1 V c).arrAt_eq_of_cover 5 Gv (fun t _ => attn_flushed V c Gv htile t) out_cover

end Cert.KernelIdeal.Attn

end
-- ==== Proof.LibMergeRows.lean ====
/-
  Reshapes that merge or split the two LEADING axes of a rank-3 array, read at an index written by coordinates,
  for any element type and any extents.  A `[p, q, m]` array and the `[P, m]` array with the same row-major order
  (`P = p * q`) hold the same element at `(b, s, k)` and at `(b * q + s, k)`.  Each is the library's
  read-at-an-index lemma for a shape cast with the row-major arithmetic done.
-/
import Idealize.ShloMosaic.Lib.Pipeline.Value
import Idealize.ShloMosaic.Lib.ValueIdx

namespace Idealize.ShloMosaic.ValueIdx

open Idealize.ShloMosaic

variable {α : Type}

/-- A `[p, q, m]` array cast to `[P, m]` reads, at `(r, k)` with `r = b * q + s`, the operand at `(b, s, k)`. -/
theorem shapeCast_mergeRows_apply {p q P m : ℕ} (x : (⟨3, ![p, q, m]⟩ : Shape).Idx → α)
    (hc : (⟨3, ![p, q, m]⟩ : Shape).ShapeCasts ⟨2, ![P, m]⟩)
    (b : Fin p) (s : Fin q) (r : Fin P) (k : Fin m) (hr : r.val = b.val * q + s.val) :
    shapeCast ⟨2, ![P, m]⟩ x hc (ix2 r k) = x (ix3 b s k) :=
  shapeCast_apply x hc _ _ (by
    rw [Shape.rowMajor_val_three, Shape.rowMajor_val_two]
    show (b.val * q + s.val) * m + k.val = r.val * m + k.val
    rw [hr])

/-- A `[P, m]` array cast to `[p, q, m]` reads, at `(b, s, k)`, the operand at `(r, k)` with `r = b * q + s`. -/
theorem shapeCast_splitRows_apply {p q P m : ℕ} (y : (⟨2, ![P, m]⟩ : Shape).Idx → α)
    (hc : (⟨2, ![P, m]⟩ : Shape).ShapeCasts ⟨3, ![p, q, m]⟩)
    (b : Fin p) (s : Fin q) (r : Fin P) (k : Fin m) (hr : r.val = b.val * q + s.val) :
    shapeCast ⟨3, ![p, q, m]⟩ y hc (ix3 b s k) = y (ix2 r k) :=
  shapeCast_apply y hc _ _ (by
    rw [Shape.rowMajor_val_three, Shape.rowMajor_val_two]
    show r.val * m + k.val = (b.val * q + s.val) * m + k.val
    rw [hr])

end Idealize.ShloMosaic.ValueIdx
-- ==== Proof.LibCat3Rows.lean ====
/-
  Three equal pieces stacked along the leading axis, read at an index, for any element type and any extents.
  Three matrices [n, w] stacked make a matrix [N, w] with N = 3·n: its row g·n + q (g the piece, q the row inside
  the piece) at column c is piece g at (q, c).  It is the library's reading of a concatenation at an index, with the
  extents of the pieces before piece g summed to g·n.
-/
import Idealize.ShloMosaic.Lib.Pipeline.Value
import Idealize.ShloMosaic.Lib.ValueIdx

open Idealize.ShloMosaic Idealize.ShloMosaic.ValueIdx

namespace Cat3Rows

variable {α : Type}

/-- Three [n, w] matrices stacked: row `g·n + q` at column `c` is piece `g` at `(q, c)`. -/
theorem cat3_rows_apply {n w N : ℕ} (x0 x1 x2 : (⟨2, ![n, w]⟩ : Shape).Idx → α)
    (h : Shape.Concatenates [(⟨2, ![n, w]⟩ : Shape), ⟨2, ![n, w]⟩, ⟨2, ![n, w]⟩] ⟨2, ![N, w]⟩ (0 : Fin 2))
    (g : Fin 3) (q : Fin n) (c : Fin w) (r : Fin N) (hr : r.val = g.val * n + q.val) :
    concatenate (⟨2, ![N, w]⟩ : Shape) (0 : Fin 2)
        [⟨(⟨2, ![n, w]⟩ : Shape), x0⟩, ⟨(⟨2, ![n, w]⟩ : Shape), x1⟩, ⟨(⟨2, ![n, w]⟩ : Shape), x2⟩] h (ix2 r c)
      = (![x0, x1, x2] g) (ix2 q c) := by
  refine concatenate_apply_piece (t := (⟨2, ![N, w]⟩ : Shape)) (0 : Fin 2)
    [⟨(⟨2, ![n, w]⟩ : Shape), x0⟩, ⟨(⟨2, ![n, w]⟩ : Shape), x1⟩, ⟨(⟨2, ![n, w]⟩ : Shape), x2⟩] h (ix2 r c) g.val (by simp) (⟨2, ![n, w]⟩ : Shape) (![x0, x1, x2] g) ?_ rfl
    (g.val * n) ?_ (ix2 q c) ?_ ?_
  · fin_cases g <;> rfl
  · fin_cases g <;> simp <;> ring
  · intro b hb
    match b with
    | ⟨0, _⟩ => exact absurd rfl hb
    | ⟨1, _⟩ => rfl
  · show g.val * n + q.val = r.val
    omega

end Cat3Rows
-- ==== Proof.HostValues.lean ====
import proofs.«122070_j75737453297854_2_alg».proof.Proof.Run1
import proofs.«122070_j75737453297854_2_alg».proof.Proof.Region0Value
import proofs.«122070_j75737453297854_2_alg».proof.Proof.Region1Value
import proofs.«122070_j75737453297854_2_alg».proof.Proof.AttnSpec
import proofs.«122070_j75737453297854_2_alg».proof.Proof.LibMergeRows
import proofs.«122070_j75737453297854_2_alg».proof.Proof.LibCat3Rows
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! # What the host operations around the two calls hold, read at an index

Before the projection call the host casts the input to bf16 (the identity on the extended reals) and flattens
its batch and position axes into 8192 rows; stacks the three projection weights into one [3840, 1280] matrix, rows
0 … 1279 the query weights, 1280 … 2559 the key weights, 2560 … 3839 the value weights; and makes a zero bias
row. So the projection call's result, re-laid as [8, 1024, 3840], holds at (b, s, g·1280 + n) the sum over the
input channels of x (b, s, ·) against row n of the g-th weight matrix. The attention call also reads the output
weights (cast) and the output bias (as a [1, 1280] row). -/

/-! ## Before the projection call -/

/-- The flattened input is the reshape of the cast input. -/
theorem flatX_eq (c : Dev nD) : @Eq (FVec Ideal S8192x1280 .bf16) (E1 m ρ c main_v1)
    (shapeCast S8192x1280 (truncf (F := Ideal) .bf16 (m ((c : Thread nD τ).loc main_arg0)) bitsLt_bf16_f32) shapeCasts_S8x1024x1280_S8192x1280) := by
  dsimp only [E1, B1, hostOps0]
  after_results
  rfl

/-- Row `b·1024 + s` of the flattened input is position `s` of batch `b`. -/
theorem flatX_apply (c : Dev nD) (b : Fin 8) (s : Fin 1024) (k : Fin 1280) (R : Fin 8192) (hR : R.val = b.val * 1024 + s.val) :
    E1 m ρ c main_v1 (ix2 R k) = (m ((c : Thread nD τ).loc main_arg0)) (ix3 b s k) :=
  (congrFun (flatX_eq m ρ c) (ix2 R k)).trans
    (shapeCast_mergeRows_apply (truncf (F := Ideal) .bf16 (m ((c : Thread nD τ).loc main_arg0)) bitsLt_bf16_f32) shapeCasts_S8x1024x1280_S8192x1280 b s R k hR)

/-- The stacked weights are the cast of the three weight matrices joined along their rows. -/
theorem stackedW_eq (c : Dev nD) : @Eq (FVec Ideal S3840x1280 .bf16) (E1 m ρ c main_v3)
    (truncf (F := Ideal) .bf16 (concatenate S3840x1280 0 [⟨S1280x1280, m ((c : Thread nD τ).loc main_arg1)⟩, ⟨S1280x1280, m ((c : Thread nD τ).loc main_arg2)⟩, ⟨S1280x1280, m ((c : Thread nD τ).loc main_arg3)⟩]
      concatenates_S1280x1280_S1280x1280_S1280x1280_S3840x1280_d0) bitsLt_bf16_f32) := by
  dsimp only [E1, B1, hostOps0]
  after_results
  rfl

/-- Row `g·1280 + n` of the stacked weights is row `n` of the `g`-th weight matrix (queries, keys, values). -/
theorem stackedW_apply (c : Dev nD) (g : Fin 3) (n k : Fin 1280) (R : Fin 3840) (hR : R.val = g.val * 1280 + n.val) :
    E1 m ρ c main_v3 (ix2 R k)
      = ((![m ((c : Thread nD τ).loc main_arg1), m ((c : Thread nD τ).loc main_arg2), m ((c : Thread nD τ).loc main_arg3)] : Fin 3 → FVec Ideal S1280x1280 .f32) g) (ix2 n k) :=
  (congrFun (stackedW_eq m ρ c) (ix2 R k)).trans
    (Cat3Rows.cat3_rows_apply (m ((c : Thread nD τ).loc main_arg1) : FVec Ideal S1280x1280 .f32) (m ((c : Thread nD τ).loc main_arg2)) (m ((c : Thread nD τ).loc main_arg3))
      concatenates_S1280x1280_S1280x1280_S1280x1280_S3840x1280_d0 g n k R hR)

/-- The bias row of the projection call is zero everywhere. -/
theorem zeroBias_apply (c : Dev nD) (j : S1x3840.Idx) : E1 m ρ c main_v6 j = (0 : EReal) := by
  have e : @Eq (FVec Ideal S1x3840 .f32) (E1 m ρ c main_v6)
      (shapeCast S1x3840 (broadcastInDim S3840 ![] bcast_S_S3840 (constant (F := Ideal) S_ .f32 0x00000000#32)) shapeCasts_S3840_S1x3840) := by
    dsimp only [E1, B1, hostOps0]
    after_results
    rfl
  exact (congrFun e j).trans Cert.AttnSpec.ofBits_zero

/-! ## Between the two calls -/

/-- The fused array the attention call reads is the projection call's result, re-laid as [8, 1024, 3840]. -/
theorem fused_eq (c : Dev nD) : @Eq (FVec Ideal S8x1024x3840 .bf16) (E3 m ρ c main_v8)
    (shapeCast S8x1024x3840 (qkvOf (E1 m ρ c main_v1) (E1 m ρ c main_v3) (E1 m ρ c main_v6)) shapeCasts_S8192x3840_S8x1024x3840) := by
  have h7 : B2 m ρ c (Proc.devRef .tc main_v7) = qkvOf (E1 m ρ c main_v1) (E1 m ρ c main_v3) (E1 m ρ c main_v6) :=
    (B2_arr m ρ c 3).trans (qkv_final (E1 m ρ) c)
  dsimp only [E3, B3, hostOps1]
  after_results
  rw [h7]
  rfl

/-- Position `s` of batch `b` of the fused array is row `b·1024 + s` of the projection call's result. -/
theorem fused_apply (c : Dev nD) (b : Fin 8) (s : Fin 1024) (C : Fin 3840) (R : Fin 8192) (hR : R.val = b.val * 1024 + s.val) :
    E3 m ρ c main_v8 (ix3 b s C) = qkvOf (E1 m ρ c main_v1) (E1 m ρ c main_v3) (E1 m ρ c main_v6) (ix2 R C) :=
  (congrFun (fused_eq m ρ c) (ix3 b s C)).trans
    (shapeCast_splitRows_apply (qkvOf (E1 m ρ c main_v1) (E1 m ρ c main_v3) (E1 m ρ c main_v6)) shapeCasts_S8192x3840_S8x1024x3840 b s R C hR)

/-- Column `g·1280 + n` of the fused array at `(b, s)` is the `g`-th projection of `x` at `(b, s, n)`. -/
theorem fused_proj (c : Dev nD) (g : Fin 3) (b : Fin 8) (s : Fin 1024) (n : Fin 1280) (C : Fin 3840) (hC : C.val = g.val * 1280 + n.val) :
    E3 m ρ c main_v8 (ix3 b s C)
      = Cert.AttnSpec.proj (m ((c : Thread nD τ).loc main_arg0))
          ((![m ((c : Thread nD τ).loc main_arg1), m ((c : Thread nD τ).loc main_arg2), m ((c : Thread nD τ).loc main_arg3)] : Fin 3 → FVec Ideal S1280x1280 .f32) g) b s n := by
  have hb : b.val < 8 := b.isLt
  have hs : s.val < 1024 := s.isLt
  have key : qkvOf (E1 m ρ c main_v1) (E1 m ρ c main_v3) (E1 m ρ c main_v6) (ix2 (⟨b.val * 1024 + s.val, by omega⟩ : Fin 8192) C)
      = Cert.AttnSpec.proj (m ((c : Thread nD τ).loc main_arg0))
          ((![m ((c : Thread nD τ).loc main_arg1), m ((c : Thread nD τ).loc main_arg2), m ((c : Thread nD τ).loc main_arg3)] : Fin 3 → FVec Ideal S1280x1280 .f32) g) b s n := by
    rw [qkvOf_apply, zeroBias_apply, add_zero]
    unfold Cert.AttnSpec.proj
    exact Finset.sum_congr rfl fun k _ => congrArg₂ (· * ·)
      (flatX_apply m ρ c b s k ⟨b.val * 1024 + s.val, by omega⟩ rfl) (stackedW_apply m ρ c g n k C hC)
  exact (fused_apply m ρ c b s C ⟨b.val * 1024 + s.val, by omega⟩ rfl).trans key

/-- The query, key and value projections inside the fused array. -/
theorem fused_q (c : Dev nD) (b : Fin 8) (s : Fin 1024) (n : Fin 1280) :
    E3 m ρ c main_v8 (ix3 b s (qCol n)) = Cert.AttnSpec.proj (m ((c : Thread nD τ).loc main_arg0)) (m ((c : Thread nD τ).loc main_arg1)) b s n :=
  fused_proj m ρ c 0 b s n (qCol n) (by show n.val = 0 * 1280 + n.val; omega)
theorem fused_k (c : Dev nD) (b : Fin 8) (s : Fin 1024) (n : Fin 1280) :
    E3 m ρ c main_v8 (ix3 b s (kCol n)) = Cert.AttnSpec.proj (m ((c : Thread nD τ).loc main_arg0)) (m ((c : Thread nD τ).loc main_arg2)) b s n :=
  fused_proj m ρ c 1 b s n (kCol n) (by show 1280 + n.val = 1 * 1280 + n.val; omega)
theorem fused_v (c : Dev nD) (b : Fin 8) (s : Fin 1024) (n : Fin 1280) :
    E3 m ρ c main_v8 (ix3 b s (vCol n)) = Cert.AttnSpec.proj (m ((c : Thread nD τ).loc main_arg0)) (m ((c : Thread nD τ).loc main_arg3)) b s n :=
  fused_proj m ρ c 2 b s n (vCol n) (by show 2560 + n.val = 2 * 1280 + n.val; omega)

/-- The output weights the attention call reads are the cast of the argument: the same extended reals. -/
theorem out_weights_eq (c : Dev nD) : @Eq (FVec Ideal S1280x1280 .bf16) (E3 m ρ c main_v4)
    (truncf (F := Ideal) .bf16 (m ((c : Thread nD τ).loc main_arg4)) bitsLt_bf16_f32) := by
  have h4 : B2 m ρ c (Proc.devRef .tc main_v4) = B1 m ρ c (Proc.devRef .tc main_v4) := B2_of_ne m ρ c main_v4 (by decide)
  dsimp only [E3, B3, hostOps1]
  after_results
  rw [h4]
  dsimp only [B1, hostOps0]
  after_results
theorem out_weights (c : Dev nD) (o k : Fin 1280) :
    E3 m ρ c main_v4 (ix2 o k) = (m ((c : Thread nD τ).loc main_arg4)) (ix2 o k) :=
  congrFun (out_weights_eq m ρ c) (ix2 o k)

/-- The output bias the attention call reads is the argument as a [1, 1280] row. -/
theorem bias_row_eq (c : Dev nD) : @Eq (FVec Ideal S1x1280 .f32) (E3 m ρ c main_v9)
    (shapeCast S1x1280 (m ((c : Thread nD τ).loc main_arg5)) shapeCasts_S1280_S1x1280) := by
  have h5 : B2 m ρ c (Proc.devRef .tc main_arg5) = B1 m ρ c (Proc.devRef .tc main_arg5) := B2_of_ne m ρ c main_arg5 (by decide)
  dsimp only [E3, B3, hostOps1]
  after_results
  rw [h5]
  dsimp only [B1, hostOps0]
  after_results
  rfl
theorem bias_row (c : Dev nD) (o : Fin 1280) :
    E3 m ρ c main_v9 (ix2 (0 : Fin 1) o) = (m ((c : Thread nD τ).loc main_arg5)) (ix1 o) :=
  (congrFun (bias_row_eq m ρ c) (ix2 (0 : Fin 1) o)).trans
    (shapeCast_a_1a_apply (m ((c : Thread nD τ).loc main_arg5) : FVec Ideal S1280 .f32) shapeCasts_S1280_S1x1280 0 o)

end Cert.KernelIdeal.Attn

end
-- ==== Proof.Pieces.lean ====
import proofs.«122070_j75737453297854_2_alg».proof.Proof.Region1
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What the body's stores leave, as functions of what it loaded

Every store of the attention body writes a whole buffer, so what a written buffer ends with is the stored value
itself: the output tile is the attention arithmetic of the query tile, the two scratch contents, the output weights
and the bias row; at the first tile of a batch the scratch contents are the re-laid key and value blocks. -/

/-- Away from the first tile of a batch: the tile from the scratch contents it finds. -/
theorem tile_B_eq (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : ¬cond1 i) (x2 : Vec F S1x128x1280 .bf16) (x3 x4 : Vec F S1x1024x1280 .bf16) (x5 : Vec F S1280x1280 .bf16) (x6 : Vec F S1x1280 .f32) (s8 s9 : Vec F S20x1024x64 .bf16) :
    tile_B c i arg2 harg2 arg3 harg3 arg4 harg4 arg5 harg5 arg6 harg6 arg7 harg7 arg8 harg8 arg9 harg9 hc0 x2 x3 x4 x5 x6 s8 s9 = k1_pay1 (k1_pay4 x2 s8 s9 x5 x6) := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold tile_B
  rw [View.read_writes_eq_canon _ _ _ (cover_tile_B c i arg2 harg2 arg3 harg3 arg4 harg4 arg5 harg5 arg6 harg6 arg7 harg7 arg8 harg8 arg9 harg9 hc0 x2 x3 x4 x5 x6 s8 s9)]
  unfold kernelRun1_B
  dsimp only
  rw [View.canon_unit_zero hz3]
  simp only [View.readAt_eq_ld, harg2.read_unread, harg3.read_unread, harg4.read_unread, harg5.read_unread, harg6.read_unread, harg8.read_unread, harg9.read_unread,
    View.ld_unit_zero (S := S1x128x1280) hz3, View.ld_unit_zero (S := S1x1024x1280) hz3, View.ld_unit_zero (S := S20x1024x64) hz3,
    View.ld_unit_zero (S := S1280x1280) hz2, View.ld_unit_zero (S := S1x1280) hz2]

/-- At the first tile of a batch the keys' scratch ends as the re-laid key block. -/
theorem keys_A_eq (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) :
    keys_A c i arg2 harg2 arg3 harg3 arg4 harg4 arg5 harg5 arg6 harg6 arg7 harg7 arg8 harg8 arg9 harg9 hc0 x2 x3 x4 x5 x6 = k1_pay2 x3 := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold keys_A
  rw [View.read_writes_eq_canon _ _ _ (cover_keys_A c i arg2 harg2 arg3 harg3 arg4 harg4 arg5 harg5 arg6 harg6 arg7 harg7 arg8 harg8 arg9 harg9 hc0 x2 x3 x4 x5 x6)]
  unfold kernelRun1_A
  dsimp only
  sl_unfold_words
  rw [View.canon_unit_zero hz3]
  simp only [View.readAt_eq_ld, harg2.read_unread, harg3.read_unread, harg4.read_unread, harg5.read_unread, harg6.read_unread, harg8.read_unread, harg9.read_unread,
    View.ld_unit_zero (S := S1x128x1280) hz3, View.ld_unit_zero (S := S1x1024x1280) hz3, View.ld_unit_zero (S := S20x1024x64) hz3,
    View.ld_unit_zero (S := S1280x1280) hz2, View.ld_unit_zero (S := S1x1280) hz2]

/-- … and the values' scratch as the re-laid value block. -/
theorem vals_A_eq (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) :
    vals_A c i arg2 harg2 arg3 harg3 arg4 harg4 arg5 harg5 arg6 harg6 arg7 harg7 arg8 harg8 arg9 harg9 hc0 x2 x3 x4 x5 x6 = k1_pay3 x4 := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold vals_A
  rw [View.read_writes_eq_canon _ _ _ (cover_vals_A c i arg2 harg2 arg3 harg3 arg4 harg4 arg5 harg5 arg6 harg6 arg7 harg7 arg8 harg8 arg9 harg9 hc0 x2 x3 x4 x5 x6)]
  unfold kernelRun1_A
  dsimp only
  sl_unfold_words
  rw [View.canon_unit_zero hz3]
  simp only [View.readAt_eq_ld, harg2.read_unread, harg3.read_unread, harg4.read_unread, harg5.read_unread, harg6.read_unread, harg8.read_unread, harg9.read_unread,
    View.ld_unit_zero (S := S1x128x1280) hz3, View.ld_unit_zero (S := S1x1024x1280) hz3, View.ld_unit_zero (S := S20x1024x64) hz3,
    View.ld_unit_zero (S := S1280x1280) hz2, View.ld_unit_zero (S := S1x1280) hz2]

/-- … and the tile is computed from those fresh scratch contents. -/
theorem tile_A_eq (c : Dev nD) (i : grid1.Coords) (arg2 : Memref sig .tc .vmem S1x128x1280 .bf16) (harg2 : arg2.IsWhole) (arg3 : Memref sig .tc .vmem S1x1024x1280 .bf16) (harg3 : arg3.IsWhole) (arg4 : Memref sig .tc .vmem S1x1024x1280 .bf16) (harg4 : arg4.IsWhole) (arg5 : Memref sig .tc .vmem S1280x1280 .bf16) (harg5 : arg5.IsWhole) (arg6 : Memref sig .tc .vmem S1x1280 .f32) (harg6 : arg6.IsWhole) (arg7 : Memref sig .tc .vmem S1x128x1280 .f32) (harg7 : arg7.IsWhole) (arg8 : Memref sig .tc .vmem S20x1024x64 .bf16) (harg8 : arg8.IsWhole) (arg9 : Memref sig .tc .vmem S20x1024x64 .bf16) (harg9 : arg9.IsWhole) (hc0 : cond1 i) (x2 : Vec F S1x128x1280 .bf16) (x3 x4 : Vec F S1x1024x1280 .bf16) (x5 : Vec F S1280x1280 .bf16) (x6 : Vec F S1x1280 .f32) :
    tile_A c i arg2 harg2 arg3 harg3 arg4 harg4 arg5 harg5 arg6 harg6 arg7 harg7 arg8 harg8 arg9 harg9 hc0 x2 x3 x4 x5 x6 = k1_pay1 (k1_pay4 x2 (k1_pay2 x3) (k1_pay3 x4) x5 x6) := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold tile_A
  rw [View.read_writes_eq_canon _ _ _ (cover_tile_A c i arg2 harg2 arg3 harg3 arg4 harg4 arg5 harg5 arg6 harg6 arg7 harg7 arg8 harg8 arg9 harg9 hc0 x2 x3 x4 x5 x6)]
  unfold kernelRun1_A
  dsimp only
  sl_unfold_words
  rw [View.canon_unit_zero hz3]
  simp only [View.readAt_eq_ld, harg2.read_unread, harg3.read_unread, harg4.read_unread, harg5.read_unread, harg6.read_unread, harg8.read_unread, harg9.read_unread,
    View.ld_unit_zero (S := S1x128x1280) hz3, View.ld_unit_zero (S := S1x1024x1280) hz3, View.ld_unit_zero (S := S20x1024x64) hz3,
    View.ld_unit_zero (S := S1280x1280) hz2, View.ld_unit_zero (S := S1x1280) hz2, View.readCov_unit_zero (S := S20x1024x64) _ hz3]

end Cert.KernelIdeal.Attn

end
-- ==== Proof.AttnLocal.lean ====
/- The specification of attention for ONE query row against a batch's keys and values.

   The global specification depends on a batch only through its three projections, and on a query position only
   through that position's query row. Here the same formulas are stated over a single query row
   `q : Fin 1280 → EReal`, the key and value rows `K, Vv : Fin 1024 → Fin 1280 → EReal`, the output weights and the
   bias; the global result at `(b, s, o)` is the local one on the batch's projections. -/
import proofs.«122070_j75737453297854_2_alg».proof.Proof.AttnSpec

noncomputable section

namespace Cert.AttnSpec

open Idealize.ShloMosaic Idealize.ShloMosaic.ValueIdx
open scoped BigOperators

/-- The scaled score of the query row against key position `s'` in head `h`. -/
def lscore (q : Fin 1280 → EReal) (K : Fin 1024 → Fin 1280 → EReal) (h : Fin 20) (s' : Fin 1024) : EReal :=
  (∑ e : Fin 64, q (col h e) * K s' (col h e)) * ((1 / 8 : ℝ) : EReal)

/-- The largest score of the row in head `h`: the fold of `max` from `⊥` over the key positions. -/
def lrowMax (q : Fin 1280 → EReal) (K : Fin 1024 → Fin 1280 → EReal) (h : Fin 20) : EReal :=
  (Finset.univ : Finset (Fin 1024)).fold max ⊥ (fun s' => lscore q K h s')

/-- The exponential of a score shifted by the row's maximum. -/
def lexpo (q : Fin 1280 → EReal) (K : Fin 1024 → Fin 1280 → EReal) (h : Fin 20) (s' : Fin 1024) : EReal :=
  Ideal.exp (lscore q K h s' - lrowMax q K h)

/-- The softmax denominator of the row in head `h`. -/
def lden (q : Fin 1280 → EReal) (K : Fin 1024 → Fin 1280 → EReal) (h : Fin 20) : EReal :=
  ∑ s' : Fin 1024, lexpo q K h s'

/-- The attention probability of key position `s'`. -/
def lp (q : Fin 1280 → EReal) (K : Fin 1024 → Fin 1280 → EReal) (h : Fin 20) (s' : Fin 1024) : EReal :=
  Ideal.div (lexpo q K h s') (lden q K h)

/-- The attended value at channel `e` of head `h`. -/
def lattn (q : Fin 1280 → EReal) (K Vv : Fin 1024 → Fin 1280 → EReal) (h : Fin 20) (e : Fin 64) : EReal :=
  ∑ s' : Fin 1024, lp q K h s' * Vv s' (col h e)

/-- The attended values with the heads side by side. -/
def lattn' (q : Fin 1280 → EReal) (K Vv : Fin 1024 → Fin 1280 → EReal) (c : Fin 1280) : EReal :=
  lattn q K Vv (headOf c) (laneOf c)

/-- The output projection with its bias, for the one row. -/
def lout (q : Fin 1280 → EReal) (K Vv : Fin 1024 → Fin 1280 → EReal) (WO : SW.Idx → EReal) (BO : Fin 1280 → EReal)
    (o : Fin 1280) : EReal :=
  (∑ c : Fin 1280, lattn' q K Vv c * WO (ix2 o c)) + BO o

/-- The global specification at `(b, s, o)` is the local one on the batch's three projections. -/
theorem out_eq_local (x : SX.Idx → EReal) (wq wk wv wo : SW.Idx → EReal) (bo : SB.Idx → EReal)
    (b : Fin 8) (s : Fin 1024) (o : Fin 1280) :
    out x wq wk wv wo bo b s o
      = lout (fun c => proj x wq b s c) (fun s' c => proj x wk b s' c) (fun s' c => proj x wv b s' c) wo
          (fun o => bo (ix1 o)) o := rfl

end Cert.AttnSpec

end
-- ==== Proof.LibSplitLast.lean ====
/-
  Two layout facts about the LAST axis, read at an index written by coordinates, for any element type and any extents.

  A matrix `[a, m]` with `m = b · c` cast to `[a, b, c]` keeps its elements in row-major order, so it reads, at
  `(i, j, k)`, the matrix at `(i, j · c + k)`.  A reduction that drops the last axis of an `[a, b, c]` array names,
  for a reduced index `(i, j)` and a coordinate `k` on the dropped axis, the index `(i, j, k)`.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, m]` array, `m = b · c`, cast to `[a, b, c]` reads, at `(i, j, k)`, the operand at `(i, j · c + k)`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (k : Fin c)
    (r : Fin m) (hr : r.val = j.val * c + k.val) :
    shapeCast ⟨3, ![a, b, c]⟩ x h (ix3 i j k) = x (ix2 i r) :=
  shapeCast_apply x h _ _ (by
    rw [Shape.rowMajor_val_three, Shape.rowMajor_val_two]
    show i.val * m + r.val = (i.val * b + j.val) * c + k.val
    rw [hr, hm, Nat.add_mul, Nat.mul_assoc, Nat.add_assoc])

/-- Dropping the LAST axis of `[a, b, c]`: the index over `(i, j)` whose last coordinate is `k` is `(i, j, k)`. -/
theorem lift_last_ix2 {a b c : ℕ} (h : (⟨3, ![a, b, c]⟩ : Shape).Reduces [2] (⟨2, ![a, b]⟩ : Shape)) (i : Fin a) (j : Fin b)
    (k : Fin ((⟨3, ![a, b, c]⟩ : Shape).size 2)) :
    h.lift (ix2 i j) k = ix3 i j (⟨k.val, k.isLt⟩ : Fin c) := by
  funext ax; apply Fin.ext
  fin_cases ax <;> rfl

end Idealize.ShloMosaic.ValueIdx
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.KernelPayload1.lean ====
/- The attention body's layout operations read at an index.

   The body re-lays a block of rows `[1, N, 1280]` head by head into `[20, N, 64]` (drop the unit axis, split the
   channel axis into 20 heads of 64, move the head axis to the front), lays the heads side by side again
   (`[20, N, 64] → [N, 20, 64] → [N, 1280]`), spreads a per-row scalar over the key axis, and spreads the bias
   row over the rows. Each is read here at an index written by coordinates, for any element type. -/
import proofs.«122070_j75737453297854_2_alg».proof.Proof.Gen.KernelIdeal.Skeleton
import proofs.«122070_j75737453297854_2_alg».proof.Proof.AttnLocal
import proofs.«122070_j75737453297854_2_alg».proof.Proof.LibSplitLast
import proofs.«122070_j75737453297854_2_alg».proof.Proof.LibLayout3
import Idealize.ShloMosaic.Lib.ValueLayout

noncomputable section

namespace Cert.KernelIdeal.Attn

open Cert.KernelIdeal Cert.KernelIdeal.Gen
open Idealize.ShloMosaic Idealize.ShloMosaic.ValueIdx Cert.AttnSpec
open scoped BigOperators

variable {α : Type}

/-- Rows re-laid head by head: entry `(h, r, e)` is the operand's row `r` at channel `h · 64 + e`. -/
theorem relaid_at {N : ℕ} (v : (⟨3, ![1, N, 1280]⟩ : Shape).Idx → α)
    (h1 : (⟨3, ![1, N, 1280]⟩ : Shape).ShapeCasts ⟨2, ![N, 1280]⟩)
    (h2 : (⟨2, ![N, 1280]⟩ : Shape).ShapeCasts ⟨3, ![N, 20, 64]⟩)
    (h3 : (⟨3, ![N, 20, 64]⟩ : Shape).Transposes [1, 0, 2] ⟨3, ![20, N, 64]⟩)
    (h : Fin 20) (r : Fin N) (e : Fin 64) :
    transpose ⟨3, ![20, N, 64]⟩ [1, 0, 2] (shapeCast ⟨3, ![N, 20, 64]⟩ (shapeCast ⟨2, ![N, 1280]⟩ v h1) h2) h3 (ix3 h r e)
      = v (ix3 (0 : Fin 1) r (col h e)) := by
  rw [transpose_apply [1, 0, 2] _ h3 (ix3 h r e) (ix3 r h e)
    (fun b => match b with | ⟨0, _⟩ => rfl | ⟨1, _⟩ => rfl | ⟨2, _⟩ => rfl)]
  rw [shapeCast_am_abc_apply _ h2 (by norm_num) r h e (col h e) rfl]
  rw [shapeCast_1ab_ab_apply _ h1 r (col h e)]

/-- The heads laid side by side again: entry `(r, c)` is the operand at head `c / 64`, row `r`, lane `c % 64`. -/
theorem merged_at {N : ℕ} (a : (⟨3, ![20, N, 64]⟩ : Shape).Idx → α)
    (h1 : (⟨3, ![20, N, 64]⟩ : Shape).Transposes [1, 0, 2] ⟨3, ![N, 20, 64]⟩)
    (h2 : (⟨3, ![N, 20, 64]⟩ : Shape).ShapeCasts ⟨2, ![N, 1280]⟩)
    (r : Fin N) (c : Fin 1280) :
    shapeCast ⟨2, ![N, 1280]⟩ (transpose ⟨3, ![N, 20, 64]⟩ [1, 0, 2] a h1) h2 (ix2 r c)
      = a (ix3 (headOf c) r (laneOf c)) := by
  rw [shapeCast_apply _ h2 (ix2 r c) (ix3 r (headOf c) (laneOf c)) (by
    rw [Shape.rowMajor_val_three, Shape.rowMajor_val_two]
    show (r.val * 20 + c.val / 64) * 64 + c.val % 64 = r.val * 1280 + c.val
    have := c.isLt; omega)]
  rw [transpose_apply [1, 0, 2] _ h1 (ix3 r (headOf c) (laneOf c)) (ix3 (headOf c) r (laneOf c))
    (fun b => match b with | ⟨0, _⟩ => rfl | ⟨1, _⟩ => rfl | ⟨2, _⟩ => rfl)]

/-- A per-row scalar `[A, B]` given a unit last axis and spread over `C` columns reads the scalar of its row. -/
theorem spread_at {A B C : ℕ} (z : (⟨2, ![A, B]⟩ : Shape).Idx → α)
    (h1 : (⟨2, ![A, B]⟩ : Shape).ShapeCasts ⟨3, ![A, B, 1]⟩)
    (h2 : (⟨3, ![A, B, 1]⟩ : Shape).Broadcasts ⟨3, ![A, B, C]⟩) (i : Fin A) (j : Fin B) (k : Fin C) :
    broadcastTo ⟨3, ![A, B, C]⟩ (shapeCast ⟨3, ![A, B, 1]⟩ z h1) h2 (ix3 i j k) = z (ix2 i j) := by
  rw [broadcastTo_ab1_abc_apply _ h2 i j k, shapeCast_ab_ab1_apply _ h1 i j (0 : Fin 1)]

/-- The bias row, cast to its own shape and spread over the rows, reads the bias at the column. -/
theorem bias_at {A B : ℕ} (x : (⟨2, ![1, B]⟩ : Shape).Idx → α)
    (h1 : (⟨2, ![1, B]⟩ : Shape).ShapeCasts ⟨2, ![1, B]⟩)
    (h2 : (⟨2, ![1, B]⟩ : Shape).Broadcasts ⟨2, ![A, B]⟩) (r : Fin A) (o : Fin B) :
    broadcastTo ⟨2, ![A, B]⟩ (shapeCast ⟨2, ![1, B]⟩ x h1) h2 (ix2 r o) = x (ix2 (0 : Fin 1) o) := by
  rw [shapeCast_self, broadcastTo_1b_ab_apply _ h2 r o]

/-- The key block re-laid head by head, at `(h, s, e)`. -/
theorem relaid_keys_at (v : Vec Ideal S1x1024x1280 .bf16) (h : Fin 20) (s : Fin 1024) (e : Fin 64) :
    k1_pay2 (F := Ideal) v (ix3 h s e) = v (ix3 (0 : Fin 1) s (col h e)) := by
  unfold k1_pay2
  rw [shapeCast_self]
  exact relaid_at v _ _ _ h s e

/-- The value block re-laid head by head, at `(h, s, e)`. -/
theorem relaid_vals_at (v : Vec Ideal S1x1024x1280 .bf16) (h : Fin 20) (s : Fin 1024) (e : Fin 64) :
    k1_pay3 (F := Ideal) v (ix3 h s e) = v (ix3 (0 : Fin 1) s (col h e)) := by
  unfold k1_pay3
  rw [shapeCast_self]
  exact relaid_at v _ _ _ h s e

/-- The result tile given its unit leading axis, at `(0, r, o)`. -/
theorem tile_cast_at (y : FVec Ideal S128x1280 .f32) (r : Fin 128) (o : Fin 1280) :
    k1_pay1 (F := Ideal) y (ix3 (0 : Fin 1) r o) = y (ix2 r o) := by
  unfold k1_pay1
  exact shapeCast_ab_1ab_apply y _ (0 : Fin 1) r o

end Cert.KernelIdeal.Attn

end
-- ==== Proof.KernelPayload2.lean ====
/- The attention body's contractions and reductions read at an index, at the ideal values.

   Two batched products per head — queries against keys over the 64 channels of a head, probabilities against
   values over the 1024 key positions —, the output projection against the transposed weights, and the two
   reductions over the key axis (a maximum from `-∞`, a sum from `0`). Each into a zero accumulator, each read at
   an index written by coordinates as the textbook sum or fold. -/
import proofs.«122070_j75737453297854_2_alg».proof.Proof.Gen.KernelIdeal.Skeleton
import proofs.«122070_j75737453297854_2_alg».proof.Proof.AttnSpec
import proofs.«122070_j75737453297854_2_alg».proof.Proof.LibSplitLast
import proofs.«122070_j75737453297854_2_alg».proof.Proof.LibDotRowsT

noncomputable section

namespace Cert.KernelIdeal.Attn

open Cert.KernelIdeal Cert.KernelIdeal.Gen
open Idealize.ShloMosaic Idealize.ShloMosaic.ValueIdx Cert.AttnSpec
open scoped BigOperators

/-- The dimension numbers of queries · keysᵀ: batch axis 0, contraction over the last axis of both. -/
abbrev dotQK : DotDims S20x128x64 S20x1024x64 S20x128x1024 := dot_S20x128x64_S20x1024x64_S20x128x1024_2_2_1_1_0_0
abbrev dotQK_out : Shape := S20x128x1024
/-- The dimension numbers of probabilities · values: batch axis 0, the left's last axis against the right's middle. -/
abbrev dotPV : DotDims S20x128x1024 S20x1024x64 S20x128x64 := dot_S20x128x1024_S20x1024x64_S20x128x64_2_1_1_2_0_0
abbrev dotPV_out : Shape := S20x128x64
/-- The dimension numbers of the output projection: the last axis of both operands contracted. -/
abbrev dotWO : DotDims S128x1280 S1280x1280 S128x1280 := dot_S128x1280_S1280x1280_S128x1280_1_1_0_0_n_n
abbrev dotWO_out : Shape := S128x1280

theorem dotQK_lhs0 (i : dotQK_out.Idx) (q : dotQK.contr.Idx) :
    (dotQK.lhsIdx i q 0).val = (i 0).val := by
  unfold DotDims.lhsIdx
  rw [dif_pos (show (0 : Fin S20x128x64.rank) ∈ dotQK.lhsBatch by decide)]
  rfl
theorem dotQK_lhs1 (i : dotQK_out.Idx) (q : dotQK.contr.Idx) :
    (dotQK.lhsIdx i q 1).val = (i 1).val := by
  unfold DotDims.lhsIdx
  rw [dif_neg (show ¬(1 : Fin S20x128x64.rank) ∈ dotQK.lhsBatch by decide), dif_pos (show (1 : Fin S20x128x64.rank) ∈ dotQK.lhsNonContracting by decide)]
  rfl
theorem dotQK_lhs2 (i : dotQK_out.Idx) (q : dotQK.contr.Idx) :
    (dotQK.lhsIdx i q 2).val = (q ⟨0, by decide⟩).val :=
  dotQK.lhsIdx_val_of_single rfl i q
theorem dotQK_rhs0 (i : dotQK_out.Idx) (q : dotQK.contr.Idx) :
    (dotQK.rhsIdx i q 0).val = (i 0).val := by
  unfold DotDims.rhsIdx
  rw [dif_pos (show (0 : Fin S20x1024x64.rank) ∈ dotQK.rhsBatch by decide)]
  rfl
theorem dotQK_rhs1 (i : dotQK_out.Idx) (q : dotQK.contr.Idx) :
    (dotQK.rhsIdx i q 1).val = (i 2).val := by
  unfold DotDims.rhsIdx
  rw [dif_neg (show ¬(1 : Fin S20x1024x64.rank) ∈ dotQK.rhsBatch by decide), dif_pos (show (1 : Fin S20x1024x64.rank) ∈ dotQK.rhsNonContracting by decide)]
  rfl
theorem dotQK_rhs2 (i : dotQK_out.Idx) (q : dotQK.contr.Idx) :
    (dotQK.rhsIdx i q 2).val = (q ⟨0, by decide⟩).val :=
  dotQK.rhsIdx_val_of_single rfl i q

/-- Queries against keys at `(h, r, s')`: the inner product over the head's 64 channels. -/
theorem scores_dot_at (a : FVec Ideal S20x128x64 .bf16) (b : FVec Ideal S20x1024x64 .bf16)
    (h : Fin 20) (r : Fin 128) (s' : Fin 1024) :
    matmul dotQK none a b (constant (F := Ideal) S20x128x1024 .f32 0x00000000#32) (ix3 h r s')
      = ∑ e : Fin 64, a (ix3 h r e) * b (ix3 h s' e) := by
  show FloatOps.matmul dotQK none a b (constant (F := Ideal) S20x128x1024 .f32 0x00000000#32) (ix3 h r s') = _
  rw [Ideal.matmul_constant_zero_apply, ← Equiv.sum_comp (contrEquiv1 dotQK 64 rfl rfl).symm]
  refine Finset.sum_congr rfl fun k _ => ?_
  have hk := contrEquiv1_symm_val dotQK 64 rfl rfl k
  have el : dotQK.lhsIdx (ix3 h r s') ((contrEquiv1 dotQK 64 rfl rfl).symm k) = ix3 h r k := funext fun x => Fin.ext (by
    match x with
    | ⟨0, _⟩ => exact dotQK_lhs0 _ _
    | ⟨1, _⟩ => exact dotQK_lhs1 _ _
    | ⟨2, _⟩ => exact (dotQK_lhs2 _ _).trans hk)
  have er : dotQK.rhsIdx (ix3 h r s') ((contrEquiv1 dotQK 64 rfl rfl).symm k) = ix3 h s' k := funext fun x => Fin.ext (by
    match x with
    | ⟨0, _⟩ => exact dotQK_rhs0 _ _
    | ⟨1, _⟩ => exact dotQK_rhs1 _ _
    | ⟨2, _⟩ => exact (dotQK_rhs2 _ _).trans hk)
  rw [el, er]

theorem dotPV_lhs0 (i : dotPV_out.Idx) (q : dotPV.contr.Idx) :
    (dotPV.lhsIdx i q 0).val = (i 0).val := by
  unfold DotDims.lhsIdx
  rw [dif_pos (show (0 : Fin S20x128x1024.rank) ∈ dotPV.lhsBatch by decide)]
  rfl
theorem dotPV_lhs1 (i : dotPV_out.Idx) (q : dotPV.contr.Idx) :
    (dotPV.lhsIdx i q 1).val = (i 1).val := by
  unfold DotDims.lhsIdx
  rw [dif_neg (show ¬(1 : Fin S20x128x1024.rank) ∈ dotPV.lhsBatch by decide), dif_pos (show (1 : Fin S20x128x1024.rank) ∈ dotPV.lhsNonContracting by decide)]
  rfl
theorem dotPV_lhs2 (i : dotPV_out.Idx) (q : dotPV.contr.Idx) :
    (dotPV.lhsIdx i q 2).val = (q ⟨0, by decide⟩).val :=
  dotPV.lhsIdx_val_of_single rfl i q
theorem dotPV_rhs0 (i : dotPV_out.Idx) (q : dotPV.contr.Idx) :
    (dotPV.rhsIdx i q 0).val = (i 0).val := by
  unfold DotDims.rhsIdx
  rw [dif_pos (show (0 : Fin S20x1024x64.rank) ∈ dotPV.rhsBatch by decide)]
  rfl
theorem dotPV_rhs1 (i : dotPV_out.Idx) (q : dotPV.contr.Idx) :
    (dotPV.rhsIdx i q 1).val = (q ⟨0, by decide⟩).val :=
  dotPV.rhsIdx_val_of_single rfl i q
theorem dotPV_rhs2 (i : dotPV_out.Idx) (q : dotPV.contr.Idx) :
    (dotPV.rhsIdx i q 2).val = (i 2).val := by
  unfold DotDims.rhsIdx
  rw [dif_neg (show ¬(2 : Fin S20x1024x64.rank) ∈ dotPV.rhsBatch by decide), dif_pos (show (2 : Fin S20x1024x64.rank) ∈ dotPV.rhsNonContracting by decide)]
  rfl

/-- Probabilities against values at `(h, r, e)`: the weighted sum over the 1024 key positions. -/
theorem attend_dot_at (pr : FVec Ideal S20x128x1024 .bf16) (v : FVec Ideal S20x1024x64 .bf16)
    (h : Fin 20) (r : Fin 128) (e : Fin 64) :
    matmul dotPV none pr v (constant (F := Ideal) S20x128x64 .f32 0x00000000#32) (ix3 h r e)
      = ∑ s' : Fin 1024, pr (ix3 h r s') * v (ix3 h s' e) := by
  show FloatOps.matmul dotPV none pr v (constant (F := Ideal) S20x128x64 .f32 0x00000000#32) (ix3 h r e) = _
  rw [Ideal.matmul_constant_zero_apply, ← Equiv.sum_comp (contrEquiv1 dotPV 1024 rfl rfl).symm]
  refine Finset.sum_congr rfl fun k _ => ?_
  have hk := contrEquiv1_symm_val dotPV 1024 rfl rfl k
  have el : dotPV.lhsIdx (ix3 h r e) ((contrEquiv1 dotPV 1024 rfl rfl).symm k) = ix3 h r k := funext fun x => Fin.ext (by
    match x with
    | ⟨0, _⟩ => exact dotPV_lhs0 _ _
    | ⟨1, _⟩ => exact dotPV_lhs1 _ _
    | ⟨2, _⟩ => exact (dotPV_lhs2 _ _).trans hk)
  have er : dotPV.rhsIdx (ix3 h r e) ((contrEquiv1 dotPV 1024 rfl rfl).symm k) = ix3 h k e := funext fun x => Fin.ext (by
    match x with
    | ⟨0, _⟩ => exact dotPV_rhs0 _ _
    | ⟨1, _⟩ => exact (dotPV_rhs1 _ _).trans hk
    | ⟨2, _⟩ => exact dotPV_rhs2 _ _)
  rw [el, er]

theorem dotWO_lhs0 (i : dotWO_out.Idx) (q : dotWO.contr.Idx) :
    (dotWO.lhsIdx i q 0).val = (i 0).val := by
  unfold DotDims.lhsIdx
  rw [dif_neg (show ¬(0 : Fin S128x1280.rank) ∈ dotWO.lhsBatch by decide), dif_pos (show (0 : Fin S128x1280.rank) ∈ dotWO.lhsNonContracting by decide)]
  rfl
theorem dotWO_lhs1 (i : dotWO_out.Idx) (q : dotWO.contr.Idx) :
    (dotWO.lhsIdx i q 1).val = (q ⟨0, by decide⟩).val :=
  dotWO.lhsIdx_val_of_single rfl i q
theorem dotWO_rhs0 (i : dotWO_out.Idx) (q : dotWO.contr.Idx) :
    (dotWO.rhsIdx i q 0).val = (i 1).val := by
  unfold DotDims.rhsIdx
  rw [dif_neg (show ¬(0 : Fin S1280x1280.rank) ∈ dotWO.rhsBatch by decide), dif_pos (show (0 : Fin S1280x1280.rank) ∈ dotWO.rhsNonContracting by decide)]
  rfl
theorem dotWO_rhs1 (i : dotWO_out.Idx) (q : dotWO.contr.Idx) :
    (dotWO.rhsIdx i q 1).val = (q ⟨0, by decide⟩).val :=
  dotWO.rhsIdx_val_of_single rfl i q

/-- The output projection at `(r, o)`: the row against row `o` of the weights (the weights are stored output channel
    by input channel, so this is `a · wᵀ`). -/
theorem out_dot_at (a : FVec Ideal S128x1280 .bf16) (w : FVec Ideal S1280x1280 .bf16) (r : Fin 128) (o : Fin 1280) :
    matmul dotWO none a w (constant (F := Ideal) S128x1280 .f32 0x00000000#32) (ix2 r o)
      = ∑ c : Fin 1280, a (ix2 r c) * w (ix2 o c) :=
  matmul_zero_rowsT dotWO none rfl rfl dotWO_lhs0 dotWO_lhs1 dotWO_rhs0 dotWO_rhs1 a w r o

/-- The maximum over the key axis at `(h, r)`: the fold of `max` from `⊥`. -/
theorem rowmax_red_at (y : FVec Ideal S20x128x1024 .f32) (hr : S20x128x1024.Reduces [2] S20x128) (h : Fin 20) (r : Fin 128) :
    multiReduction .maximumf [2] S20x128 y 0xFF800000#32 hr (.inl rfl) rfl (ix2 h r)
      = (Finset.univ : Finset (Fin 1024)).fold max ⊥ (fun s' => y (ix3 h r s')) := by
  refine (Ideal.multiReduction_maximumf_single y 0xFF800000#32 hr (.inl rfl) rfl (ix2 h r)).trans ?_
  rw [Ideal.ofBits_def, ofBits_neg_inf]
  have hf : (y ∘ hr.lift (ix2 h r)) = fun s' : Fin 1024 => y (ix3 h r s') :=
    funext fun k => congrArg y (lift_last_ix2 hr h r k)
  exact congrArg (fun f => Finset.fold max (⊥ : EReal) f (Finset.univ : Finset (Fin 1024))) hf

/-- The sum over the key axis at `(h, r)`. -/
theorem rowsum_red_at (y : FVec Ideal S20x128x1024 .f32) (hr : S20x128x1024.Reduces [2] S20x128) (h : Fin 20) (r : Fin 128) :
    multiReduction .add [2] S20x128 y 0x00000000#32 hr (.inl rfl) rfl (ix2 h r) = ∑ s' : Fin 1024, y (ix3 h r s') := by
  refine (Ideal.multiReduction_add_single y 0x00000000#32 hr (.inl rfl) rfl (ix2 h r)).trans ?_
  exact Finset.sum_congr rfl fun k _ => congrArg y (lift_last_ix2 hr h r k)

end Cert.KernelIdeal.Attn

end
-- ==== Proof.KernelPayload.lean ====
/- The attention body's arithmetic at an index: one output tile is the local specification of its rows.

   The body's pure value — from the query tile `[1, 128, 1280]`, the keys and values re-laid head by head
   `[20, 1024, 64]`, the output weights and the bias row — is cut into named stages (the re-laid queries, the scaled
   scores, the row maximum, the shifted exponentials, their sum, the probabilities, the attended values, the heads
   laid side by side, the output projection). Each stage is read at an index written by coordinates as the
   corresponding function of the local specification; the body's value is the last stage. Changes of float format
   are the identity at the ideal values. -/
import proofs.«122070_j75737453297854_2_alg».proof.Proof.KernelPayload1
import proofs.«122070_j75737453297854_2_alg».proof.Proof.KernelPayload2

noncomputable section

namespace Cert.KernelIdeal.Attn

open Cert.KernelIdeal Cert.KernelIdeal.Gen
open Idealize.ShloMosaic Idealize.ShloMosaic.ValueIdx Cert.AttnSpec
open scoped BigOperators

/-- The query row `r` of the tile. -/
def qrow (x2 : FVec Ideal S1x128x1280 .bf16) (r : Fin 128) : Fin 1280 → EReal := fun c => x2 (ix3 (0 : Fin 1) r c)
/-- The key or value rows read back from their head-by-head layout: row `s`, channel `c` sits at head `c / 64`,
    lane `c % 64`. -/
def rowsOf (s8 : FVec Ideal S20x1024x64 .bf16) : Fin 1024 → Fin 1280 → EReal :=
  fun s c => s8 (ix3 (headOf c) s (laneOf c))

theorem rowsOf_col (s8 : FVec Ideal S20x1024x64 .bf16) (s : Fin 1024) (h : Fin 20) (e : Fin 64) :
    rowsOf s8 s (col h e) = s8 (ix3 h s e) := by
  unfold rowsOf; rw [headOf_col, laneOf_col]

/-- The queries re-laid head by head. -/
def kQ (x2 : FVec Ideal S1x128x1280 .bf16) : FVec Ideal S20x128x64 .bf16 :=
  transpose S20x128x64 [1, 0, 2] (shapeCast S128x20x64 (shapeCast S128x1280 x2 shapeCasts_S1x128x1280_S128x1280)
    shapeCasts_S128x1280_S128x20x64) transposes_S128x20x64_p1_0_2_S20x128x64
/-- The scaled scores. -/
def kScore (x2 : FVec Ideal S1x128x1280 .bf16) (s8 : FVec Ideal S20x1024x64 .bf16) : FVec Ideal S20x128x1024 .f32 :=
  mulf (matmul dot_S20x128x64_S20x1024x64_S20x128x1024_2_2_1_1_0_0 none (kQ x2) s8 (constant S20x128x1024 .f32 0x00000000#32))
    (broadcast S20x128x1024 (Scalar.ofBits .f32 0x3E000000#32))
/-- The row maxima. -/
def kMax (x2 : FVec Ideal S1x128x1280 .bf16) (s8 : FVec Ideal S20x1024x64 .bf16) : FVec Ideal S20x128 .f32 :=
  maximumf (broadcast S20x128 (Scalar.ofBits .f32 0xFF800000#32))
    (multiReduction .maximumf [2] S20x128 (kScore x2 s8) 0xFF800000#32 reduces_S20x128x1024_S20x128 (.inl rfl) rfl)
/-- The shifted exponentials. -/
def kExp (x2 : FVec Ideal S1x128x1280 .bf16) (s8 : FVec Ideal S20x1024x64 .bf16) : FVec Ideal S20x128x1024 .f32 :=
  exp (subf (kScore x2 s8) (broadcastTo S20x128x1024 (shapeCast S20x128x1 (kMax x2 s8) shapeCasts_S20x128_S20x128x1)
    broadcasts_S20x128x1_S20x128x1024))
/-- The softmax denominators. -/
def kDen (x2 : FVec Ideal S1x128x1280 .bf16) (s8 : FVec Ideal S20x1024x64 .bf16) : FVec Ideal S20x128 .f32 :=
  multiReduction .add [2] S20x128 (kExp x2 s8) 0x00000000#32 reduces_S20x128x1024_S20x128 (.inl rfl) rfl
/-- The probabilities. -/
def kProb (x2 : FVec Ideal S1x128x1280 .bf16) (s8 : FVec Ideal S20x1024x64 .bf16) : FVec Ideal S20x128x1024 .bf16 :=
  truncf .bf16 (divf (kExp x2 s8) (broadcastTo S20x128x1024 (shapeCast S20x128x1 (kDen x2 s8) shapeCasts_S20x128_S20x128x1)
    broadcasts_S20x128x1_S20x128x1024)) bitsLt_bf16_f32
/-- The attended values per head. -/
def kAttn (x2 : FVec Ideal S1x128x1280 .bf16) (s8 : FVec Ideal S20x1024x64 .bf16) (s9 : FVec Ideal S20x1024x64 .bf16) : FVec Ideal S20x128x64 .f32 :=
  matmul dot_S20x128x1024_S20x1024x64_S20x128x64_2_1_1_2_0_0 none (kProb x2 s8) s9 (constant S20x128x64 .f32 0x00000000#32)
/-- The attended values with the heads side by side. -/
def kMerged (x2 : FVec Ideal S1x128x1280 .bf16) (s8 : FVec Ideal S20x1024x64 .bf16) (s9 : FVec Ideal S20x1024x64 .bf16) : FVec Ideal S128x1280 .bf16 :=
  truncf .bf16 (shapeCast S128x1280 (transpose S128x20x64 [1, 0, 2] (kAttn x2 s8 s9) transposes_S20x128x64_p1_0_2_S128x20x64)
    shapeCasts_S128x20x64_S128x1280) bitsLt_bf16_f32
/-- The output projection with the bias. -/
def kOut (x2 : FVec Ideal S1x128x1280 .bf16) (s8 : FVec Ideal S20x1024x64 .bf16) (s9 : FVec Ideal S20x1024x64 .bf16) (x5 : FVec Ideal S1280x1280 .bf16) (x6 : FVec Ideal S1x1280 .f32) :
    FVec Ideal S128x1280 .f32 :=
  addf (matmul dot_S128x1280_S1280x1280_S128x1280_1_1_0_0_n_n none (kMerged x2 s8 s9)
      (shapeCast S1280x1280 x5 shapeCasts_S1280x1280_S1280x1280) (constant S128x1280 .f32 0x00000000#32))
    (broadcastTo S128x1280 (shapeCast S1x1280 x6 shapeCasts_S1x1280_S1x1280) broadcasts_S1x1280_S128x1280)

/-- The body's value is the last stage. -/
theorem k1_pay4_eq (x2 : FVec Ideal S1x128x1280 .bf16) (s8 : FVec Ideal S20x1024x64 .bf16) (s9 : FVec Ideal S20x1024x64 .bf16) (x5 : FVec Ideal S1280x1280 .bf16) (x6 : FVec Ideal S1x1280 .f32) :
    k1_pay4 (F := Ideal) x2 s8 s9 x5 x6 = kOut x2 s8 s9 x5 x6 := rfl

/-- The re-laid queries at `(h, r, e)`. -/
theorem kQ_at (x2 : FVec Ideal S1x128x1280 .bf16) (h : Fin 20) (r : Fin 128) (e : Fin 64) :
    kQ x2 (ix3 h r e) = qrow x2 r (col h e) := by
  unfold kQ
  exact relaid_at x2 _ _ _ h r e

/-- The scaled score at `(h, r, s')`. -/
theorem kScore_at (x2 : FVec Ideal S1x128x1280 .bf16) (s8 : FVec Ideal S20x1024x64 .bf16) (h : Fin 20) (r : Fin 128) (s' : Fin 1024) :
    kScore x2 s8 (ix3 h r s') = lscore (qrow x2 r) (rowsOf s8) h s' := by
  unfold kScore
  rw [mulf_apply, broadcast_apply]
  refine (congrArg₂ (· * ·) (scores_dot_at (kQ x2) s8 h r s') ofBits_eighth).trans ?_
  unfold lscore
  congr 1
  refine Finset.sum_congr rfl fun e _ => ?_
  rw [kQ_at, rowsOf_col]

/-- The row maximum at `(h, r)`. -/
theorem kMax_at (x2 : FVec Ideal S1x128x1280 .bf16) (s8 : FVec Ideal S20x1024x64 .bf16) (h : Fin 20) (r : Fin 128) :
    kMax x2 s8 (ix2 h r) = lrowMax (qrow x2 r) (rowsOf s8) h := by
  unfold kMax
  rw [maximumf_apply, broadcast_apply]
  refine (congrArg₂ max ofBits_neg_inf (rowmax_red_at (kScore x2 s8) _ h r)).trans ?_
  rw [max_eq_right bot_le]
  unfold lrowMax
  exact congrArg (fun f => Finset.fold max (⊥ : EReal) f (Finset.univ : Finset (Fin 1024)))
    (funext fun s' => kScore_at x2 s8 h r s')

/-- The shifted exponential at `(h, r, s')`. -/
theorem kExp_at (x2 : FVec Ideal S1x128x1280 .bf16) (s8 : FVec Ideal S20x1024x64 .bf16) (h : Fin 20) (r : Fin 128) (s' : Fin 1024) :
    kExp x2 s8 (ix3 h r s') = lexpo (qrow x2 r) (rowsOf s8) h s' := by
  unfold kExp
  show Ideal.exp (kScore x2 s8 (ix3 h r s') - broadcastTo S20x128x1024 (shapeCast S20x128x1 (kMax x2 s8) shapeCasts_S20x128_S20x128x1) broadcasts_S20x128x1_S20x128x1024 (ix3 h r s')) = _
  rw [spread_at (kMax x2 s8) _ _ h r s', kScore_at, kMax_at]
  rfl

/-- The softmax denominator at `(h, r)`. -/
theorem kDen_at (x2 : FVec Ideal S1x128x1280 .bf16) (s8 : FVec Ideal S20x1024x64 .bf16) (h : Fin 20) (r : Fin 128) :
    kDen x2 s8 (ix2 h r) = lden (qrow x2 r) (rowsOf s8) h := by
  unfold kDen
  refine (rowsum_red_at (kExp x2 s8) _ h r).trans ?_
  unfold lden
  exact Finset.sum_congr rfl fun s' _ => kExp_at x2 s8 h r s'

/-- The probability at `(h, r, s')`. -/
theorem kProb_at (x2 : FVec Ideal S1x128x1280 .bf16) (s8 : FVec Ideal S20x1024x64 .bf16) (h : Fin 20) (r : Fin 128) (s' : Fin 1024) :
    kProb x2 s8 (ix3 h r s') = lp (qrow x2 r) (rowsOf s8) h s' := by
  unfold kProb
  show Ideal.div (kExp x2 s8 (ix3 h r s')) (broadcastTo S20x128x1024 (shapeCast S20x128x1 (kDen x2 s8) shapeCasts_S20x128_S20x128x1) broadcasts_S20x128x1_S20x128x1024 (ix3 h r s')) = _
  rw [spread_at (kDen x2 s8) _ _ h r s', kExp_at, kDen_at]
  rfl

/-- The attended value at `(h, r, e)`. -/
theorem kAttn_at (x2 : FVec Ideal S1x128x1280 .bf16) (s8 : FVec Ideal S20x1024x64 .bf16) (s9 : FVec Ideal S20x1024x64 .bf16) (h : Fin 20) (r : Fin 128) (e : Fin 64) :
    kAttn x2 s8 s9 (ix3 h r e) = lattn (qrow x2 r) (rowsOf s8) (rowsOf s9) h e := by
  unfold kAttn
  refine (attend_dot_at (kProb x2 s8) s9 h r e).trans ?_
  unfold lattn
  refine Finset.sum_congr rfl fun s' _ => ?_
  rw [kProb_at, rowsOf_col]

/-- The attended values with the heads side by side, at `(r, c)`. -/
theorem kMerged_at (x2 : FVec Ideal S1x128x1280 .bf16) (s8 : FVec Ideal S20x1024x64 .bf16) (s9 : FVec Ideal S20x1024x64 .bf16) (r : Fin 128) (c : Fin 1280) :
    kMerged x2 s8 s9 (ix2 r c) = lattn' (qrow x2 r) (rowsOf s8) (rowsOf s9) c := by
  unfold kMerged
  show shapeCast S128x1280 (transpose S128x20x64 [1, 0, 2] (kAttn x2 s8 s9) transposes_S20x128x64_p1_0_2_S128x20x64) shapeCasts_S128x20x64_S128x1280 (ix2 r c) = _
  rw [merged_at (kAttn x2 s8 s9) _ _ r c, kAttn_at]
  rfl

/-- The output tile at `(r, o)`. -/
theorem kOut_at (x2 : FVec Ideal S1x128x1280 .bf16) (s8 : FVec Ideal S20x1024x64 .bf16) (s9 : FVec Ideal S20x1024x64 .bf16) (x5 : FVec Ideal S1280x1280 .bf16) (x6 : FVec Ideal S1x1280 .f32)
    (r : Fin 128) (o : Fin 1280) :
    kOut x2 s8 s9 x5 x6 (ix2 r o)
      = lout (qrow x2 r) (rowsOf s8) (rowsOf s9) x5 (fun o => x6 (ix2 (0 : Fin 1) o)) o := by
  unfold kOut
  rw [addf_apply, shapeCast_self x5, bias_at x6 _ _ r o]
  refine (congrArg (· + x6 (ix2 (0 : Fin 1) o)) (out_dot_at (kMerged x2 s8 s9) x5 r o)).trans ?_
  unfold lout
  congr 1
  refine Finset.sum_congr rfl fun c _ => ?_
  rw [kMerged_at]

/-- Reading the re-laid key block back row by row gives the block's rows: the round trip is the identity. -/
theorem relaid_keys_rows (v : Vec Ideal S1x1024x1280 .bf16) :
    (fun (s : Fin 1024) (c : Fin 1280) => k1_pay2 (F := Ideal) v (ix3 (headOf c) s (laneOf c)))
      = fun s c => v (ix3 (0 : Fin 1) s c) := by
  funext s c
  rw [relaid_keys_at, col_headOf_laneOf]

/-- The same for the value block. -/
theorem relaid_vals_rows (v : Vec Ideal S1x1024x1280 .bf16) :
    (fun (s : Fin 1024) (c : Fin 1280) => k1_pay3 (F := Ideal) v (ix3 (headOf c) s (laneOf c)))
      = fun s c => v (ix3 (0 : Fin 1) s c) := by
  funext s c
  rw [relaid_vals_at, col_headOf_laneOf]

/-- THE TILE: the body's value given its unit leading axis, at `(0, r, o)`, is the local specification of query row
    `r` of the tile against the key and value rows. -/
theorem tile_at (x2 : Vec Ideal S1x128x1280 .bf16) (s8 s9 : Vec Ideal S20x1024x64 .bf16)
    (x5 : Vec Ideal S1280x1280 .bf16) (x6 : Vec Ideal S1x1280 .f32) (r : Fin 128) (o : Fin 1280) :
    k1_pay1 (F := Ideal) (k1_pay4 (F := Ideal) x2 s8 s9 x5 x6) (ix3 (0 : Fin 1) r o)
      = lout (fun c => x2 (ix3 (0 : Fin 1) r c)) (fun s c => s8 (ix3 (headOf c) s (laneOf c)))
          (fun s c => s9 (ix3 (headOf c) s (laneOf c))) x5 (fun o => x6 (ix2 (0 : Fin 1) o)) o := by
  rw [tile_cast_at, k1_pay4_eq]
  exact kOut_at x2 s8 s9 x5 x6 r o

end Cert.KernelIdeal.Attn

end
-- ==== Proof.KernelIsSpec.lean ====
import proofs.«122070_j75737453297854_2_alg».proof.Proof.HostValues
import proofs.«122070_j75737453297854_2_alg».proof.Proof.Pieces
import proofs.«122070_j75737453297854_2_alg».proof.Proof.KernelPayload

set_option maxRecDepth 16384

noncomputable section

namespace Cert.KernelIdeal.Attn

open Cert.KernelIdeal Cert.KernelIdeal.Gen
open Idealize.ShloMosaic Idealize.ShloMosaic.TcCoe Idealize.SL.Sem Idealize.ShloMosaic.ValueIdx Cert.AttnSpec
open Idealize.ShloMosaic.Pipeline (Dat)
open scoped BigOperators

/-! # The attention call's result array is the specification

The region visits its 64 points in order; at the first point of a batch it re-lays the batch's keys and values
into two scratch buffers, and at every point it computes one 128-row tile of the result from the point's query
tile and the scratch contents. First the scratch buffers hold, at every point, the re-laid keys and values of the
point's batch; then every tile is the specification on its rows; the 64 tiles cover the result. The array of
the fused projections, the output weights and the bias row enter only through five facts about their entries,
so the buffers' contents stay a variable. -/

/-- The point before a point that does not open a batch lies in the same batch. -/
theorem batchOf_pred (t : Fin cfg1.N) (h0 : ¬t.val % 8 = 0) :
    batchOf (⟨t.val - 1, Nat.lt_of_le_of_lt (Nat.sub_le _ _) t.isLt⟩ : Fin cfg1.N) = batchOf t :=
  Fin.ext (by show (t.val - 1) / 8 = t.val / 8; omega)

/-- The first component of a pair that equals a written pair. -/
theorem fst_of_eq {α β : Type} {p : α × β} {a : α} {b : β} (h : p = (a, b)) : p.1 = a := by subst h; rfl
/-- The second component of a pair that equals a written pair. -/
theorem snd_of_eq {α β : Type} {p : α × β} {a : α} {b : β} (h : p = (a, b)) : p.2 = b := by subst h; rfl

/-- The local specification depends on its five arguments only as functions. -/
theorem lout_congr {q q' : Fin 1280 → EReal} {K K' Vv Vv' : Fin 1024 → Fin 1280 → EReal} {WO WO' : SW.Idx → EReal}
    {BO BO' : Fin 1280 → EReal} (hq : q = q') (hK : K = K') (hV : Vv = Vv') (hW : WO = WO') (hB : BO = BO')
    (o : Fin 1280) : lout q K Vv WO BO o = lout q' K' Vv' WO' BO' o := by
  rw [hq, hK, hV, hW, hB]

section
variable (V : (c : Dev nD) → (b : Ref sig .tc) → Buf (Elt Ideal) ((c : Thread nD τ).loc b))

/-- At the first point of a batch the tile is the body's value on the point's blocks. -/
theorem first_tile (c : Dev nD) (t : Fin cfg1.N) (h0 : t.val % 8 = 0) :
    (outsAt1 V c t.val t.isLt).1 = k1_pay1 (F := Ideal) (k1_pay4 (F := Ideal) (blk1 V c 0 t)
        (k1_pay2 (F := Ideal) (blk1 V c 1 t)) (k1_pay3 (F := Ideal) (blk1 V c 2 t)) (blk1 V c 3 t) (blk1 V c 4 t)) :=
  (fst_of_eq (outsAt1_A V c t h0)).trans
    (tile_A_eq c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t))

/-- At the first point of a batch the first scratch buffer is left holding the re-laid keys. -/
theorem first_keys (c : Dev nD) (t : Fin cfg1.N) (h0 : t.val % 8 = 0) :
    (outsAt1 V c t.val t.isLt).2.1 = k1_pay2 (F := Ideal) (blk1 V c 1 t) :=
  (fst_of_eq (snd_of_eq (outsAt1_A V c t h0))).trans
    (keys_A_eq c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t))

/-- And the second the re-laid values. -/
theorem first_vals (c : Dev nD) (t : Fin cfg1.N) (h0 : t.val % 8 = 0) :
    (outsAt1 V c t.val t.isLt).2.2 = k1_pay3 (F := Ideal) (blk1 V c 2 t) :=
  (snd_of_eq (snd_of_eq (outsAt1_A V c t h0))).trans
    (vals_A_eq c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) ((hcond1 t).mpr h0) (blk1 V c 0 t) (blk1 V c 1 t) (blk1 V c 2 t) (blk1 V c 3 t) (blk1 V c 4 t))

theorem outs_first (c : Dev nD) (t : Fin cfg1.N) (h0 : t.val % 8 = 0) :
    (outsAt1 V c t.val t.isLt).1 = k1_pay1 (F := Ideal) (k1_pay4 (F := Ideal) (blk1 V c 0 t)
        (k1_pay2 (F := Ideal) (blk1 V c 1 t)) (k1_pay3 (F := Ideal) (blk1 V c 2 t)) (blk1 V c 3 t) (blk1 V c 4 t))
    ∧ (outsAt1 V c t.val t.isLt).2.1 = k1_pay2 (F := Ideal) (blk1 V c 1 t)
    ∧ (outsAt1 V c t.val t.isLt).2.2 = k1_pay3 (F := Ideal) (blk1 V c 2 t) :=
  ⟨first_tile V c t h0, first_keys V c t h0, first_vals V c t h0⟩

/-- At any other point the tile is the body's value on the scratch contents the point before left. -/
theorem later_tile (c : Dev nD) (t : Fin cfg1.N) (h0 : ¬t.val % 8 = 0) :
    (outsAt1 V c t.val t.isLt).1 = k1_pay1 (F := Ideal) (k1_pay4 (F := Ideal) (blk1 V c 0 t)
        (outsAt1 V c (t.val - 1) (Nat.lt_of_le_of_lt (Nat.sub_le _ _) t.isLt)).2.1 (outsAt1 V c (t.val - 1) (Nat.lt_of_le_of_lt (Nat.sub_le _ _) t.isLt)).2.2 (blk1 V c 3 t) (blk1 V c 4 t)) :=
  (fst_of_eq (outsAt1_B V c t h0)).trans
    (tile_B_eq c (grid1.coords t) (ms1_0 t) (hs1_0 t) (ms1_1 t) (hs1_1 t) (ms1_2 t) (hs1_2 t) (ms1_3 t) (hs1_3 t) (ms1_4 t) (hs1_4 t) (ms1_5 t) (hs1_5 t) scK (Memref.isWhole_whole _) scV (Memref.isWhole_whole _) (fun h => h0 ((hcond1 t).mp h)) (blk1 V c 0 t) (blk1 V c 1 t) (blk1 V c 2 t) (blk1 V c 3 t) (blk1 V c 4 t) (outsAt1 V c (t.val - 1) (Nat.lt_of_le_of_lt (Nat.sub_le _ _) t.isLt)).2.1 (outsAt1 V c (t.val - 1) (Nat.lt_of_le_of_lt (Nat.sub_le _ _) t.isLt)).2.2)

/-- At any other point the scratch contents stay. -/
theorem outs_later (c : Dev nD) (t : Fin cfg1.N) (h0 : ¬t.val % 8 = 0) :
    (outsAt1 V c t.val t.isLt).1 = k1_pay1 (F := Ideal) (k1_pay4 (F := Ideal) (blk1 V c 0 t)
        (outsAt1 V c (t.val - 1) (Nat.lt_of_le_of_lt (Nat.sub_le _ _) t.isLt)).2.1 (outsAt1 V c (t.val - 1) (Nat.lt_of_le_of_lt (Nat.sub_le _ _) t.isLt)).2.2 (blk1 V c 3 t) (blk1 V c 4 t))
    ∧ (outsAt1 V c t.val t.isLt).2.1 = (outsAt1 V c (t.val - 1) (Nat.lt_of_le_of_lt (Nat.sub_le _ _) t.isLt)).2.1
    ∧ (outsAt1 V c t.val t.isLt).2.2 = (outsAt1 V c (t.val - 1) (Nat.lt_of_le_of_lt (Nat.sub_le _ _) t.isLt)).2.2 :=
  ⟨later_tile V c t h0, fst_of_eq (snd_of_eq (outsAt1_B V c t h0)), snd_of_eq (snd_of_eq (outsAt1_B V c t h0))⟩

/-- THE SCRATCH INVARIANT: after the body at any point the two scratch buffers hold the keys and the values of the
    point's batch, re-laid head by head. -/
theorem scratch_inv (c : Dev nD) : ∀ (n : ℕ) (t : Fin cfg1.N), t.val = n → ∀ (h : Fin 20) (s : Fin 1024) (e : Fin 64),
    (outsAt1 V c t.val t.isLt).2.1 (ix3 h s e) = V c main_v8 (ix3 (batchOf t) s (kCol (col h e)))
    ∧ (outsAt1 V c t.val t.isLt).2.2 (ix3 h s e) = V c main_v8 (ix3 (batchOf t) s (vCol (col h e))) := by
  intro n
  induction n using Nat.strong_induction_on with
  | _ n ih =>
    intro t ht h s e
    by_cases h0 : t.val % 8 = 0
    · obtain ⟨-, eK, eV⟩ := outs_first V c t h0
      constructor
      · rw [eK]
        exact (relaid_keys_at (blk1 V c 1 t) h s e).trans (keys_at V c t s (col h e))
      · rw [eV]
        exact (relaid_vals_at (blk1 V c 2 t) h s e).trans (vals_at V c t s (col h e))
    · obtain ⟨-, eK, eV⟩ := outs_later V c t h0
      have hlt : t.val - 1 < n := by omega
      have ih' := ih (t.val - 1) hlt ⟨t.val - 1, Nat.lt_of_le_of_lt (Nat.sub_le _ _) t.isLt⟩ rfl h s e
      rw [batchOf_pred t h0] at ih'
      rw [eK, eV]
      exact ih'

/-- The scratch buffers at point `t`, stated at the point. -/
theorem scratch_keys_at (c : Dev nD) (t : Fin cfg1.N) (h : Fin 20) (s : Fin 1024) (e : Fin 64) :
    (outsAt1 V c t.val t.isLt).2.1 (ix3 h s e) = V c main_v8 (ix3 (batchOf t) s (kCol (col h e))) :=
  (scratch_inv V c t.val t rfl h s e).1
theorem scratch_vals_at (c : Dev nD) (t : Fin cfg1.N) (h : Fin 20) (s : Fin 1024) (e : Fin 64) :
    (outsAt1 V c t.val t.isLt).2.2 (ix3 h s e) = V c main_v8 (ix3 (batchOf t) s (vCol (col h e))) :=
  (scratch_inv V c t.val t rfl h s e).2

/-- Every tile is the body's value on the point's query tile, the scratch contents after the point, the weights and
    the bias. (At the first point of a batch the scratch contents after the point are the ones it just wrote;
    elsewhere they are the ones it found.) -/
theorem tile_eq (c : Dev nD) (t : Fin cfg1.N) :
    (outsAt1 V c t.val t.isLt).1 = k1_pay1 (F := Ideal) (k1_pay4 (F := Ideal) (blk1 V c 0 t)
      (outsAt1 V c t.val t.isLt).2.1 (outsAt1 V c t.val t.isLt).2.2 (blk1 V c 3 t) (blk1 V c 4 t)) := by
  by_cases h0 : t.val % 8 = 0
  · obtain ⟨eT, eK, eV⟩ := outs_first V c t h0
    rw [eK, eV]; exact eT
  · obtain ⟨eT, eK, eV⟩ := outs_later V c t h0
    rw [eK, eV]; exact eT

/-- EVERY TILE IS THE SPECIFICATION on its rows, given what the fused projections, the output weights and the bias
    row hold. -/
theorem tile_is_spec (c : Dev nD) (x : SX.Idx → EReal) (wq wk wv wo : SW.Idx → EReal) (bo : SB.Idx → EReal)
    (hq : ∀ (b : Fin 8) (s : Fin 1024) (n : Fin 1280), V c main_v8 (ix3 b s (qCol n)) = proj x wq b s n)
    (hk : ∀ (b : Fin 8) (s : Fin 1024) (n : Fin 1280), V c main_v8 (ix3 b s (kCol n)) = proj x wk b s n)
    (hv : ∀ (b : Fin 8) (s : Fin 1024) (n : Fin 1280), V c main_v8 (ix3 b s (vCol n)) = proj x wv b s n)
    (hwo : ∀ (o k : Fin 1280), V c main_v4 (ix2 o k) = wo (ix2 o k))
    (hbo : ∀ (o : Fin 1280), V c main_v9 (ix2 (0 : Fin 1) o) = bo (ix1 o))
    (t : Fin cfg1.N) (r : Fin 128) (o : Fin 1280) :
    (outsAt1 V c t.val t.isLt).1 (ix3 (0 : Fin 1) r o) = G x wq wk wv wo bo (ix3 (batchOf t) (rowOf t r) o) := by
  rw [tile_eq V c t, G_ix3, out_eq_local]
  refine (tile_at (blk1 V c 0 t) (outsAt1 V c t.val t.isLt).2.1 (outsAt1 V c t.val t.isLt).2.2 (blk1 V c 3 t) (blk1 V c 4 t) r o).trans ?_
  refine lout_congr ?_ ?_ ?_ ?_ ?_ o
  · funext n
    exact (q_tile_at V c t r n).trans (hq _ _ n)
  · funext s n
    rw [scratch_keys_at V c t, col_headOf_laneOf]
    exact hk _ s n
  · funext s n
    rw [scratch_vals_at V c t, col_headOf_laneOf]
    exact hv _ s n
  · rw [wo_block V c t]
    funext j
    rw [eq_ix2 j]
    exact hwo _ _
  · funext n
    rw [bias_block V c t]
    exact hbo n

/-- THE RESULT ARRAY of the attention call is the specification, given the five facts. -/
theorem result_is_spec (c : Dev nD) (x : SX.Idx → EReal) (wq wk wv wo : SW.Idx → EReal) (bo : SB.Idx → EReal)
    (hq : ∀ (b : Fin 8) (s : Fin 1024) (n : Fin 1280), V c main_v8 (ix3 b s (qCol n)) = proj x wq b s n)
    (hk : ∀ (b : Fin 8) (s : Fin 1024) (n : Fin 1280), V c main_v8 (ix3 b s (kCol n)) = proj x wk b s n)
    (hv : ∀ (b : Fin 8) (s : Fin 1024) (n : Fin 1280), V c main_v8 (ix3 b s (vCol n)) = proj x wv b s n)
    (hwo : ∀ (o k : Fin 1280), V c main_v4 (ix2 o k) = wo (ix2 o k))
    (hbo : ∀ (o : Fin 1280), V c main_v9 (ix2 (0 : Fin 1) o) = bo (ix1 o)) :
    (dat1 V c).arrAt 5 cfg1.N = G x wq wk wv wo bo :=
  attn_final V c (G x wq wk wv wo bo) (tile_is_spec V c x wq wk wv wo bo hq hk hv hwo hbo)

end

/-- THE KERNEL IS THE SPECIFICATION: the result array the attention call leaves, from the buffers' contents when
    the call is entered, is the specification of the launch contents of the six arguments. -/
theorem kernel_is_spec (m : (ℓ : Loc nD τ sig) → Buf (Elt Ideal) ℓ) (ρ : Dev nD → PrngReg) (c : Dev nD) :
    (dat1 (E3 m ρ) c).arrAt 5 cfg1.N
      = Cert.AttnSpec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  result_is_spec (E3 m ρ) c _ _ _ _ _ _ (fused_q m ρ c) (fused_k m ρ c) (fused_v m ρ c) (out_weights m ρ c) (bias_row m ρ c)

end Cert.KernelIdeal.Attn

end
-- ==== Proof.lean ====
/-
  Dense multi-head self-attention (8 batches × 1024 positions × 1280 channels, 20 heads of width 64) computed by two
  kernel calls — one fused projection  qkv = x · [Wq; Wk; Wv]ᵀ + 0  over row blocks, then, per batch and per tile of
  128 queries, the attention itself: keys and values re-laid head by head into scratch once per batch, scores
  q·kᵀ · (1/8), a softmax over the 1024 keys, probabilities · v, the heads laid side by side again, and the output
  projection  · Woᵀ + bo  — against the plain jnp formulation with three separate projections, 4-dimensional
  einsums and the scale computed as 64^(-1/2).

  On the extended reals the two are one function of the six arguments, index by index (`Cert.AttnSpec.G`): every
  sum runs over a whole axis on both sides (channels, head width, keys, channels), so no sum is regrouped and no
  finiteness is needed; the narrowing to 16-bit floats is the identity; adding the zero bias is the identity on every
  extended real; 64^(-1/2) is exactly 1/8, the kernel's literal; maximum, exponential, sum and quotient of the softmax
  are the same operations on both sides.

  The kernel program's two calls run under the pipeline's rule for a list of segments: the projection call stores
  one whole block per point; the attention call has two control cases (the scratch is rewritten exactly at the
  first tile of each batch and carried, unchanged, through the other seven), reads the fused q|k|v array through
  three windows — whose one ownership is dealt in three at entry and made whole at exit — and writes each output
  tile once. The same text proves the frame at the word-level instance and at the ideal one. The result array is
  then read off the run: the projection's rows, the reshapes in between, the blocks each point finds, the scratch
  contents by induction over the 64 points, each tile, and the tiles' cover of the array. The reference's value is
  its run read back operation by operation.
-/
import proofs.«122070_j75737453297854_2_alg».proof.Defs
import proofs.«122070_j75737453297854_2_alg».proof.Proof.Gen.Kernel
import proofs.«122070_j75737453297854_2_alg».proof.Proof.Gen.KernelIdeal
import proofs.«122070_j75737453297854_2_alg».proof.Proof.Gen.ReferenceIdeal
import proofs.«122070_j75737453297854_2_alg».proof.Proof.Gen.Pre_finite_inputs
import proofs.«122070_j75737453297854_2_alg».proof.Proof.Gen.ReferenceIdeal.Run
import proofs.«122070_j75737453297854_2_alg».proof.Proof.Gen.ReferenceIdeal.Read
import proofs.«122070_j75737453297854_2_alg».proof.Proof.KernelRun3
import proofs.«122070_j75737453297854_2_alg».proof.Proof.Run3
import proofs.«122070_j75737453297854_2_alg».proof.Proof.RefIsSpec
import proofs.«122070_j75737453297854_2_alg».proof.Proof.KernelIsSpec
import Idealize.ShloMosaic.Adequacy
import Idealize.ShloMosaic.Init

noncomputable section

namespace Cert.Proof

open Idealize.ShloMosaic Idealize.SL.Sem

/-- The word-level kernel program runs to the end, faults nowhere and leaves its six arguments as launched. -/
theorem frame_kernel : Cert.frame_Kernel (hKernel := Cert.Kernel.Gen.facts) (hPre_finite_inputs := Cert.Pre_finite_inputs.Gen.facts) :=
  fun m ρ _ => Cert.Kernel.Attn.frame (F := Bits) m ρ

/-- So does its reading over the extended reals. -/
theorem frame_ideal : Cert.frame_KernelIdeal (hKernelIdeal := Cert.KernelIdeal.Gen.facts) (hPre_finite_inputs := Cert.Pre_finite_inputs.Gen.facts) :=
  fun m ρ _ => Cert.KernelIdeal.Attn.frame (F := Ideal) m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation of the kernel program was rewritten for the ideal reading: nothing to preserve. -/
theorem preserves : Cert.preserves_Kernel_KernelIdeal := trivial

/-- From memories agreeing on the arguments both programs end with the result array at the one specification
    `Cert.AttnSpec.G` of the arguments: the kernel's by the run with its result named and the value read off it, the
    reference's by its run read back. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.AttnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Attn.kernel_is_spec m ρ c), (h c).2⟩)
      (Cert.KernelIdeal.Attn.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.RefValue.ref_is_spec, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
